-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S320000 : Shape := ⟨1, ![320000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64x1 : Shape := ⟨2, ![64, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S256 .f32) (main_arg9 : FVec F S256x64 .f32) (main_arg10 : FVec F S64 .f32) (main_arg11 : FVec F S64x1 .f32) (main_arg12 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_v48 main_v49 main_v50

def fn_part1 {F : FTy → Type} [FloatOps F] (main_arg5 : FVec F S64x128 .f32) (main_arg6 : FVec F S128 .f32) (main_arg7 : FVec F S128x256 .f32) (main_arg8 : FVec F S256 .f32) (main_arg9 : FVec F S256x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S20000x128 .f32) (main_arg1 : IVec S2x320000 32) (main_arg2 : FVec F S320000 .f32) (main_arg3 : FVec F S128x64 .f32) (main_arg4 : FVec F S64 .f32) (main_arg5 : FVec F S64x128 .f32) (main_arg6 : FVec F S128 .f32) (main_arg7 : FVec F S128x256 .f32) (main_arg8 : FVec F S256 .f32) (main_arg9 : FVec F S256x64 .f32) (main_arg10 : FVec F S64 .f32) (main_arg11 : FVec F S64x1 .f32) (main_arg12 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S20000x128 : Shape := ⟨2, ![20000, 128]⟩
abbrev S2x320000 : Shape := ⟨2, ![2, 320000]⟩
abbrev S320000 : Shape := ⟨1, ![320000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64x1 : Shape := ⟨2, ![64, 1]⟩
abbrev S1 : Shape := ⟨1, ![1]⟩
abbrev S20000 : Shape := ⟨1, ![20000]⟩
abbrev S1x320000 : Shape := ⟨2, ![1, 320000]⟩
abbrev S340000 : Shape := ⟨1, ![340000]⟩
abbrev S_ : Shape := ⟨0, ![]⟩
abbrev S340000x1 : Shape := ⟨2, ![340000, 1]⟩
abbrev S20000x64 : Shape := ⟨2, ![20000, 64]⟩
abbrev S2000x128 : Shape := ⟨2, ![2000, 128]⟩
abbrev S2000x64 : Shape := ⟨2, ![2000, 64]⟩
abbrev S340000x64 : Shape := ⟨2, ![340000, 64]⟩
abbrev S1x64 : Shape := ⟨2, ![1, 64]⟩
abbrev S1x128 : Shape := ⟨2, ![1, 128]⟩
abbrev S340000x128 : Shape := ⟨2, ![340000, 128]⟩
abbrev S1x256 : Shape := ⟨2, ![1, 256]⟩
abbrev S20000x256 : Shape := ⟨2, ![20000, 256]⟩
abbrev S2000x256 : Shape := ⟨2, ![2000, 256]⟩
abbrev S20000x1 : Shape := ⟨2, ![20000, 1]⟩
abbrev S2000x1 : Shape := ⟨2, ![2000, 1]⟩
abbrev S1x1 : Shape := ⟨2, ![1, 1]⟩

abbrev nBuf : Space → Nat
  | .hbm => 147
  | .vmem => 42
  | .smem => 0
  | _ => 0

abbrev hbmTy0_0 (i : Nat) : BufTy := match i % 128 with
  | 0 => ⟨S20000x128, .f32⟩
  | 1 => ⟨S2x320000, .i32⟩
  | 2 => ⟨S320000, .f32⟩
  | 3 => ⟨S128x64, .f32⟩
  | 4 => ⟨S64, .f32⟩
  | 5 => ⟨S64x128, .f32⟩
  | 6 => ⟨S128, .f32⟩
  | 7 => ⟨S128x256, .f32⟩
  | 8 => ⟨S256, .f32⟩
  | 9 => ⟨S256x64, .f32⟩
  | 10 => ⟨S64, .f32⟩
  | 11 => ⟨S64x1, .f32⟩
  | 12 => ⟨S1, .f32⟩
  | 13 => ⟨S20000, .i32⟩
  | 14 => ⟨S1x320000, .i32⟩
  | 15 => ⟨S320000, .i32⟩
  | 16 => ⟨S340000, .i32⟩
  | 17 => ⟨S1x320000, .i32⟩
  | 18 => ⟨S320000, .i32⟩
  | 19 => ⟨S340000, .i32⟩
  | 20 => ⟨S_, .f32⟩
  | 21 => ⟨S20000, .f32⟩
  | 22 => ⟨S340000, .f32⟩
  | 23 => ⟨S_, .f32⟩
  | 24 => ⟨S20000, .f32⟩
  | 25 => ⟨S340000x1, .i32⟩
  | 26 => ⟨S20000, .f32⟩
  | 27 => ⟨S_, .f32⟩
  | 28 => ⟨S20000, .f32⟩
  | 29 => ⟨S20000, .i1⟩
  | 30 => ⟨S20000, .f32⟩
  | 31 => ⟨S_, .f32⟩
  | 32 => ⟨S_, .f32⟩
  | 33 => ⟨S20000, .f32⟩
  | 34 => ⟨S20000, .f32⟩
  | 35 => ⟨S_, .i32⟩
  | 36 => ⟨S340000, .i32⟩
  | 37 => ⟨S340000, .i1⟩
  | 38 => ⟨S_, .i32⟩
  | 39 => ⟨S340000, .i32⟩
  | 40 => ⟨S340000, .i32⟩
  | 41 => ⟨S340000, .i32⟩
  | 42 => ⟨S340000x1, .i32⟩
  | 43 => ⟨S340000, .f32⟩
  | 44 => ⟨S340000, .f32⟩
  | 45 => ⟨S_, .i32⟩
  | 46 => ⟨S340000, .i32⟩
  | 47 => ⟨S340000, .i1⟩
  | 48 => ⟨S_, .i32⟩
  | 49 => ⟨S340000, .i32⟩
  | 50 => ⟨S340000, .i32⟩
  | 51 => ⟨S340000, .i32⟩
  | 52 => ⟨S340000x1, .i32⟩
  | 53 => ⟨S340000, .f32⟩
  | 54 => ⟨S340000, .f32⟩
  | 55 => ⟨S20000x64, .f32⟩
  | 56 => ⟨S_, .i32⟩
  | 57 => ⟨S340000, .i32⟩
  | 58 => ⟨S340000, .i1⟩
  | 59 => ⟨S_, .i32⟩
  | 60 => ⟨S340000, .i32⟩
  | 61 => ⟨S340000, .i32⟩
  | 62 => ⟨S340000, .i32⟩
  | 63 => ⟨S340000x1, .i32⟩
  | 64 => ⟨S340000x64, .f32⟩
  | 65 => ⟨S340000x1, .f32⟩
  | 66 => ⟨S340000x64, .f32⟩
  | 67 => ⟨S340000x64, .f32⟩
  | 68 => ⟨S_, .f32⟩
  | 69 => ⟨S20000x64, .f32⟩
  | 70 => ⟨S340000x1, .i32⟩
  | 71 => ⟨S20000x64, .f32⟩
  | 72 => ⟨S1x64, .f32⟩
  | 73 => ⟨S20000x64, .f32⟩
  | 74 => ⟨S_, .i32⟩
  | 75 => ⟨S340000, .i32⟩
  | 76 => ⟨S340000, .i1⟩
  | 77 => ⟨S_, .i32⟩
  | 78 => ⟨S340000, .i32⟩
  | 79 => ⟨S340000, .i32⟩
  | 80 => ⟨S340000, .i32⟩
  | 81 => ⟨S340000x1, .i32⟩
  | 82 => ⟨S340000x64, .f32⟩
  | 83 => ⟨S340000x1, .f32⟩
  | 84 => ⟨S340000x64, .f32⟩
  | 85 => ⟨S340000x64, .f32⟩
  | 86 => ⟨S_, .f32⟩
  | 87 => ⟨S20000x64, .f32⟩
  | 88 => ⟨S340000x1, .i32⟩
  | 89 => ⟨S20000x64, .f32⟩
  | 90 => ⟨S1x128, .f32⟩
  | 91 => ⟨S20000x128, .f32⟩
  | 92 => ⟨S_, .i32⟩
  | 93 => ⟨S340000, .i32⟩
  | 94 => ⟨S340000, .i1⟩
  | 95 => ⟨S_, .i32⟩
  | 96 => ⟨S340000, .i32⟩
  | 97 => ⟨S340000, .i32⟩
  | 98 => ⟨S340000, .i32⟩
  | 99 => ⟨S340000x1, .i32⟩
  | 100 => ⟨S340000x128, .f32⟩
  | 101 => ⟨S340000x1, .f32⟩
  | 102 => ⟨S340000x128, .f32⟩
  | 103 => ⟨S340000x128, .f32⟩
  | 104 => ⟨S_, .f32⟩
  | 105 => ⟨S20000x128, .f32⟩
  | 106 => ⟨S340000x1, .i32⟩
  | 107 => ⟨S20000x128, .f32⟩
  | 108 => ⟨S1x256, .f32⟩
  | 109 => ⟨S20000x256, .f32⟩
  | 110 => ⟨S20000x64, .f32⟩
  | 111 => ⟨S_, .i32⟩
  | 112 => ⟨S340000, .i32⟩
  | 113 => ⟨S340000, .i1⟩
  | 114 => ⟨S_, .i32⟩
  | 115 => ⟨S340000, .i32⟩
  | 116 => ⟨S340000, .i32⟩
  | 117 => ⟨S340000, .i32⟩
  | 118 => ⟨S340000x1, .i32⟩
  | 119 => ⟨S340000x64, .f32⟩
  | 120 => ⟨S340000x1, .f32⟩
  | 121 => ⟨S340000x64, .f32⟩
  | 122 => ⟨S340000x64, .f32⟩
  | 123 => ⟨S_, .f32⟩
  | 124 => ⟨S20000x64, .f32⟩
  | 125 => ⟨S340000x1, .i32⟩
  | 126 => ⟨S20000x64, .f32⟩
  | 127 => ⟨S1x64, .f32⟩
  | _ => ⟨S20000x128, .f32⟩

abbrev hbmTy0_1 (i : Nat) : BufTy := match i % 128 with
  | 0 => ⟨S20000x64, .f32⟩
  | 1 => ⟨S20000x1, .f32⟩
  | 2 => ⟨S_, .i32⟩
  | 3 => ⟨S340000, .i32⟩
  | 4 => ⟨S340000, .i1⟩
  | 5 => ⟨S_, .i32⟩
  | 6 => ⟨S340000, .i32⟩
  | 7 => ⟨S340000, .i32⟩
  | 8 => ⟨S340000, .i32⟩
  | 9 => ⟨S340000x1, .i32⟩
  | 10 => ⟨S340000x1, .f32⟩
  | 11 => ⟨S340000x1, .f32⟩
  | 12 => ⟨S340000x1, .f32⟩
  | 13 => ⟨S_, .f32⟩
  | 14 => ⟨S20000x1, .f32⟩
  | 15 => ⟨S340000x1, .i32⟩
  | 16 => ⟨S20000x1, .f32⟩
  | 17 => ⟨S1x1, .f32⟩
  | 18 => ⟨S20000x1, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x1, .f32⟩
  | .local _ .vmem, ⟨35, _⟩ => ⟨S2000x1, .f32⟩
  | .local _ .vmem, ⟨36, _⟩ => ⟨S2000x1, .f32⟩
  | .local _ .vmem, ⟨37, _⟩ => ⟨S2000x1, .f32⟩
  | .local _ .vmem, ⟨38, _⟩ => ⟨S2000x1, .f32⟩
  | .local _ .vmem, ⟨39, _⟩ => ⟨S1x1, .f32⟩
  | .local _ .vmem, ⟨40, _⟩ => ⟨S2000x1, .f32⟩
  | .local _ .vmem, ⟨41, _⟩ => ⟨S2000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_18 : Ref sig .tc := ⟨.hbm, 130, rfl⟩
abbrev main_v95 : Ref sig .tc := ⟨.hbm, 131, rfl⟩
abbrev main_v96 : Ref sig .tc := ⟨.hbm, 132, rfl⟩
abbrev main_c_19 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_20 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S340000_S340000x1_0 : S340000.BroadcastsInDim S340000x1 (![0] : Fin 1 → Fin S340000x1.rank)
  bcast_S_S340000 : S_.BroadcastsInDim S340000 (![] : Fin 0 → Fin S340000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S340000x1_S340000x64_0_1 : S340000x1.BroadcastsInDim S340000x64 (![0, 1] : Fin 2 → Fin S340000x64.rank)
  bcast_S_S20000x64 : S_.BroadcastsInDim S20000x64 (![] : Fin 0 → Fin S20000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S340000x1_S340000x128_0_1 : S340000x1.BroadcastsInDim S340000x128 (![0, 1] : Fin 2 → Fin S340000x128.rank)
  bcast_S_S20000x128 : S_.BroadcastsInDim S20000x128 (![] : Fin 0 → Fin S20000x128.rank)
  shapeCasts_S256_S1x256 : S256.ShapeCasts S1x256
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S64x1_S64x1_0_0 : ∀ a, (![0, 0] : Fin 2 → Nat) a + S64x1.size a ≤ S64x1.size a
  h_S64x1 : 0 < S64x1.numel
  inb_S2000x1_S2000x1_0_0 : ∀ a, (![0, 0] : Fin 2 → Nat) a + S2000x1.size a ≤ S2000x1.size a
  h_S2000x1 : 0 < S2000x1.numel
  bcast_S_S20000x1 : S_.BroadcastsInDim S20000x1 (![] : Fin 0 → Fin S20000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S2000x128_S128x64_S2000x64_1_0_0_1_n_n_wf : DotDims.WF S2000x128 S128x64 S2000x64 [1] [0] [0] [1] [] []
  gather_S20000x64_S340000x1_S340000x64_1_0_n_n_0_1_164_wf : GatherDims.WF S20000x64 S340000x1 S340000x64 [1] [0] [] [0] [] 1 ![1, 64]
  scatter_S20000x64_S340000x1_S340000x64_1_0_0_1_wf : ScatterDims.WF S20000x64 S340000x1 S340000x64 [1] [0] [0] 1
  dot_S2000x64_S64x128_S2000x128_1_0_0_1_n_n_wf : DotDims.WF S2000x64 S64x128 S2000x128 [1] [0] [0] [1] [] []
  gather_S20000x128_S340000x1_S340000x128_1_0_n_n_0_1_1128_wf : GatherDims.WF S20000x128 S340000x1 S340000x128 [1] [0] [] [0] [] 1 ![1, 128]
  scatter_S20000x128_S340000x1_S340000x128_1_0_0_1_wf : ScatterDims.WF S20000x128 S340000x1 S340000x128 [1] [0] [0] 1
  dot_S2000x128_S128x256_S2000x256_1_0_0_1_n_n_wf : DotDims.WF S2000x128 S128x256 S2000x256 [1] [0] [0] [1] [] []
  dot_S2000x256_S256x64_S2000x64_1_0_0_1_n_n_wf : DotDims.WF S2000x256 S256x64 S2000x64 [1] [0] [0] [1] [] []
  dot_S2000x64_S64x1_S2000x1_1_0_0_1_n_n_wf : DotDims.WF S2000x64 S64x1 S2000x1 [1] [0] [0] [1] [] []
  gather_S20000x1_S340000x1_S340000x1_1_0_n_n_0_1_11_wf : GatherDims.WF S20000x1 S340000x1 S340000x1 [1] [0] [] [0] [] 1 ![1, 1]
  scatter_S20000x1_S340000x1_S340000x1_1_0_0_1_wf : ScatterDims.WF S20000x1 S340000x1 S340000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S20000x64.size a
  hwx0_2 : ∀ i : grid0.Coords, EltTy.bits .f32 = 32 ∨ (Rect.block (s := S20000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S20000x64.size a
  hwx1_0 : ∀ i : grid1.Coords, EltTy.bits .f32 = 32 ∨ (Rect.block (s := S20000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S20000x64.size a
  hwx1_2 : ∀ i : grid1.Coords, EltTy.bits .f32 = 32 ∨ (Rect.block (s := S20000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S20000x64.size a
  hwx2_0 : ∀ i : grid2.Coords, EltTy.bits .f32 = 32 ∨ (Rect.block (s := S20000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S20000x128.size a
  hwx2_3 : ∀ i : grid2.Coords, EltTy.bits .f32 = 32 ∨ (Rect.block (s := S20000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S20000x256.size a
  hwx3_3 : ∀ i : grid3.Coords, EltTy.bits .f32 = 32 ∨ (Rect.block (s := S20000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S20000x64.size a
  hwx4_2 : ∀ i : grid4.Coords, EltTy.bits .f32 = 32 ∨ (Rect.block (s := S20000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S20000x64.size a
  hwx5_0 : ∀ i : grid5.Coords, EltTy.bits .f32 = 32 ∨ (Rect.block (s := S20000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S20000x64.size a
  hwx5_2 : ∀ i : grid5.Coords, EltTy.bits .f32 = 32 ∨ (Rect.block (s := S20000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S20000x64.size a
  hwx6_0 : ∀ i : grid6.Coords, EltTy.bits .f32 = 32 ∨ (Rect.block (s := S20000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S20000x1.size a
  hwx6_2 : ∀ i : grid6.Coords, EltTy.bits .f32 = 32 ∨ (Rect.block (s := S20000x1) S2000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x1.size a ≤ S20000x1.size a
  hwx7_0 : ∀ i : grid7.Coords, EltTy.bits .f32 = 32 ∨ (Rect.block (s := S20000x1) S2000x1.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x1.size a ≤ S1x1.size a
  hwx7_1 : ∀ i : grid7.Coords, EltTy.bits .f32 = 32 ∨ (Rect.block (s := S1x1) S1x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S20000x1.size a
  hwx7_2 : ∀ i : grid7.Coords, EltTy.bits .f32 = 32 ∨ (Rect.block (s := S20000x1) S2000x1.size (cc7_transform_2 i) (hinb7_2 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S20000x64_S340000x1_S340000x64_1_0_n_n_0_1_164 : GatherDims S20000x64 S340000x1 S340000x64 where
  offsetDims := [1]
  collapsedSliceDims := [0]
  operandBatchingDims := []
  startIndicesBatchingDims := []
  startIndexMap := [0]
  indexVectorDim := 1
  sliceSizes := ![1, 64]
  wf := gather_S20000x64_S340000x1_S340000x64_1_0_n_n_0_1_164_wf
def scatter_S20000x64_S340000x1_S340000x64_1_0_0_1 : ScatterDims S20000x64 S340000x1 S340000x64 where
  updateWindowDims := [1]
  insertedWindowDims := [0]
  scatterDimsToOperandDims := [0]
  indexVectorDim := 1
  wf := scatter_S20000x64_S340000x1_S340000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S20000x128_S340000x1_S340000x128_1_0_n_n_0_1_1128 : GatherDims S20000x128 S340000x1 S340000x128 where
  offsetDims := [1]
  collapsedSliceDims := [0]
  operandBatchingDims := []
  startIndicesBatchingDims := []
  startIndexMap := [0]
  indexVectorDim := 1
  sliceSizes := ![1, 128]
  wf := gather_S20000x128_S340000x1_S340000x128_1_0_n_n_0_1_1128_wf
def scatter_S20000x128_S340000x1_S340000x128_1_0_0_1 : ScatterDims S20000x128 S340000x1 S340000x128 where
  updateWindowDims := [1]
  insertedWindowDims := [0]
  scatterDimsToOperandDims := [0]
  indexVectorDim := 1
  wf := scatter_S20000x128_S340000x1_S340000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S20000x1_S340000x1_S340000x1_1_0_n_n_0_1_11 : GatherDims S20000x1 S340000x1 S340000x1 where
  offsetDims := [1]
  collapsedSliceDims := [0]
  operandBatchingDims := []
  startIndicesBatchingDims := []
  startIndexMap := [0]
  indexVectorDim := 1
  sliceSizes := ![1, 1]
  wf := gather_S20000x1_S340000x1_S340000x1_1_0_n_n_0_1_11_wf
def scatter_S20000x1_S340000x1_S340000x1_1_0_0_1 : ScatterDims S20000x1 S340000x1 S340000x1 where
  updateWindowDims := [1]
  insertedWindowDims := [0]
  scatterDimsToOperandDims := [0]
  indexVectorDim := 1
  wf := scatter_S20000x1_S340000x1_S340000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v77) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v93) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S2000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v106) S2000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v107) S1x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S2000x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S320000 : Shape := ⟨1, ![320000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x64 : Shape := ⟨2, ![256, 64]⟩
abbrev S64x1 : Shape := ⟨2, ![64, 1]⟩
abbrev S1 : Shape := ⟨1, ![1]⟩
abbrev S20000 : Shape := ⟨1, ![20000]⟩
abbrev S1x320000 : Shape := ⟨2, ![1, 320000]⟩
abbrev S340000 : Shape := ⟨1, ![340000]⟩
abbrev S_ : Shape := ⟨0, ![]⟩
abbrev S340000x1 : Shape := ⟨2, ![340000, 1]⟩
abbrev S20000x64 : Shape := ⟨2, ![20000, 64]⟩
abbrev S340000x64 : Shape := ⟨2, ![340000, 64]⟩
abbrev S1x64 : Shape := ⟨2, ![1, 64]⟩
abbrev S340000x128 : Shape := ⟨2, ![340000, 128]⟩
abbrev S1x128 : Shape := ⟨2, ![1, 128]⟩
abbrev S20000x256 : Shape := ⟨2, ![20000, 256]⟩
abbrev S340000x256 : Shape := ⟨2, ![340000, 256]⟩
abbrev S1x256 : Shape := ⟨2, ![1, 256]⟩
abbrev S20000x1 : Shape := ⟨2, ![20000, 1]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S20000x128, .f32⟩
  | 1 => ⟨S2x320000, .i32⟩
  | 2 => ⟨S320000, .f32⟩
  | 3 => ⟨S128x64, .f32⟩
  | 4 => ⟨S64, .f32⟩
  | 5 => ⟨S64x128, .f32⟩
  | 6 => ⟨S128, .f32⟩
  | 7 => ⟨S128x256, .f32⟩
  | 8 => ⟨S256, .f32⟩
  | 9 => ⟨S256x64, .f32⟩
  | 10 => ⟨S64, .f32⟩
  | 11 => ⟨S64x1, .f32⟩
  | 12 => ⟨S1, .f32⟩
  | 13 => ⟨S20000, .i32⟩
  | 14 => ⟨S1x320000, .i32⟩
  | 15 => ⟨S320000, .i32⟩
  | 16 => ⟨S340000, .i32⟩
  | 17 => ⟨S1x320000, .i32⟩
  | 18 => ⟨S320000, .i32⟩
  | 19 => ⟨S340000, .i32⟩
  | 20 => ⟨S_, .f32⟩
  | 21 => ⟨S20000, .f32⟩
  | 22 => ⟨S340000, .f32⟩
  | 23 => ⟨S_, .f32⟩
  | 24 => ⟨S20000, .f32⟩
  | 25 => ⟨S340000x1, .i32⟩
  | 26 => ⟨S20000, .f32⟩
  | 27 => ⟨S_, .f32⟩
  | 28 => ⟨S20000, .f32⟩
  | 29 => ⟨S20000, .i1⟩
  | 30 => ⟨S20000, .f32⟩
  | 31 => ⟨S_, .f32⟩
  | 32 => ⟨S_, .f32⟩
  | 33 => ⟨S20000, .f32⟩
  | 34 => ⟨S20000, .f32⟩
  | 35 => ⟨S_, .i32⟩
  | 36 => ⟨S340000, .i32⟩
  | 37 => ⟨S340000, .i1⟩
  | 38 => ⟨S_, .i32⟩
  | 39 => ⟨S340000, .i32⟩
  | 40 => ⟨S340000, .i32⟩
  | 41 => ⟨S340000, .i32⟩
  | 42 => ⟨S340000x1, .i32⟩
  | 43 => ⟨S340000, .f32⟩
  | 44 => ⟨S340000, .f32⟩
  | 45 => ⟨S_, .i32⟩
  | 46 => ⟨S340000, .i32⟩
  | 47 => ⟨S340000, .i1⟩
  | 48 => ⟨S_, .i32⟩
  | 49 => ⟨S340000, .i32⟩
  | 50 => ⟨S340000, .i32⟩
  | 51 => ⟨S340000, .i32⟩
  | 52 => ⟨S340000x1, .i32⟩
  | 53 => ⟨S340000, .f32⟩
  | 54 => ⟨S340000, .f32⟩
  | 55 => ⟨S20000x64, .f32⟩
  | 56 => ⟨S_, .i32⟩
  | 57 => ⟨S340000, .i32⟩
  | 58 => ⟨S340000, .i1⟩
  | 59 => ⟨S_, .i32⟩
  | 60 => ⟨S340000, .i32⟩
  | 61 => ⟨S340000, .i32⟩
  | 62 => ⟨S340000, .i32⟩
  | 63 => ⟨S340000x1, .i32⟩
  | 64 => ⟨S340000x64, .f32⟩
  | 65 => ⟨S340000x1, .f32⟩
  | 66 => ⟨S340000x64, .f32⟩
  | 67 => ⟨S340000x64, .f32⟩
  | 68 => ⟨S_, .f32⟩
  | 69 => ⟨S20000x64, .f32⟩
  | 70 => ⟨S340000x1, .i32⟩
  | 71 => ⟨S20000x64, .f32⟩
  | 72 => ⟨S1x64, .f32⟩
  | 73 => ⟨S20000x64, .f32⟩
  | 74 => ⟨S20000x64, .f32⟩
  | 75 => ⟨S_, .f32⟩
  | 76 => ⟨S20000x64, .f32⟩
  | 77 => ⟨S20000x64, .f32⟩
  | 78 => ⟨S20000x128, .f32⟩
  | 79 => ⟨S_, .i32⟩
  | 80 => ⟨S340000, .i32⟩
  | 81 => ⟨S340000, .i1⟩
  | 82 => ⟨S_, .i32⟩
  | 83 => ⟨S340000, .i32⟩
  | 84 => ⟨S340000, .i32⟩
  | 85 => ⟨S340000, .i32⟩
  | 86 => ⟨S340000x1, .i32⟩
  | 87 => ⟨S340000x128, .f32⟩
  | 88 => ⟨S340000x1, .f32⟩
  | 89 => ⟨S340000x128, .f32⟩
  | 90 => ⟨S340000x128, .f32⟩
  | 91 => ⟨S_, .f32⟩
  | 92 => ⟨S20000x128, .f32⟩
  | 93 => ⟨S340000x1, .i32⟩
  | 94 => ⟨S20000x128, .f32⟩
  | 95 => ⟨S1x128, .f32⟩
  | 96 => ⟨S20000x128, .f32⟩
  | 97 => ⟨S20000x128, .f32⟩
  | 98 => ⟨S_, .f32⟩
  | 99 => ⟨S20000x128, .f32⟩
  | 100 => ⟨S20000x128, .f32⟩
  | 101 => ⟨S20000x256, .f32⟩
  | 102 => ⟨S_, .i32⟩
  | 103 => ⟨S340000, .i32⟩
  | 104 => ⟨S340000, .i1⟩
  | 105 => ⟨S_, .i32⟩
  | 106 => ⟨S340000, .i32⟩
  | 107 => ⟨S340000, .i32⟩
  | 108 => ⟨S340000, .i32⟩
  | 109 => ⟨S340000x1, .i32⟩
  | 110 => ⟨S340000x256, .f32⟩
  | 111 => ⟨S340000x1, .f32⟩
  | 112 => ⟨S340000x256, .f32⟩
  | 113 => ⟨S340000x256, .f32⟩
  | 114 => ⟨S_, .f32⟩
  | 115 => ⟨S20000x256, .f32⟩
  | 116 => ⟨S340000x1, .i32⟩
  | 117 => ⟨S20000x256, .f32⟩
  | 118 => ⟨S1x256, .f32⟩
  | 119 => ⟨S20000x256, .f32⟩
  | 120 => ⟨S20000x256, .f32⟩
  | 121 => ⟨S_, .f32⟩
  | 122 => ⟨S20000x256, .f32⟩
  | 123 => ⟨S20000x256, .f32⟩
  | 124 => ⟨S20000x64, .f32⟩
  | 125 => ⟨S_, .i32⟩
  | 126 => ⟨S340000, .i32⟩
  | 127 => ⟨S340000, .i1⟩
  | _ => ⟨S20000x128, .f32⟩

abbrev hbmTy0_1 (i : Nat) : BufTy := match i % 128 with
  | 0 => ⟨S_, .i32⟩
  | 1 => ⟨S340000, .i32⟩
  | 2 => ⟨S340000, .i32⟩
  | 3 => ⟨S340000, .i32⟩
  | 4 => ⟨S340000x1, .i32⟩
  | 5 => ⟨S340000x64, .f32⟩
  | 6 => ⟨S340000x1, .f32⟩
  | 7 => ⟨S340000x64, .f32⟩
  | 8 => ⟨S340000x64, .f32⟩
  | 9 => ⟨S_, .f32⟩
  | 10 => ⟨S20000x64, .f32⟩
  | 11 => ⟨S340000x1, .i32⟩
  | 12 => ⟨S20000x64, .f32⟩
  | 13 => ⟨S1x64, .f32⟩
  | 14 => ⟨S20000x64, .f32⟩
  | 15 => ⟨S20000x64, .f32⟩
  | 16 => ⟨S_, .f32⟩
  | 17 => ⟨S20000x64, .f32⟩
  | 18 => ⟨S20000x64, .f32⟩
  | 19 => ⟨S20000x1, .f32⟩
  | 20 => ⟨S_, .i32⟩
  | 21 => ⟨S340000, .i32⟩
  | 22 => ⟨S340000, .i1⟩
  | 23 => ⟨S_, .i32⟩
  | 24 => ⟨S340000, .i32⟩
  | 25 => ⟨S340000, .i32⟩
  | 26 => ⟨S340000, .i32⟩
  | 27 => ⟨S340000x1, .i32⟩
  | 28 => ⟨S340000x1, .f32⟩
  | 29 => ⟨S340000x1, .f32⟩
  | 30 => ⟨S340000x1, .f32⟩
  | 31 => ⟨S_, .f32⟩
  | 32 => ⟨S20000x1, .f32⟩
  | 33 => ⟨S340000x1, .i32⟩
  | 34 => ⟨S20000x1, .f32⟩
  | 35 => ⟨S1x1, .f32⟩
  | 36 => ⟨S20000x1, .f32⟩
  | 37 => ⟨S20000x1, .f32⟩
  | 38 => ⟨S20000x1, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_c_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_v86 : Ref sig .tc := ⟨.hbm, 124, rfl⟩
abbrev main_c_15 : Ref sig .tc := ⟨.hbm, 125, rfl⟩
abbrev main_v87 : Ref sig .tc := ⟨.hbm, 126, rfl⟩
abbrev main_v88 : Ref sig .tc := ⟨.hbm, 127, rfl⟩
abbrev main_c_16 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call4_cst : Ref sig .tc := ⟨.hbm, 144, rfl⟩
abbrev main_call4_v0 : Ref sig .tc := ⟨.hbm, 145, rfl⟩
abbrev main_v103 : Ref sig .tc := ⟨.hbm, 146, rfl⟩
abbrev main_v104 : Ref sig .tc := ⟨.hbm, 147, rfl⟩
abbrev main_c_18 : Ref sig .tc := ⟨.hbm, 148, rfl⟩
abbrev main_v105 : Ref sig .tc := ⟨.hbm, 149, rfl⟩
abbrev main_v106 : Ref sig .tc := ⟨.hbm, 150, rfl⟩
abbrev main_c_19 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_20 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S340000_S340000x1_0 : S340000.BroadcastsInDim S340000x1 (![0] : Fin 1 → Fin S340000x1.rank)
  bcast_S_S340000 : S_.BroadcastsInDim S340000 (![] : Fin 0 → Fin S340000.rank)
  bcast_S340000x1_S340000x64_0_1 : S340000x1.BroadcastsInDim S340000x64 (![0, 1] : Fin 2 → Fin S340000x64.rank)
  bcast_S_S20000x64 : S_.BroadcastsInDim S20000x64 (![] : Fin 0 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S340000x1_S340000x128_0_1 : S340000x1.BroadcastsInDim S340000x128 (![0, 1] : Fin 2 → Fin S340000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x1 : S_.BroadcastsInDim S20000x1 (![] : Fin 0 → Fin S20000x1.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S20000x128_S128x64_S20000x64_1_0_0_1_n_n_wf : DotDims.WF S20000x128 S128x64 S20000x64 [1] [0] [0] [1] [] []
  gather_S20000x64_S340000x1_S340000x64_1_0_n_n_0_1_164_wf : GatherDims.WF S20000x64 S340000x1 S340000x64 [1] [0] [] [0] [] 1 ![1, 64]
  scatter_S20000x64_S340000x1_S340000x64_1_0_0_1_wf : ScatterDims.WF S20000x64 S340000x1 S340000x64 [1] [0] [0] 1
  dot_S20000x64_S64x128_S20000x128_1_0_0_1_n_n_wf : DotDims.WF S20000x64 S64x128 S20000x128 [1] [0] [0] [1] [] []
  gather_S20000x128_S340000x1_S340000x128_1_0_n_n_0_1_1128_wf : GatherDims.WF S20000x128 S340000x1 S340000x128 [1] [0] [] [0] [] 1 ![1, 128]
  scatter_S20000x128_S340000x1_S340000x128_1_0_0_1_wf : ScatterDims.WF S20000x128 S340000x1 S340000x128 [1] [0] [0] 1
  dot_S20000x128_S128x256_S20000x256_1_0_0_1_n_n_wf : DotDims.WF S20000x128 S128x256 S20000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x64_S20000x64_1_0_0_1_n_n_wf : DotDims.WF S20000x256 S256x64 S20000x64 [1] [0] [0] [1] [] []
  dot_S20000x64_S64x1_S20000x1_1_0_0_1_n_n_wf : DotDims.WF S20000x64 S64x1 S20000x1 [1] [0] [0] [1] [] []
  gather_S20000x1_S340000x1_S340000x1_1_0_n_n_0_1_11_wf : GatherDims.WF S20000x1 S340000x1 S340000x1 [1] [0] [] [0] [] 1 ![1, 1]
  scatter_S20000x1_S340000x1_S340000x1_1_0_0_1_wf : ScatterDims.WF S20000x1 S340000x1 S340000x1 [1] [0] [0] 1

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S20000x64_S340000x1_S340000x64_1_0_n_n_0_1_164 : GatherDims S20000x64 S340000x1 S340000x64 where
  offsetDims := [1]
  collapsedSliceDims := [0]
  operandBatchingDims := []
  startIndicesBatchingDims := []
  startIndexMap := [0]
  indexVectorDim := 1
  sliceSizes := ![1, 64]
  wf := gather_S20000x64_S340000x1_S340000x64_1_0_n_n_0_1_164_wf
def scatter_S20000x64_S340000x1_S340000x64_1_0_0_1 : ScatterDims S20000x64 S340000x1 S340000x64 where
  updateWindowDims := [1]
  insertedWindowDims := [0]
  scatterDimsToOperandDims := [0]
  indexVectorDim := 1
  wf := scatter_S20000x64_S340000x1_S340000x64_1_0_0_1_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def gather_S20000x128_S340000x1_S340000x128_1_0_n_n_0_1_1128 : GatherDims S20000x128 S340000x1 S340000x128 where
  offsetDims := [1]
  collapsedSliceDims := [0]
  operandBatchingDims := []
  startIndicesBatchingDims := []
  startIndexMap := [0]
  indexVectorDim := 1
  sliceSizes := ![1, 128]
  wf := gather_S20000x128_S340000x1_S340000x128_1_0_n_n_0_1_1128_wf
def scatter_S20000x128_S340000x1_S340000x128_1_0_0_1 : ScatterDims S20000x128 S340000x1 S340000x128 where
  updateWindowDims := [1]
  insertedWindowDims := [0]
  scatterDimsToOperandDims := [0]
  indexVectorDim := 1
  wf := scatter_S20000x128_S340000x1_S340000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x64_S20000x64_1_0_0_1_n_n : DotDims S20000x256 S256x64 S20000x64 where
  lhsContracting := [1]
  rhsContracting := [0]
  lhsNonContracting := [0]
  rhsNonContracting := [1]
  lhsBatch := []
  rhsBatch := []
  wf := dot_S20000x256_S256x64_S20000x64_1_0_0_1_n_n_wf
def dot_S20000x64_S64x1_S20000x1_1_0_0_1_n_n : DotDims S20000x64 S64x1 S20000x1 where
  lhsContracting := [1]
  rhsContracting := [0]
  lhsNonContracting := [0]
  rhsNonContracting := [1]
  lhsBatch := []
  rhsBatch := []
  wf := dot_S20000x64_S64x1_S20000x1_1_0_0_1_n_n_wf
def gather_S20000x1_S340000x1_S340000x1_1_0_n_n_0_1_11 : GatherDims S20000x1 S340000x1 S340000x1 where
  offsetDims := [1]
  collapsedSliceDims := [0]
  operandBatchingDims := []
  startIndicesBatchingDims := []
  startIndexMap := [0]
  indexVectorDim := 1
  sliceSizes := ![1, 1]
  wf := gather_S20000x1_S340000x1_S340000x1_1_0_n_n_0_1_11_wf
def scatter_S20000x1_S340000x1_S340000x1_1_0_0_1 : ScatterDims S20000x1 S340000x1 S340000x1 where
  updateWindowDims := [1]
  insertedWindowDims := [0]
  scatterDimsToOperandDims := [0]
  indexVectorDim := 1
  wf := scatter_S20000x1_S340000x1_S340000x1_1_0_0_1_wf

class Facts : Prop extends Facts₀ where

variable [Facts]
-- ==== Proof.KernelRun.lean ====
/-
  The idealized kernel's run with its RESULT named. The program is eight kernel regions among stretches of host
  operations; the buffer contents at each of the sixteen segment boundaries are a fold from the launch memory
  (a stretch applies its operations, a region replaces its arrays by what its write-backs leave). Every weakly
  fair execution terminates, and in every final state each unscoped buffer holds the last boundary's contents:
  so the result buffer holds the last boundary's value of it, and the arguments are as launched.
-/
import proofs.«154560_j68659347193894_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents of it, and every argument array ends as launched. -/
theorem run_result : θ_run defs (onTc (τ := τ) (main (F := F))) ⟨m, fun _ => 0, ρ⟩ (fun r => ∀ c : Dev nD,
      r.2.mem ((c.tc : Thread nD τ).loc main_v108) = W16 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v108 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.Run

end
-- ==== Proof.LibRowOps.lean ====
import Idealize.ShloMosaic.PureOps.Ideal
import Idealize.ShloMosaic.Lib.ValueIdx

/-!
# A row gather and a row scatter-add read at an index

For a table `x : [N, C]` and a column of row numbers `idx : [E, 1]`:

* the gather of whole rows, `[E, C]`, has at `(e, k)` the entry `x (row e, k)` where `row e` is the
  `e`-th row number read as a signed integer and clamped into `[0, N − 1]`;
* the accumulating scatter of rows `u : [E, C]` into `x` has at `(r, k)` the entry `x (r, k)` plus the sum of
  `u (e, k)` over the `e` whose row number, read as a signed integer, is exactly `r` (a row number outside
  `[0, N)` contributes nothing: it is dropped, not clamped).
-/

noncomputable section

open scoped BigOperators

namespace RowOps

open Idealize.ShloMosaic Idealize.ShloMosaic.ValueIdx

/-! ## The gather of rows -/

/-- The dimension numbers of a gather of whole rows: operand `[N, C]`, start indices `[E, 1]` whose second axis
    is the index vector (one component, the row), result `[E, C]` whose second axis is the offset along the
    operand's columns; the operand's row axis is collapsed, a slice is one row. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the `e`-th start index names: read signed, clamped into `[0, N − 1]` so that a slice of one row fits. -/
def clampRow {N E w : Nat} (hN : 0 < N) (idx : IVec ⟨2, ![E, 1]⟩ w) (e : Fin E) : Fin N :=
  ⟨min (idx (ix2 e 0)).toInt.toNat (N - 1), by omega⟩

section Gather
variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (k : Fin C)

/-- On the row axis the operand index is the clamped start: the axis is collapsed (no offset) and not a batching
    axis, and the start index of result `(e, k)` is read at `(e, 0)`. -/
theorem operandIdx_row0 (hN : 0 < N) :
    ((rowGather N E C wf).operandIdx (ix2 e k) idx 0).val = (clampRow hN idx e).val := by
  show (rowGather N E C wf).start (ix2 e k) idx 0 + (rowGather N E C wf).batchCoord (ix2 e k) 0
    + (rowGather N E C wf).offCoord (ix2 e k) 0 = _
  rw [GatherDims.batchCoord_eq_zero _ _ _ List.not_mem_nil, GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e k) ⟨List.idxOf (0 : Fin 2) (rowGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the operand index is the result's column: the start is `0` (the start index map does not
    name the axis), there is no batching, and the offset is the result's second coordinate. -/
theorem operandIdx_row1 :
    ((rowGather N E C wf).operandIdx (ix2 e k) idx 1).val = k.val := by
  show (rowGather N E C wf).start (ix2 e k) idx 1 + (rowGather N E C wf).batchCoord (ix2 e k) 1
    + (rowGather N E C wf).offCoord (ix2 e k) 1 = _
  rw [GatherDims.batchCoord_eq_zero _ _ _ List.not_mem_nil]
  unfold GatherDims.start
  rw [dif_neg (show (1 : Fin 2) ∉ (rowGather N E C wf).startIndexMap from (by decide : (1 : Fin 2) ∉ [0]))]
  unfold GatherDims.offCoord
  rw [dif_pos (show (1 : Fin 2) ∈ (rowGather N E C wf).sKept from
    (GatherDims.mem_sKept _ _).mpr ⟨(by decide : (1 : Fin 2) ∉ [0]), List.not_mem_nil⟩)]
  simp only [Nat.zero_add, Nat.add_zero]
  rfl

/-- THE GATHER READ AT `(e, k)`: the operand at the clamped row of edge `e`, column `k`. -/
theorem gather_row_apply {α : Type} (hN : 0 < N) (x : (⟨2, ![N, C]⟩ : Shape).Idx → α) :
    Host.gather (rowGather N E C wf) x idx (ix2 e k) = x (ix2 (clampRow hN idx e) k) := by
  unfold Host.gather
  congr 1
  funext a
  match a with
  | ⟨0, _⟩ => exact Fin.ext (operandIdx_row0 wf idx e k hN)
  | ⟨1, _⟩ => exact Fin.ext (operandIdx_row1 wf idx e k)

end Gather

/-! ## The accumulating scatter of rows -/

/-- The dimension numbers of a scatter of whole rows: operand `[N, C]`, scatter indices `[E, 1]` whose second axis
    is the index vector (one component, the row), updates `[E, C]` whose second axis is the window along the
    operand's columns; the operand's row axis is the inserted one. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row the `e`-th update lands on: its scatter index read signed, when that is a row of the operand; `none`
    when it is not (the update is dropped, not clamped). -/
def landRow {N E w : Nat} (idx : IVec ⟨2, ![E, 1]⟩ w) (e : Fin E) : Option (Fin N) :=
  if h : 0 ≤ (idx (ix2 e 0)).toInt ∧ (idx (ix2 e 0)).toInt < N then some ⟨(idx (ix2 e 0)).toInt.toNat, by omega⟩
  else none

/-- An update lands on row `r` exactly when its scatter index, read signed, is `r`. -/
theorem landRow_eq_some_iff {N E w : Nat} (idx : IVec ⟨2, ![E, 1]⟩ w) (e : Fin E) (r : Fin N) :
    landRow idx e = some r ↔ (idx (ix2 e 0)).toInt = (r.val : Int) := by
  have hr := r.isLt
  unfold landRow
  by_cases hv : 0 ≤ (idx (ix2 e 0)).toInt ∧ (idx (ix2 e 0)).toInt < N
  · rw [dif_pos hv, Option.some.injEq]
    constructor
    · intro h
      have := congrArg Fin.val h
      simp only at this
      omega
    · intro h
      refine Fin.ext ?_
      simp only
      omega
  · rw [dif_neg hv]
    constructor
    · intro h; exact absurd h (by simp)
    · intro h; exact absurd ⟨by omega, by omega⟩ hv

/-- A scatter's result index is `i` exactly when, on every axis, start plus window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  by_cases h : ∀ a, 0 ≤ d.start j idx a + d.window j a ∧ d.start j idx a + d.window j a < s.size a
  · rw [dif_pos h, Option.some.injEq]
    constructor
    · intro hf a
      have := congrArg Fin.val (congrFun hf a)
      simp only at this
      have := h a
      omega
    · intro hi
      funext a
      refine Fin.ext ?_
      have := hi a
      simp only
      omega
  · rw [dif_neg h]
    constructor
    · intro hf; exact absurd hf (by simp)
    · intro hi
      refine absurd (fun a => ?_) h
      have := hi a
      have := (i a).isLt
      omega

section Scatter
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- On the row axis the window starts at the scatter index of update `(e, k)`, read signed at `(e, 0)`. -/
theorem start_row0 : (rowScatter N E C wf).start j idx 0 = (idx (ix2 (j 0) 0)).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun i => (idx i).toInt) hsi

/-- On the column axis the window starts at `0`: the scatter index has no component for it. -/
theorem start_row1 : (rowScatter N E C wf).start j idx 1 = 0 := by
  unfold ScatterDims.start
  rw [dif_neg (show (1 : Fin 2) ∉ (rowScatter N E C wf).scatterDimsToOperandDims from
    (by decide : (1 : Fin 2) ∉ [0]))]

/-- The row axis is inserted: no window coordinate. -/
theorem window_row0 : (rowScatter N E C wf).window j 0 = 0 := by
  unfold ScatterDims.window
  rw [dif_neg (show (0 : Fin 2) ∉ (rowScatter N E C wf).sKept from
    fun h => (of_decide_eq_true (List.mem_filter.mp h).2) (List.mem_singleton.mpr rfl))]

/-- On the column axis the window coordinate is the update's column. -/
theorem window_row1 : (rowScatter N E C wf).window j 1 = (j 1).val := by
  unfold ScatterDims.window
  rw [dif_pos (show (1 : Fin 2) ∈ (rowScatter N E C wf).sKept from
    List.mem_filter.mpr ⟨List.mem_finRange _, decide_eq_true (by decide : (1 : Fin 2) ∉ [0])⟩)]
  rfl

/-- WHERE AN UPDATE LANDS: update `(e, c)` lands at `(r, k)` exactly when edge `e` lands on row `r` and `c = k`. -/
theorem resultIdx_row (r : Fin N) (k : Fin C) :
    (rowScatter N E C wf).resultIdx? j idx = some (ix2 r k) ↔ landRow idx (j 0) = some r ∧ j 1 = k := by
  constructor
  · intro h
    have h' := (resultIdx?_eq_some_iff _ j idx (ix2 r k)).mp h
    have h0 : (rowScatter N E C wf).start j idx 0 + ((rowScatter N E C wf).window j 0 : Int) = ((r.val : Nat) : Int) :=
      h' 0
    have h1 : (rowScatter N E C wf).start j idx 1 + ((rowScatter N E C wf).window j 1 : Int) = ((k.val : Nat) : Int) :=
      h' 1
    rw [start_row0, window_row0] at h0
    rw [start_row1, window_row1] at h1
    refine ⟨(landRow_eq_some_iff idx (j 0) r).mpr (by simpa using h0), Fin.ext ?_⟩
    have h2 : (((j 1).val : Nat) : Int) = ((k.val : Nat) : Int) := by simpa using h1
    exact Int.ofNat_inj.mp h2
  · rintro ⟨h0, h1⟩
    have h0' := (landRow_eq_some_iff idx (j 0) r).mp h0
    refine (resultIdx?_eq_some_iff _ j idx (ix2 r k)).mpr fun a => ?_
    match a with
    | ⟨0, _⟩ =>
      show (rowScatter N E C wf).start j idx 0 + ((rowScatter N E C wf).window j 0 : Int) = ((r.val : Nat) : Int)
      rw [start_row0, window_row0]
      exact (Int.add_zero _).trans h0'
    | ⟨1, _⟩ =>
      show (rowScatter N E C wf).start j idx 1 + ((rowScatter N E C wf).window j 1 : Int) = ((k.val : Nat) : Int)
      rw [start_row1, window_row1]
      exact (Int.zero_add _).trans (congrArg (fun z : Nat => (z : Int)) (congrArg Fin.val h1))

/-- THE SCATTER-ADD READ AT `(r, k)`: the operand's entry plus the sum, over the edges landing on row `r`, of
    their updates' column `k`. The updates landing at `(r, k)` are the `(e, k)` with `e` landing on `r`. -/
theorem scatterAdd_row_apply (x : (⟨2, ![N, C]⟩ : Shape).Idx → EReal) (u : (⟨2, ![E, C]⟩ : Shape).Idx → EReal)
    (r : Fin N) (k : Fin C) :
    Ideal.hostScatterAdd (rowScatter N E C wf) x idx u (ix2 r k)
      = x (ix2 r k) + ∑ e ∈ Finset.univ.filter (fun e : Fin E => landRow idx e = some r), u (ix2 e k) := by
  unfold Ideal.hostScatterAdd
  congr 1
  refine Finset.sum_nbij' (fun j => (j 0 : Fin E)) (fun e => ix2 e k) ?_ ?_ ?_ ?_ ?_
  · intro j hj
    exact Finset.mem_filter.mpr ⟨Finset.mem_univ _, ((resultIdx_row wf idx j r k).mp (Finset.mem_filter.mp hj).2).1⟩
  · intro e he
    exact Finset.mem_filter.mpr
      ⟨Finset.mem_univ _, (resultIdx_row wf idx (ix2 e k) r k).mpr ⟨(Finset.mem_filter.mp he).2, rfl⟩⟩
  · intro j hj
    have h1 : j 1 = k := ((resultIdx_row wf idx j r k).mp (Finset.mem_filter.mp hj).2).2
    exact (congrArg (fun c => ix2 (j 0) c) h1.symm).trans (eq_ix2 j).symm
  · intro e _; rfl
  · intro j hj
    have h1 : j 1 = k := ((resultIdx_row wf idx j r k).mp (Finset.mem_filter.mp hj).2).2
    exact congrArg u ((eq_ix2 j).trans (congrArg (fun c => ix2 (j 0) c) h1))

end Scatter

end RowOps

end
-- ==== Proof.LibAggLaw.lean ====
import Mathlib.Data.EReal.Operations
import Mathlib.Algebra.BigOperators.Ring.Finset
import Mathlib.Algebra.BigOperators.Group.Finset.Sigma
import Mathlib.Tactic.Ring

/-!
# Aggregation over edges commutes with a weight matrix, on real data

A graph layer sums, for every node, the rows of its incoming edges (each scaled by an edge
weight) and multiplies the rows by a weight matrix. Over the real numbers the two orders of
these operations agree, by distributivity and exchange of finite sums. On the extended reals
distributivity fails at the infinities (for instance `(⊤ + ⊥) * x`), so every statement below
carries the hypothesis that all entries involved are real numbers.
-/

open scoped BigOperators

noncomputable section

namespace AggLaw

variable {E N K C : ℕ}

/-- A family of extended reals is *real* when every member is the image of a real number. -/
def IsReal {ι : Type*} (f : ι → EReal) : Prop := ∀ i, ∃ r : ℝ, f i = (r : EReal)

/-- A doubly indexed family of extended reals is *real* when every entry is the image of a
real number. -/
def IsReal2 {α β : Type*} (f : α → β → EReal) : Prop := ∀ a b, ∃ r : ℝ, f a b = (r : EReal)

/-- The inclusion of the reals into the extended reals commutes with finite sums: it sends
`0` to `0` and is additive, so the claim follows by induction on the index set. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih =>
    rw [Finset.sum_insert ha, Finset.sum_insert ha, EReal.coe_add, ih]

/-- Aggregation over edges. Edge `e` has an optional target node `L e`, a source node `s e`
and a weight `n e`. Row `r` of the result is the sum, over the edges whose target is `r`, of
the source row of the edge scaled by the weight of the edge. -/
def agg (L : Fin E → Option (Fin N)) (s : Fin E → Fin N) (n : Fin E → EReal)
    (h : Fin N → Fin K → EReal) : Fin N → Fin K → EReal :=
  fun r k => ∑ e ∈ Finset.univ.filter (fun e => L e = some r), h (s e) k * n e

/-- The matrix product `h * W`: entry `(r, j)` is `∑ k, h r k * W k j`. -/
def mm (h : Fin N → Fin K → EReal) (W : Fin K → Fin C → EReal) : Fin N → Fin C → EReal :=
  fun r j => ∑ k : Fin K, h r k * W k j

/-- Aggregating real rows with real edge weights gives real rows: each term is a product of
two reals and a finite sum of reals is a real. -/
theorem isReal2_agg {L : Fin E → Option (Fin N)} {s : Fin E → Fin N} {n : Fin E → EReal}
    {h : Fin N → Fin K → EReal} (hn : IsReal n) (hh : IsReal2 h) :
    IsReal2 (agg L s n h) := by
  choose n' hn' using hn
  choose h' hh' using hh
  intro r k
  refine ⟨∑ e ∈ Finset.univ.filter (fun e => L e = some r), h' (s e) k * n' e, ?_⟩
  unfold agg
  rw [coe_sum]
  refine Finset.sum_congr rfl fun e _ => ?_
  rw [hh', hn', EReal.coe_mul]

/-- The product of two real matrices is a real matrix: each term is a product of two reals
and a finite sum of reals is a real. -/
theorem isReal2_mm {h : Fin N → Fin K → EReal} {W : Fin K → Fin C → EReal}
    (hh : IsReal2 h) (hW : IsReal2 W) : IsReal2 (mm h W) := by
  choose h' hh' using hh
  choose W' hW' using hW
  intro r j
  refine ⟨∑ k : Fin K, h' r k * W' k j, ?_⟩
  unfold mm
  rw [coe_sum]
  refine Finset.sum_congr rfl fun k _ => ?_
  rw [hh', hW', EReal.coe_mul]

/-- **The aggregation law.** On real data, multiplying by the weight matrix and then
aggregating over edges equals aggregating first and multiplying afterwards. Both sides are
the image of the real double sum `∑ e, ∑ k, h (s e) k * W k j * n e`: on the left the factor
`n e` is distributed into the inner sum, on the right the factor `W k j` is distributed into
the sum over edges and the two finite sums are exchanged. -/
theorem agg_mm {L : Fin E → Option (Fin N)} {s : Fin E → Fin N} {n : Fin E → EReal}
    {h : Fin N → Fin K → EReal} {W : Fin K → Fin C → EReal}
    (hn : IsReal n) (hh : IsReal2 h) (hW : IsReal2 W) :
    agg L s n (mm h W) = mm (agg L s n h) W := by
  choose n' hn' using hn
  choose h' hh' using hh
  choose W' hW' using hW
  funext r j
  have hl : agg L s n (mm h W) r j =
      ((∑ e ∈ Finset.univ.filter (fun e => L e = some r),
        (∑ k : Fin K, h' (s e) k * W' k j) * n' e : ℝ) : EReal) := by
    unfold agg mm
    rw [coe_sum]
    refine Finset.sum_congr rfl fun e _ => ?_
    rw [hn', EReal.coe_mul, coe_sum]
    congr 1
    refine Finset.sum_congr rfl fun k _ => ?_
    rw [hh', hW', EReal.coe_mul]
  have hr : mm (agg L s n h) W r j =
      ((∑ k : Fin K, (∑ e ∈ Finset.univ.filter (fun e => L e = some r),
        h' (s e) k * n' e) * W' k j : ℝ) : EReal) := by
    unfold agg mm
    rw [coe_sum]
    refine Finset.sum_congr rfl fun k _ => ?_
    rw [hW', EReal.coe_mul, coe_sum]
    congr 1
    refine Finset.sum_congr rfl fun e _ => ?_
    rw [hh', hn', EReal.coe_mul]
  rw [hl, hr]
  congr 1
  simp only [Finset.sum_mul]
  rw [Finset.sum_comm]
  refine Finset.sum_congr rfl fun k _ => ?_
  refine Finset.sum_congr rfl fun e _ => ?_
  ring

/-- A layer that multiplies by the weight matrix first, then aggregates over edges, adds the
bias to every row and applies the activation entrywise. -/
def layerR (act : EReal → EReal) (L : Fin E → Option (Fin N)) (s : Fin E → Fin N)
    (n : Fin E → EReal) (h : Fin N → Fin K → EReal) (W : Fin K → Fin C → EReal)
    (b : Fin C → EReal) : Fin N → Fin C → EReal :=
  fun r j => act (agg L s n (mm h W) r j + b j)

/-- A layer that aggregates over edges first, then multiplies by the weight matrix, adds the
bias to every row and applies the activation entrywise. -/
def layerK (act : EReal → EReal) (L : Fin E → Option (Fin N)) (s : Fin E → Fin N)
    (n : Fin E → EReal) (h : Fin N → Fin K → EReal) (W : Fin K → Fin C → EReal)
    (b : Fin C → EReal) : Fin N → Fin C → EReal :=
  fun r j => act (mm (agg L s n h) W r j + b j)

/-- On real data the two layers are the same function, because their pre-activations agree
by the aggregation law. -/
theorem layerK_eq_layerR (act : EReal → EReal) {L : Fin E → Option (Fin N)}
    {s : Fin E → Fin N} {n : Fin E → EReal} {h : Fin N → Fin K → EReal}
    {W : Fin K → Fin C → EReal} (b : Fin C → EReal)
    (hn : IsReal n) (hh : IsReal2 h) (hW : IsReal2 W) :
    layerK act L s n h W b = layerR act L s n h W b := by
  unfold layerK layerR
  rw [agg_mm hn hh hW]

/-- The rectifier on the extended reals: the larger of the argument and `0`. -/
def relu (x : EReal) : EReal := max x 0

/-- The rectifier of a real number is a real number: it is the argument or `0`. -/
theorem relu_coe (x : ℝ) : relu (x : EReal) = ((max x 0 : ℝ) : EReal) := by
  unfold relu
  rcases le_total x 0 with hx | hx
  · rw [max_eq_right hx, max_eq_right (by exact_mod_cast hx : (x : EReal) ≤ 0), EReal.coe_zero]
  · rw [max_eq_left hx, max_eq_left (by exact_mod_cast hx : (0 : EReal) ≤ (x : EReal))]

/-- A rectified layer maps real data to real data: the aggregate of the product is real, a
real plus a real bias is real, and the rectifier of a real is real. -/
theorem isReal2_layerR_relu {L : Fin E → Option (Fin N)} {s : Fin E → Fin N}
    {n : Fin E → EReal} {h : Fin N → Fin K → EReal} {W : Fin K → Fin C → EReal}
    {b : Fin C → EReal} (hn : IsReal n) (hh : IsReal2 h) (hW : IsReal2 W) (hb : IsReal b) :
    IsReal2 (layerR relu L s n h W b) := by
  intro r j
  obtain ⟨a, ha⟩ := isReal2_agg (L := L) (s := s) hn (isReal2_mm hh hW) r j
  obtain ⟨c, hc⟩ := hb j
  refine ⟨max (a + c) 0, ?_⟩
  unfold layerR
  rw [ha, hc, ← EReal.coe_add, relu_coe]

/-- **The five-layer network.** With real edge weights, real input, real weight matrices and
real biases for the first four layers, a network whose third and fourth layers aggregate
before multiplying equals the network in which every layer multiplies before aggregating.
The final bias and the final activation are arbitrary. Each exchanged layer has a real input,
because it is the output of a rectified layer on real data. -/
theorem net_eq {K0 K1 K2 K3 K4 K5 : ℕ} (fin : EReal → EReal)
    {L : Fin E → Option (Fin N)} {s : Fin E → Fin N} {n : Fin E → EReal}
    {x : Fin N → Fin K0 → EReal}
    {W1 : Fin K0 → Fin K1 → EReal} {W2 : Fin K1 → Fin K2 → EReal}
    {W3 : Fin K2 → Fin K3 → EReal} {W4 : Fin K3 → Fin K4 → EReal}
    {W5 : Fin K4 → Fin K5 → EReal}
    {b1 : Fin K1 → EReal} {b2 : Fin K2 → EReal} {b3 : Fin K3 → EReal} {b4 : Fin K4 → EReal}
    (b5 : Fin K5 → EReal)
    (hn : IsReal n) (hx : IsReal2 x)
    (hW1 : IsReal2 W1) (hW2 : IsReal2 W2) (hW3 : IsReal2 W3) (hW4 : IsReal2 W4)
    (hW5 : IsReal2 W5)
    (hb1 : IsReal b1) (hb2 : IsReal b2) (hb3 : IsReal b3) (hb4 : IsReal b4) :
    layerR fin L s n (layerR relu L s n (layerK relu L s n (layerK relu L s n
        (layerR relu L s n x W1 b1) W2 b2) W3 b3) W4 b4) W5 b5 =
      layerR fin L s n (layerR relu L s n (layerR relu L s n (layerR relu L s n
        (layerR relu L s n x W1 b1) W2 b2) W3 b3) W4 b4) W5 b5 := by
  have h1 : IsReal2 (layerR relu L s n x W1 b1) := isReal2_layerR_relu hn hx hW1 hb1
  have e2 : layerK relu L s n (layerR relu L s n x W1 b1) W2 b2 =
      layerR relu L s n (layerR relu L s n x W1 b1) W2 b2 :=
    layerK_eq_layerR relu b2 hn h1 hW2
  have h2 : IsReal2 (layerR relu L s n (layerR relu L s n x W1 b1) W2 b2) :=
    isReal2_layerR_relu hn h1 hW2 hb2
  rw [e2, layerK_eq_layerR relu b3 hn h2 hW3]

end AggLaw
-- ==== Proof.NetDefs.lean ====
/-
  The vocabulary in which both programs are compared. A matrix is a function of its row and its column; the graph
  is three functions of an edge: the row its update lands on (none when the target index is out of range and the
  update is dropped), the row it reads (the source index, a negative one counted from the end, clamped into
  range), and its normalisation. They are read off the reference's stages of the edge list and the edge weights.
-/
import proofs.«154560_j68659347193894_2_alg».proof.Proof.Gen.ReferenceIdeal.Read
import proofs.«154560_j68659347193894_2_alg».proof.Proof.LibRowOps
import proofs.«154560_j68659347193894_2_alg».proof.Proof.LibAggLaw
import Idealize.ShloMosaic.Lib.ValueIdx

noncomputable section

namespace Cert.Net

open Idealize.ShloMosaic Idealize.ShloMosaic.ValueIdx

/-- A [N, C] array as a function of row and column. -/
def toFn2 {N C : Nat} (h : (⟨2, ![N, C]⟩ : Shape).Idx → EReal) : Fin N → Fin C → EReal := fun r k => h (ix2 r k)
/-- A length-C vector as a function of its position. -/
def toFn1 {C : Nat} (b : (⟨1, ![C]⟩ : Shape).Idx → EReal) : Fin C → EReal := fun k => b (ix1 k)

/-- The row edge `e`'s update lands on: its target index when that is a node, none otherwise. -/
def land (x1 : (⟨Cert.ReferenceIdeal.S2x320000, .i32⟩ : BufTy).Contents (Elt Ideal)) : Fin 340000 → Option (Fin 20000) :=
  RowOps.landRow (N := 20000) (E := 340000) (w := 32) (Cert.ReferenceIdeal.Read.val_main_v44 (F := Ideal) x1)
/-- The row edge `e` reads: its source index, a negative one counted from the end, clamped into the node range. -/
def src (x1 : (⟨Cert.ReferenceIdeal.S2x320000, .i32⟩ : BufTy).Contents (Elt Ideal)) : Fin 340000 → Fin 20000 :=
  RowOps.clampRow (N := 20000) (E := 340000) (w := 32) (by decide) (Cert.ReferenceIdeal.Read.val_main_v38 (F := Ideal) x1)
/-- Edge `e`'s normalisation: source factor × weight × target factor. -/
def nrm (x1 : (⟨Cert.ReferenceIdeal.S2x320000, .i32⟩ : BufTy).Contents (Elt Ideal))
    (x2 : (⟨Cert.ReferenceIdeal.S320000, .f32⟩ : BufTy).Contents (Elt Ideal)) : Fin 340000 → EReal :=
  fun e => Cert.ReferenceIdeal.Read.val_main_v31 (F := Ideal) x1 x2 (ix1 e)

end Cert.Net

end
-- ==== Proof.LibAggHost.lean ====
import proofs.«154560_j68659347193894_2_alg».proof.Proof.LibRowOps
import Idealize.ShloMosaic.Lib.IdealHost
import Idealize.ShloMosaic.Lib.Pipeline.Value

/-!
# The host's edge aggregation read at an index

A scatter-add, into a zero table, of gathered rows each multiplied by its edge's weight: entry `(r, k)` is the sum,
over the edges whose destination row is `r`, of the source row's column `k` times the edge's weight. The zero table
is a scalar zero broadcast; the weights `[E]` are broadcast to a column `[E, 1]` and then along the columns.
-/

noncomputable section

open scoped BigOperators

namespace RowOps

open Idealize.ShloMosaic Idealize.ShloMosaic.ValueIdx

/-! ## The host aggregation read at an index

The printed aggregation: a zero table `[N, C]` (a scalar zero broadcast), into which are scatter-added, at the rows
`didx` names, the rows of `h` gathered at `sidx`, each multiplied by its edge's weight `nrm e` (the weights `[E]`
broadcast to a column `[E, 1]` and then along the columns to `[E, C]`). Entry `(r, k)` of the result is the sum,
over the edges landing on row `r`, of `h (source row of e, k) * nrm e`. -/

section Broadcast
variable {α : Type}

/-- A vector `[E]` broadcast to a column `[E, 1]` reads, at `(e, 0)`, its `e`-th entry. -/
theorem bcast_col_apply {E : Nat} (hb1 : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] hb1 v (ix2 e z) = v (ix1 e) := by
  refine broadcastInDim_apply _ hb1 v (ix2 e z) (ix1 e) fun a => ?_
  match a with
  | ⟨0, _⟩ =>
    show e.val = if E = 1 then 0 else e.val
    split
    · omega
    · rfl

/-- A column `[E, 1]` broadcast along the columns to `[E, C]` reads, at `(e, k)`, its entry `(e, 0)`. -/
theorem bcast_cols_apply {E C : Nat} (hb2 : (⟨2, ![E, 1]⟩ : Shape).BroadcastsInDim ⟨2, ![E, C]⟩ ![0, 1])
    (v : (⟨2, ![E, 1]⟩ : Shape).Idx → α) (e : Fin E) (k : Fin C) :
    broadcastInDim ⟨2, ![E, C]⟩ ![0, 1] hb2 v (ix2 e k) = v (ix2 e 0) := by
  refine broadcastInDim_apply _ hb2 v (ix2 e k) (ix2 e 0) fun a => ?_
  match a with
  | ⟨0, _⟩ =>
    show e.val = if E = 1 then 0 else e.val
    split
    · omega
    · rfl
  | ⟨1, _⟩ =>
    show (0 : Nat) = if (1 : Nat) = 1 then 0 else k.val
    rfl

end Broadcast

section Agg
variable {N E C : Nat} (hN : 0 < N)
  (wfG : GatherDims.WF ⟨2, ![N, C]⟩ ⟨2, ![E, 1]⟩ ⟨2, ![E, C]⟩ [1] [0] [] [0] [] 1 ![1, C])
  (wfS : ScatterDims.WF ⟨2, ![N, C]⟩ ⟨2, ![E, 1]⟩ ⟨2, ![E, C]⟩ [1] [0] [0] 1)

/-- THE AGGREGATION READ AT `(r, k)`: the sum, over the edges whose destination is row `r`, of the source row's
    column `k` times the edge's weight. -/
theorem aggHost_apply
    (hb0 : (⟨0, ![]⟩ : Shape).BroadcastsInDim ⟨2, ![N, C]⟩ ![])
    (hb1 : (⟨1, ![E]⟩ : Shape).BroadcastsInDim ⟨2, ![E, 1]⟩ ![0])
    (hb2 : (⟨2, ![E, 1]⟩ : Shape).BroadcastsInDim ⟨2, ![E, C]⟩ ![0, 1])
    (h : (⟨2, ![N, C]⟩ : Shape).Idx → EReal) (sidx didx : IVec ⟨2, ![E, 1]⟩ 32)
    (nrm : (⟨1, ![E]⟩ : Shape).Idx → EReal) (r : Fin N) (k : Fin C) :
    Host.scatterAdd (F := Ideal) (φ := .f32) (rowScatter N E C wfS)
        (broadcastInDim ⟨2, ![N, C]⟩ ![] hb0 (constant (F := Ideal) ⟨0, ![]⟩ .f32 0x00000000#32)) didx
        (mulf (Host.gather (rowGather N E C wfG) h sidx)
          (broadcastInDim ⟨2, ![E, C]⟩ ![0, 1] hb2 (broadcastInDim ⟨2, ![E, 1]⟩ ![0] hb1 nrm))) (ix2 r k)
      = ∑ e ∈ Finset.univ.filter (fun e : Fin E => landRow didx e = some r),
          h (ix2 (clampRow hN sidx e) k) * nrm (ix1 e) := by
  refine (scatterAdd_row_apply wfS didx _ _ r k).trans ?_
  have hz : broadcastInDim (α := EReal) ⟨2, ![N, C]⟩ ![] hb0 (constant (F := Ideal) ⟨0, ![]⟩ .f32 0x00000000#32) (ix2 r k)
      = 0 := (broadcastInDim_scalar_apply hb0 _ _).trans Ideal.ofBits_zero_f32
  rw [hz, zero_add]
  refine Finset.sum_congr rfl fun e _ => ?_
  refine (mulf_apply _ _ _).trans ?_
  rw [gather_row_apply wfG sidx e k hN h, bcast_cols_apply hb2 _ e k, bcast_col_apply hb1 nrm e 0]

end Agg

section Agg1
variable {N E : Nat} (hN : 0 < N)
  (wfG : GatherDims.WF ⟨2, ![N, 1]⟩ ⟨2, ![E, 1]⟩ ⟨2, ![E, 1]⟩ [1] [0] [] [0] [] 1 ![1, 1])
  (wfS : ScatterDims.WF ⟨2, ![N, 1]⟩ ⟨2, ![E, 1]⟩ ⟨2, ![E, 1]⟩ [1] [0] [0] 1)

/-- THE ONE-COLUMN AGGREGATION READ AT `(r, k)`: with one column the weights' column `[E, 1]` already has the
    updates' shape, so it multiplies the gathered rows with no second broadcast; the entry is the same sum. -/
theorem aggHost1_apply
    (hb0 : (⟨0, ![]⟩ : Shape).BroadcastsInDim ⟨2, ![N, 1]⟩ ![])
    (hb1 : (⟨1, ![E]⟩ : Shape).BroadcastsInDim ⟨2, ![E, 1]⟩ ![0])
    (h : (⟨2, ![N, 1]⟩ : Shape).Idx → EReal) (sidx didx : IVec ⟨2, ![E, 1]⟩ 32)
    (nrm : (⟨1, ![E]⟩ : Shape).Idx → EReal) (r : Fin N) (k : Fin 1) :
    Host.scatterAdd (F := Ideal) (φ := .f32) (rowScatter N E 1 wfS)
        (broadcastInDim ⟨2, ![N, 1]⟩ ![] hb0 (constant (F := Ideal) ⟨0, ![]⟩ .f32 0x00000000#32)) didx
        (mulf (Host.gather (rowGather N E 1 wfG) h sidx) (broadcastInDim ⟨2, ![E, 1]⟩ ![0] hb1 nrm)) (ix2 r k)
      = ∑ e ∈ Finset.univ.filter (fun e : Fin E => landRow didx e = some r),
          h (ix2 (clampRow hN sidx e) k) * nrm (ix1 e) := by
  refine (scatterAdd_row_apply wfS didx _ _ r k).trans ?_
  have hz : broadcastInDim (α := EReal) ⟨2, ![N, 1]⟩ ![] hb0 (constant (F := Ideal) ⟨0, ![]⟩ .f32 0x00000000#32) (ix2 r k)
      = 0 := (broadcastInDim_scalar_apply hb0 _ _).trans Ideal.ofBits_zero_f32
  rw [hz, zero_add]
  refine Finset.sum_congr rfl fun e _ => ?_
  refine (mulf_apply _ _ _).trans ?_
  rw [gather_row_apply wfG sidx e k hN h, bcast_col_apply hb1 nrm e k]

end Agg1

end RowOps

end
-- ==== Proof.FoldKeep.lean ====
/-
  Buffers that ride unchanged through the idealized kernel's segments. The edge lists and the normalisation
  are written once, before the first region, and read by every later aggregation; each argument array is read by
  exactly one later region or stretch. No operation and no region in between writes them, so at the boundary
  where each is consumed it still holds what it held when written (for an argument: the launch contents).
-/
import proofs.«154560_j68659347193894_2_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-! ## The edge lists and the normalisation, from the boundary after the preamble -/

theorem keep_v3_W4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v3_W6 (c : Dev nD) : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_W8 (c : Dev nD) : W8 m ρ c (Proc.devRef .tc main_v3) = W6 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_W11 (c : Dev nD) : W11 m ρ c (Proc.devRef .tc main_v3) = W8 m ρ c (Proc.devRef .tc main_v3) :=
  calc W11 m ρ c (Proc.devRef .tc main_v3)
    _ = W10 m ρ c (Proc.devRef .tc main_v3) := W11_of_ne m ρ c main_v3 (by decide)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_W14 (c : Dev nD) : W14 m ρ c (Proc.devRef .tc main_v3) = W11 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_W4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_v6_W6 (c : Dev nD) : W6 m ρ c (Proc.devRef .tc main_v6) = W4 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_W8 (c : Dev nD) : W8 m ρ c (Proc.devRef .tc main_v6) = W6 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_W11 (c : Dev nD) : W11 m ρ c (Proc.devRef .tc main_v6) = W8 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_W14 (c : Dev nD) : W14 m ρ c (Proc.devRef .tc main_v6) = W11 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := StableHlo.after_of_forall_not_mem (b := Proc.devRef .tc main_v6) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v31_W4 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem keep_v31_W6 (c : Dev nD) : W6 m ρ c (Proc.devRef .tc main_v31) = W4 m ρ c (Proc.devRef .tc main_v31) :=
  calc W6 m ρ c (Proc.devRef .tc main_v31)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v31_W8 (c : Dev nD) : W8 m ρ c (Proc.devRef .tc main_v31) = W6 m ρ c (Proc.devRef .tc main_v31) :=
  calc W8 m ρ c (Proc.devRef .tc main_v31)
    _ = W7 m ρ c (Proc.devRef .tc main_v31) := W8_of_ne m ρ c main_v31 (by decide)
    _ = W6 m ρ c (Proc.devRef .tc main_v31) := StableHlo.after_of_forall_not_mem (b := Proc.devRef .tc main_v31) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v31_W11 (c : Dev nD) : W11 m ρ c (Proc.devRef .tc main_v31) = W8 m ρ c (Proc.devRef .tc main_v31) :=
  calc W11 m ρ c (Proc.devRef .tc main_v31)
    _ = W10 m ρ c (Proc.devRef .tc main_v31) := W11_of_ne m ρ c main_v31 (by decide)
    _ = W9 m ρ c (Proc.devRef .tc main_v31) := W10_of_ne m ρ c main_v31 (by decide)
    _ = W8 m ρ c (Proc.devRef .tc main_v31) := StableHlo.after_of_forall_not_mem (b := Proc.devRef .tc main_v31) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v31_W14 (c : Dev nD) : W14 m ρ c (Proc.devRef .tc main_v31) = W11 m ρ c (Proc.devRef .tc main_v31) :=
  calc W14 m ρ c (Proc.devRef .tc main_v31)
    _ = W13 m ρ c (Proc.devRef .tc main_v31) := W14_of_ne m ρ c main_v31 (by decide)
    _ = W12 m ρ c (Proc.devRef .tc main_v31) := W13_of_ne m ρ c main_v31 (by decide)
    _ = W11 m ρ c (Proc.devRef .tc main_v31) := StableHlo.after_of_forall_not_mem (b := Proc.devRef .tc main_v31) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## Each argument array at the boundary where it is consumed -/

theorem arg0_W3 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg3_W3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem arg4_W4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_W7 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_W6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg7_W9 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg8_W8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg9_W10 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg10_W11 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := W10_of_ne m ρ c main_arg10 (by decide)
    _ = W8 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem arg11_W13 (c : Dev nD) : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := StableHlo.after_of_forall_not_mem (b := Proc.devRef .tc main_arg11) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg11) := W11_of_ne m ρ c main_arg11 (by decide)
    _ = W9 m ρ c (Proc.devRef .tc main_arg11) := W10_of_ne m ρ c main_arg11 (by decide)
    _ = W8 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem arg12_W14 (c : Dev nD) : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := W13_of_ne m ρ c main_arg12 (by decide)
    _ = W11 m ρ c (Proc.devRef .tc main_arg12) := StableHlo.after_of_forall_not_mem (b := Proc.devRef .tc main_arg12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg12) := W11_of_ne m ρ c main_arg12 (by decide)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

end Cert.KernelIdeal.Fold

end
-- ==== Proof.FoldHost.lean ====
/-
  The host stretches between the kernel regions of the idealized kernel. Each stretch after the first region
  does one thing: it aggregates the previous layer's [20000, C] rows over the graph's edges (gather the source
  row, scale by the edge's normalisation, scatter-add into the target row) and recasts the layer's bias vector
  as a one-row matrix. Here the aggregation is named once per width, and each stretch's two results are read
  as that term of the buffers the stretch finds.
-/
import proofs.«154560_j68659347193894_2_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The gather's start indices as a column: the source node of every edge, a negative one counted from the end. -/
def srcCol (a3 : IVec S340000 32) : IVec S340000x1 32 :=
  broadcastInDim S340000x1 ![0] bcast_S340000_S340000x1_0
    (select (cmpi .slt a3 (broadcastInDim S340000 ![] bcast_S_S340000 (constantI S_ 32 0#32)))
      (addi a3 (broadcastInDim S340000 ![] bcast_S_S340000 (constantI S_ 32 20000#32))) a3)
/-- The scatter's indices as a column: the target node of every edge, as given. -/
def dstCol (a6 : IVec S340000 32) : IVec S340000x1 32 := broadcastInDim S340000x1 ![0] bcast_S340000_S340000x1_0 a6

/-- One aggregation of a [20000, 64] array over the 340000 edges: row `src e` of `h`, scaled by the edge's
    normalisation, is added into row `dst e`, starting from zero. -/
def aggK64 (a3 a6 : IVec S340000 32) (a31 : FVec Ideal S340000 .f32) (h : FVec Ideal S20000x64 .f32) : FVec Ideal S20000x64 .f32 :=
  Host.scatterAdd scatter_S20000x64_S340000x1_S340000x64_1_0_0_1 (broadcastInDim S20000x64 ![] bcast_S_S20000x64 (constant S_ .f32 0x00000000#32)) (dstCol a6)
    (mulf (Host.gather gather_S20000x64_S340000x1_S340000x64_1_0_n_n_0_1_164 h (srcCol a3)) (broadcastInDim S340000x64 ![0, 1] bcast_S340000x1_S340000x64_0_1 (broadcastInDim S340000x1 ![0] bcast_S340000_S340000x1_0 a31)))

/-- One aggregation of a [20000, 128] array over the 340000 edges: row `src e` of `h`, scaled by the edge's
    normalisation, is added into row `dst e`, starting from zero. -/
def aggK128 (a3 a6 : IVec S340000 32) (a31 : FVec Ideal S340000 .f32) (h : FVec Ideal S20000x128 .f32) : FVec Ideal S20000x128 .f32 :=
  Host.scatterAdd scatter_S20000x128_S340000x1_S340000x128_1_0_0_1 (broadcastInDim S20000x128 ![] bcast_S_S20000x128 (constant S_ .f32 0x00000000#32)) (dstCol a6)
    (mulf (Host.gather gather_S20000x128_S340000x1_S340000x128_1_0_n_n_0_1_1128 h (srcCol a3)) (broadcastInDim S340000x128 ![0, 1] bcast_S340000x1_S340000x128_0_1 (broadcastInDim S340000x1 ![0] bcast_S340000_S340000x1_0 a31)))

/-- One aggregation of a [20000, 1] array over the 340000 edges: row `src e` of `h`, scaled by the edge's
    normalisation, is added into row `dst e`, starting from zero. -/
def aggK1 (a3 a6 : IVec S340000 32) (a31 : FVec Ideal S340000 .f32) (h : FVec Ideal S20000x1 .f32) : FVec Ideal S20000x1 .f32 :=
  Host.scatterAdd scatter_S20000x1_S340000x1_S340000x1_1_0_0_1 (broadcastInDim S20000x1 ![] bcast_S_S20000x1 (constant S_ .f32 0x00000000#32)) (dstCol a6)
    (mulf (Host.gather gather_S20000x1_S340000x1_S340000x1_1_0_n_n_0_1_11 h (srcCol a3)) (broadcastInDim S340000x1 ![0] bcast_S340000_S340000x1_0 a31))

set_option maxHeartbeats 4000000 in
/-- After the stretch: the aggregate of the previous layer's rows, and the bias as a one-row matrix. -/
theorem v45_W5 (c : Dev nD) : W5 m ρ c (Proc.devRef .tc main_v45)
    = aggK64 (W4 m ρ c (Proc.devRef .tc main_v3)) (W4 m ρ c (Proc.devRef .tc main_v6)) (W4 m ρ c (Proc.devRef .tc main_v31)) (W4 m ρ c (Proc.devRef .tc main_v32)) := by
  show StableHlo.after hostOps1 (W4 m ρ c) (Proc.devRef .tc main_v45) = _
  after_results_simp
  rfl
set_option maxHeartbeats 4000000 in
theorem v46_W5 (c : Dev nD) : W5 m ρ c (Proc.devRef .tc main_v46)
    = shapeCast S1x64 (W4 m ρ c (Proc.devRef .tc main_arg4)) shapeCasts_S64_S1x64 := by
  show StableHlo.after hostOps1 (W4 m ρ c) (Proc.devRef .tc main_v46) = _
  after_results_simp
  rfl

set_option maxHeartbeats 4000000 in
/-- After the stretch: the aggregate of the previous layer's rows, and the bias as a one-row matrix. -/
theorem v60_W7 (c : Dev nD) : W7 m ρ c (Proc.devRef .tc main_v60)
    = aggK64 (W6 m ρ c (Proc.devRef .tc main_v3)) (W6 m ρ c (Proc.devRef .tc main_v6)) (W6 m ρ c (Proc.devRef .tc main_v31)) (W6 m ρ c (Proc.devRef .tc main_v47)) := by
  show StableHlo.after hostOps2 (W6 m ρ c) (Proc.devRef .tc main_v60) = _
  after_results_simp
  rfl
set_option maxHeartbeats 4000000 in
theorem v61_W7 (c : Dev nD) : W7 m ρ c (Proc.devRef .tc main_v61)
    = shapeCast S1x128 (W6 m ρ c (Proc.devRef .tc main_arg6)) shapeCasts_S128_S1x128 := by
  show StableHlo.after hostOps2 (W6 m ρ c) (Proc.devRef .tc main_v61) = _
  after_results_simp
  rfl

set_option maxHeartbeats 4000000 in
/-- After the stretch: the aggregate of the previous layer's rows, and the bias as a one-row matrix. -/
theorem v75_W9 (c : Dev nD) : W9 m ρ c (Proc.devRef .tc main_v75)
    = aggK128 (W8 m ρ c (Proc.devRef .tc main_v3)) (W8 m ρ c (Proc.devRef .tc main_v6)) (W8 m ρ c (Proc.devRef .tc main_v31)) (W8 m ρ c (Proc.devRef .tc main_v62)) := by
  show StableHlo.after hostOps3 (W8 m ρ c) (Proc.devRef .tc main_v75) = _
  after_results_simp
  rfl
set_option maxHeartbeats 4000000 in
theorem v76_W9 (c : Dev nD) : W9 m ρ c (Proc.devRef .tc main_v76)
    = shapeCast S1x256 (W8 m ρ c (Proc.devRef .tc main_arg8)) shapeCasts_S256_S1x256 := by
  show StableHlo.after hostOps3 (W8 m ρ c) (Proc.devRef .tc main_v76) = _
  after_results_simp
  rfl

set_option maxHeartbeats 4000000 in
/-- After the stretch: the aggregate of the previous layer's rows, and the bias as a one-row matrix. -/
theorem v91_W12 (c : Dev nD) : W12 m ρ c (Proc.devRef .tc main_v91)
    = aggK64 (W11 m ρ c (Proc.devRef .tc main_v3)) (W11 m ρ c (Proc.devRef .tc main_v6)) (W11 m ρ c (Proc.devRef .tc main_v31)) (W11 m ρ c (Proc.devRef .tc main_v78)) := by
  show StableHlo.after hostOps5 (W11 m ρ c) (Proc.devRef .tc main_v91) = _
  after_results_simp
  rfl
set_option maxHeartbeats 4000000 in
theorem v92_W12 (c : Dev nD) : W12 m ρ c (Proc.devRef .tc main_v92)
    = shapeCast S1x64 (W11 m ρ c (Proc.devRef .tc main_arg10)) shapeCasts_S64_S1x64 := by
  show StableHlo.after hostOps5 (W11 m ρ c) (Proc.devRef .tc main_v92) = _
  after_results_simp
  rfl

set_option maxHeartbeats 4000000 in
/-- After the stretch: the aggregate of the previous layer's rows, and the bias as a one-row matrix. -/
theorem v106_W15 (c : Dev nD) : W15 m ρ c (Proc.devRef .tc main_v106)
    = aggK1 (W14 m ρ c (Proc.devRef .tc main_v3)) (W14 m ρ c (Proc.devRef .tc main_v6)) (W14 m ρ c (Proc.devRef .tc main_v31)) (W14 m ρ c (Proc.devRef .tc main_v94)) := by
  show StableHlo.after hostOps7 (W14 m ρ c) (Proc.devRef .tc main_v106) = _
  after_results_simp
  rfl
set_option maxHeartbeats 4000000 in
theorem v107_W15 (c : Dev nD) : W15 m ρ c (Proc.devRef .tc main_v107)
    = shapeCast S1x1 (W14 m ρ c (Proc.devRef .tc main_arg12)) shapeCasts_S1_S1x1 := by
  show StableHlo.after hostOps7 (W14 m ρ c) (Proc.devRef .tc main_v107) = _
  after_results_simp
  rfl

end Cert.KernelIdeal.Fold

end
-- ==== Proof.RegMatmul.lean ====
import proofs.«154560_j68659347193894_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegMatmul

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable (V : (c : Dev nD) → (b : Ref sig .tc) → Buf (Elt Ideal) ((c : Thread nD τ).loc b))

/-- The zero offsets of a whole-block access, however spelt. -/
theorem hz : (![0, 0] : Fin 2 → Nat) = fun _ => 0 := funext fun a => by fin_cases a <;> rfl

/-! # Region 0: a [20000, 128] by [128, 64] product, 2000 rows per grid point -/

theorem lhs0_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs0_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs0_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs0_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's payload at an element: the two conversions are the identity at the ideal values and the product
    accumulates into the zero splat, so the element (p, q) is the sum over the contraction index k of
    x0 (p, k) * x1 (k, q). -/
theorem pay0 (x0 : Vec Ideal S2000x128 .f32) (x1 : Vec Ideal S128x64 .f32) (p : Fin 2000) (q : Fin 64) :
    Gen.k0_pay1 (F := Ideal) x0 x1 (ix2 p q) = ∑ k : Fin 128, x0 (ix2 p k) * x1 (ix2 k q) := by
  unfold Gen.k0_pay1
  refine (Ideal.matmul_constant_zero_apply dot_S2000x128_S128x64_S2000x64_1_0_0_1_n_n none _ _ (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs0_0 _ _).trans hk
    | ⟨1, _⟩ => exact rhs0_1 _ _)
  show x0 _ * x1 _ = _
  rw [el, er]

/-- The printed index maps over the grid: the activations' and the result's block index is (t, 0) at point t, the
    weights' is (0, 0) at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the result array ends holding: the product of the two argument arrays, index by index. -/
abbrev G0 (a0 : S20000x128.Idx → EReal) (a1 : S128x64.Idx → EReal) : S20000x64.Idx → EReal :=
  fun i => ∑ k : Fin 128, a0 (ix2 (i 0) k) * a1 (ix2 k (i 1))

/-- The two argument arrays as the region finds them, at their literal types. -/
abbrev A0_0 (c : Dev nD) : S20000x128.Idx → EReal := V c (Pipeline.arrRef spec0 0)
abbrev A0_1 (c : Dev nD) : S128x64.Idx → EReal := V c (Pipeline.arrRef spec0 1)

/-- The payload at any element of the block. -/
theorem pay0' (x0 : Vec Ideal S2000x128 .f32) (x1 : Vec Ideal S128x64 .f32) (j : S2000x64.Idx) :
    Gen.k0_pay1 (F := Ideal) x0 x1 j = ∑ k : Fin 128, x0 (ix2 (j 0) k) * x1 (ix2 k (j 1)) :=
  (congrArg (Gen.k0_pay1 (F := Ideal) x0 x1) (eq_ix2 j)).trans (pay0 x0 x1 (j 0) (j 1))

/-- What point t writes back is block t of the product: row p of the block is row t * 2000 + p of the activations,
    the weights' block is the whole array. -/
theorem flushed0_eq (c : Dev nD) (t : Fin cfg0.N) :
    (Gen.dat0 (F := Ideal) V c).flushed 2 t = ((cfg0.win 2).blk t).view.read (Elt Ideal) (G0 (A0_0 V c) (A0_1 V c)) := by
  show (cfg0.win 2).cut (grid0.coords t) ((Gen.dat0 (F := Ideal) V c).after 2 t) = _
  rw [Gen.after0_2]
  unfold Gen.out0_2
  rw [View.canon_unit_zero hz]
  simp only [View.ld_unit_zero (S := S2000x128) hz, View.ld_unit_zero (S := S128x64) hz]
  obtain ⟨e0, e1, e2, e3, e4, e5⟩ := idx_facts0 t
  funext j
  refine (pay0' _ _ _).trans ?_
  show ∑ k : Fin 128, A0_0 V c (((cfg0.win 0).blk t).view.emb (ix2 (show Fin 2000 from j 0) k)) * A0_1 V c (((cfg0.win 1).blk t).view.emb (ix2 k (show Fin 64 from j 1))) = ∑ k : Fin 128, A0_0 V c (ix2 ((((cfg0.win 2).blk t).view.emb j) 0) k) * A0_1 V c (ix2 k ((((cfg0.win 2).blk t).view.emb j) 1))
  refine Finset.sum_congr rfl fun k _ => ?_
  have h0 : ((cfg0.win 0).blk t).view.emb (ix2 (show Fin 2000 from j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have h1 : ((cfg0.win 1).blk t).view.emb (ix2 k (show Fin 64 from j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congrArg₂ (· * ·) (congrArg (A0_0 V c) h0) (congrArg (A0_1 V c) h1)

/-- An index of the result is in point t's block iff each coordinate is in the block's range on its axis. -/
theorem mem_blk0 (t : Fin cfg0.N) (i : S20000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v32).slice (win0_2.rect t)).set ↔ _
  rw [View.set_slice_whole, Rect.mem_set_unit]
  exact Iff.rfl

/-- Every index of the result is in some point's block: row r is in the block of point r / 2000. -/
theorem cover0 (i : S20000x64.Idx) : ∃ t : Fin cfg0.N, (cfg0.win 2).flush t = true ∧ i ∈ ((cfg0.win 2).blk t).view.set := by
  have hi0 : (i 0).val < 20000 := (i 0).isLt
  have hi1 : (i 1).val < 64 := (i 1).isLt
  have hN : (i 0).val / 2000 < cfg0.N := by rw [show cfg0.N = 10 from Gen.N_0]; omega
  obtain ⟨e0, e1, e2, e3, e4, e5⟩ := idx_facts0 ⟨(i 0).val / 2000, hN⟩
  refine ⟨⟨(i 0).val / 2000, hN⟩, Gen.flush0_2 _, ?_⟩
  rw [mem_blk0]
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hN⟩ (1 : Fin 2) * 64 ≤ (i 1).val ∧ (i 1).val < win0_2.index ⟨(i 0).val / 2000, hN⟩ (1 : Fin 2) * 64 + 64
    rw [e5]; omega

/-- THE RESULT ARRAY after the region's ten points: the product of the two argument arrays as the region finds them. -/
theorem arr0 (c : Dev nD) : (Gen.dat0 (F := Ideal) V c).arrAt 2 cfg0.N
    = (fun i : S20000x64.Idx => ∑ k : Fin 128, A0_0 V c (ix2 (i 0) k) * A0_1 V c (ix2 k (i 1)) : S20000x64.Idx → EReal) :=
  (Gen.dat0 (F := Ideal) V c).arrAt_eq_of_cover 2 (G0 (A0_0 V c) (A0_1 V c)) (fun t _ => flushed0_eq V c t) cover0

/-! # Region 4: a [20000, 256] by [256, 64] product, 2000 rows per grid point -/

theorem lhs4_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs4_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs4_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs4_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- The body's payload at an element: the shape cast is to the same shape, the two conversions are the identity at the ideal values and the product
    accumulates into the zero splat, so the element (p, q) is the sum over the contraction index k of
    x0 (p, k) * x1 (k, q). -/
theorem pay4 (x0 : Vec Ideal S2000x256 .f32) (x1 : Vec Ideal S256x64 .f32) (p : Fin 2000) (q : Fin 64) :
    Gen.k4_pay1 (F := Ideal) x0 x1 (ix2 p q) = ∑ k : Fin 256, x0 (ix2 p k) * x1 (ix2 k q) := by
  unfold Gen.k4_pay1
  refine (Ideal.matmul_constant_zero_apply dot_S2000x256_S256x64_S2000x64_1_0_0_1_n_n none _ _ (ix2 p q)).trans ?_
  rw [← Equiv.sum_comp (contrEquiv1 dot_S2000x256_S256x64_S2000x64_1_0_0_1_n_n 256 rfl rfl).symm]
  refine Finset.sum_congr rfl fun k _ => ?_
  have hk := contrEquiv1_symm_val dot_S2000x256_S256x64_S2000x64_1_0_0_1_n_n 256 rfl rfl k
  have el : dot_S2000x256_S256x64_S2000x64_1_0_0_1_n_n.lhsIdx (ix2 p q) ((contrEquiv1 dot_S2000x256_S256x64_S2000x64_1_0_0_1_n_n 256 rfl rfl).symm k) = ix2 p k := funext fun a => Fin.ext (by
    match a with
    | ⟨0, _⟩ => exact lhs4_0 _ _
    | ⟨1, _⟩ => exact (lhs4_1 _ _).trans hk)
  have er : dot_S2000x256_S256x64_S2000x64_1_0_0_1_n_n.rhsIdx (ix2 p q) ((contrEquiv1 dot_S2000x256_S256x64_S2000x64_1_0_0_1_n_n 256 rfl rfl).symm k) = ix2 k q := funext fun a => Fin.ext (by
    match a with
    | ⟨0, _⟩ => exact (rhs4_0 _ _).trans hk
    | ⟨1, _⟩ => exact rhs4_1 _ _)
  show shapeCast S2000x256 x0 _ _ * x1 _ = _
  rw [shapeCast_self x0, el, er]

/-- The printed index maps over the grid: the activations' and the result's block index is (t, 0) at point t, the
    weights' is (0, 0) at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What the result array ends holding: the product of the two argument arrays, index by index. -/
abbrev G4 (a0 : S20000x256.Idx → EReal) (a1 : S256x64.Idx → EReal) : S20000x64.Idx → EReal :=
  fun i => ∑ k : Fin 256, a0 (ix2 (i 0) k) * a1 (ix2 k (i 1))

/-- The two argument arrays as the region finds them, at their literal types. -/
abbrev A4_0 (c : Dev nD) : S20000x256.Idx → EReal := V c (Pipeline.arrRef spec4 0)
abbrev A4_1 (c : Dev nD) : S256x64.Idx → EReal := V c (Pipeline.arrRef spec4 1)

/-- The payload at any element of the block. -/
theorem pay4' (x0 : Vec Ideal S2000x256 .f32) (x1 : Vec Ideal S256x64 .f32) (j : S2000x64.Idx) :
    Gen.k4_pay1 (F := Ideal) x0 x1 j = ∑ k : Fin 256, x0 (ix2 (j 0) k) * x1 (ix2 k (j 1)) :=
  (congrArg (Gen.k4_pay1 (F := Ideal) x0 x1) (eq_ix2 j)).trans (pay4 x0 x1 (j 0) (j 1))

/-- What point t writes back is block t of the product: row p of the block is row t * 2000 + p of the activations,
    the weights' block is the whole array. -/
theorem flushed4_eq (c : Dev nD) (t : Fin cfg4.N) :
    (Gen.dat4 (F := Ideal) V c).flushed 2 t = ((cfg4.win 2).blk t).view.read (Elt Ideal) (G4 (A4_0 V c) (A4_1 V c)) := by
  show (cfg4.win 2).cut (grid4.coords t) ((Gen.dat4 (F := Ideal) V c).after 2 t) = _
  rw [Gen.after4_2]
  unfold Gen.out4_2
  rw [View.canon_unit_zero hz]
  simp only [View.ld_unit_zero (S := S2000x256) hz, View.ld_unit_zero (S := S256x64) hz]
  obtain ⟨e0, e1, e2, e3, e4, e5⟩ := idx_facts4 t
  funext j
  refine (pay4' _ _ _).trans ?_
  show ∑ k : Fin 256, A4_0 V c (((cfg4.win 0).blk t).view.emb (ix2 (show Fin 2000 from j 0) k)) * A4_1 V c (((cfg4.win 1).blk t).view.emb (ix2 k (show Fin 64 from j 1))) = ∑ k : Fin 256, A4_0 V c (ix2 ((((cfg4.win 2).blk t).view.emb j) 0) k) * A4_1 V c (ix2 k ((((cfg4.win 2).blk t).view.emb j) 1))
  refine Finset.sum_congr rfl fun k _ => ?_
  have h0 : ((cfg4.win 0).blk t).view.emb (ix2 (show Fin 2000 from j 0) k) = ix2 ((((cfg4.win 2).blk t).view.emb j) 0) k := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 256 + 1 * k.val = k.val; omega
  have h1 : ((cfg4.win 1).blk t).view.emb (ix2 k (show Fin 64 from j 1)) = ix2 k ((((cfg4.win 2).blk t).view.emb j) 1) := by
    funext a; apply Fin.ext
    match a with
    | ⟨0, _⟩ => show win4_1.index t (0 : Fin 2) * 256 + 1 * k.val = k.val; omega
    | ⟨1, _⟩ => show win4_1.index t (1 : Fin 2) * 64 + 1 * (j 1).val = win4_2.index t (1 : Fin 2) * 64 + 1 * (j 1).val; omega
  exact congrArg₂ (· * ·) (congrArg (A4_0 V c) h0) (congrArg (A4_1 V c) h1)

/-- An index of the result is in point t's block iff each coordinate is in the block's range on its axis. -/
theorem mem_blk4 (t : Fin cfg4.N) (i : S20000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v78).slice (win4_2.rect t)).set ↔ _
  rw [View.set_slice_whole, Rect.mem_set_unit]
  exact Iff.rfl

/-- Every index of the result is in some point's block: row r is in the block of point r / 2000. -/
theorem cover4 (i : S20000x64.Idx) : ∃ t : Fin cfg4.N, (cfg4.win 2).flush t = true ∧ i ∈ ((cfg4.win 2).blk t).view.set := by
  have hi0 : (i 0).val < 20000 := (i 0).isLt
  have hi1 : (i 1).val < 64 := (i 1).isLt
  have hN : (i 0).val / 2000 < cfg4.N := by rw [show cfg4.N = 10 from Gen.N_4]; omega
  obtain ⟨e0, e1, e2, e3, e4, e5⟩ := idx_facts4 ⟨(i 0).val / 2000, hN⟩
  refine ⟨⟨(i 0).val / 2000, hN⟩, Gen.flush4_2 _, ?_⟩
  rw [mem_blk4]
  intro a
  match a with
  | ⟨0, _⟩ =>
    show win4_2.index ⟨(i 0).val / 2000, hN⟩ (0 : Fin 2) * 2000 ≤ (i 0).val ∧ (i 0).val < win4_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win4_2.index ⟨(i 0).val / 2000, hN⟩ (1 : Fin 2) * 64 ≤ (i 1).val ∧ (i 1).val < win4_2.index ⟨(i 0).val / 2000, hN⟩ (1 : Fin 2) * 64 + 64
    rw [e5]; omega

/-- THE RESULT ARRAY after the region's ten points: the product of the two argument arrays as the region finds them. -/
theorem arr4 (c : Dev nD) : (Gen.dat4 (F := Ideal) V c).arrAt 2 cfg4.N
    = (fun i : S20000x64.Idx => ∑ k : Fin 256, A4_0 V c (ix2 (i 0) k) * A4_1 V c (ix2 k (i 1)) : S20000x64.Idx → EReal) :=
  (Gen.dat4 (F := Ideal) V c).arrAt_eq_of_cover 2 (G4 (A4_0 V c) (A4_1 V c)) (fun t _ => flushed4_eq V c t) cover4

/-! # Region 6: a [20000, 64] by [64, 1] product, 2000 rows per grid point -/

theorem lhs6_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhs6_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhs6_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhs6_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- The body's payload at an element: the shape cast is to the same shape, the two conversions are the identity at the ideal values and the product
    accumulates into the zero splat, so the element (p, q) is the sum over the contraction index k of
    x0 (p, k) * x1 (k, q). -/
theorem pay6 (x0 : Vec Ideal S2000x64 .f32) (x1 : Vec Ideal S64x1 .f32) (p : Fin 2000) (q : Fin 1) :
    Gen.k6_pay1 (F := Ideal) x0 x1 (ix2 p q) = ∑ k : Fin 64, x0 (ix2 p k) * x1 (ix2 k q) := by
  unfold Gen.k6_pay1
  refine (Ideal.matmul_constant_zero_apply dot_S2000x64_S64x1_S2000x1_1_0_0_1_n_n none _ _ (ix2 p q)).trans ?_
  rw [← Equiv.sum_comp (contrEquiv1 dot_S2000x64_S64x1_S2000x1_1_0_0_1_n_n 64 rfl rfl).symm]
  refine Finset.sum_congr rfl fun k _ => ?_
  have hk := contrEquiv1_symm_val dot_S2000x64_S64x1_S2000x1_1_0_0_1_n_n 64 rfl rfl k
  have el : dot_S2000x64_S64x1_S2000x1_1_0_0_1_n_n.lhsIdx (ix2 p q) ((contrEquiv1 dot_S2000x64_S64x1_S2000x1_1_0_0_1_n_n 64 rfl rfl).symm k) = ix2 p k := funext fun a => Fin.ext (by
    match a with
    | ⟨0, _⟩ => exact lhs6_0 _ _
    | ⟨1, _⟩ => exact (lhs6_1 _ _).trans hk)
  have er : dot_S2000x64_S64x1_S2000x1_1_0_0_1_n_n.rhsIdx (ix2 p q) ((contrEquiv1 dot_S2000x64_S64x1_S2000x1_1_0_0_1_n_n 64 rfl rfl).symm k) = ix2 k q := funext fun a => Fin.ext (by
    match a with
    | ⟨0, _⟩ => exact (rhs6_0 _ _).trans hk
    | ⟨1, _⟩ => exact rhs6_1 _ _)
  show shapeCast S2000x64 x0 _ _ * x1 _ = _
  rw [shapeCast_self x0, el, er]

/-- The printed index maps over the grid: the activations' and the result's block index is (t, 0) at point t, the
    weights' is (0, 0) at every point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What the result array ends holding: the product of the two argument arrays, index by index. -/
abbrev G6 (a0 : S20000x64.Idx → EReal) (a1 : S64x1.Idx → EReal) : S20000x1.Idx → EReal :=
  fun i => ∑ k : Fin 64, a0 (ix2 (i 0) k) * a1 (ix2 k (i 1))

/-- The two argument arrays as the region finds them, at their literal types. -/
abbrev A6_0 (c : Dev nD) : S20000x64.Idx → EReal := V c (Pipeline.arrRef spec6 0)
abbrev A6_1 (c : Dev nD) : S64x1.Idx → EReal := V c (Pipeline.arrRef spec6 1)

/-- The payload at any element of the block. -/
theorem pay6' (x0 : Vec Ideal S2000x64 .f32) (x1 : Vec Ideal S64x1 .f32) (j : S2000x1.Idx) :
    Gen.k6_pay1 (F := Ideal) x0 x1 j = ∑ k : Fin 64, x0 (ix2 (j 0) k) * x1 (ix2 k (j 1)) :=
  (congrArg (Gen.k6_pay1 (F := Ideal) x0 x1) (eq_ix2 j)).trans (pay6 x0 x1 (j 0) (j 1))

/-- What point t writes back is block t of the product: row p of the block is row t * 2000 + p of the activations,
    the weights' block is the whole array. -/
theorem flushed6_eq (c : Dev nD) (t : Fin cfg6.N) :
    (Gen.dat6 (F := Ideal) V c).flushed 2 t = ((cfg6.win 2).blk t).view.read (Elt Ideal) (G6 (A6_0 V c) (A6_1 V c)) := by
  show (cfg6.win 2).cut (grid6.coords t) ((Gen.dat6 (F := Ideal) V c).after 2 t) = _
  rw [Gen.after6_2]
  unfold Gen.out6_2
  rw [View.canon_unit_zero hz]
  simp only [View.ld_unit_zero (S := S2000x64) hz, View.ld_unit_zero (S := S64x1) hz]
  obtain ⟨e0, e1, e2, e3, e4, e5⟩ := idx_facts6 t
  funext j
  refine (pay6' _ _ _).trans ?_
  show ∑ k : Fin 64, A6_0 V c (((cfg6.win 0).blk t).view.emb (ix2 (show Fin 2000 from j 0) k)) * A6_1 V c (((cfg6.win 1).blk t).view.emb (ix2 k (show Fin 1 from j 1))) = ∑ k : Fin 64, A6_0 V c (ix2 ((((cfg6.win 2).blk t).view.emb j) 0) k) * A6_1 V c (ix2 k ((((cfg6.win 2).blk t).view.emb j) 1))
  refine Finset.sum_congr rfl fun k _ => ?_
  have h0 : ((cfg6.win 0).blk t).view.emb (ix2 (show Fin 2000 from j 0) k) = ix2 ((((cfg6.win 2).blk t).view.emb j) 0) k := by
    funext a; apply Fin.ext
    match a with
    | ⟨0, _⟩ => show win6_0.index t (0 : Fin 2) * 2000 + 1 * (j 0).val = win6_2.index t (0 : Fin 2) * 2000 + 1 * (j 0).val; omega
    | ⟨1, _⟩ => show win6_0.index t (1 : Fin 2) * 64 + 1 * k.val = k.val; omega
  have h1 : ((cfg6.win 1).blk t).view.emb (ix2 k (show Fin 1 from j 1)) = ix2 k ((((cfg6.win 2).blk t).view.emb j) 1) := by
    funext a; apply Fin.ext
    match a with
    | ⟨0, _⟩ => show win6_1.index t (0 : Fin 2) * 64 + 1 * k.val = k.val; omega
    | ⟨1, _⟩ => show win6_1.index t (1 : Fin 2) * 1 + 1 * (j 1).val = win6_2.index t (1 : Fin 2) * 1 + 1 * (j 1).val; omega
  exact congrArg₂ (· * ·) (congrArg (A6_0 V c) h0) (congrArg (A6_1 V c) h1)

/-- An index of the result is in point t's block iff each coordinate is in the block's range on its axis. -/
theorem mem_blk6 (t : Fin cfg6.N) (i : S20000x1.Idx) :
    i ∈ ((cfg6.win 2).blk t).view.set ↔ ∀ a : Fin 2, win6_2.index t a * S2000x1.size a ≤ (i a).val ∧ (i a).val < win6_2.index t a * S2000x1.size a + S2000x1.size a := by
  show i ∈ ((View.whole main_v94).slice (win6_2.rect t)).set ↔ _
  rw [View.set_slice_whole, Rect.mem_set_unit]
  exact Iff.rfl

/-- Every index of the result is in some point's block: row r is in the block of point r / 2000. -/
theorem cover6 (i : S20000x1.Idx) : ∃ t : Fin cfg6.N, (cfg6.win 2).flush t = true ∧ i ∈ ((cfg6.win 2).blk t).view.set := by
  have hi0 : (i 0).val < 20000 := (i 0).isLt
  have hi1 : (i 1).val < 1 := (i 1).isLt
  have hN : (i 0).val / 2000 < cfg6.N := by rw [show cfg6.N = 10 from Gen.N_6]; omega
  obtain ⟨e0, e1, e2, e3, e4, e5⟩ := idx_facts6 ⟨(i 0).val / 2000, hN⟩
  refine ⟨⟨(i 0).val / 2000, hN⟩, Gen.flush6_2 _, ?_⟩
  rw [mem_blk6]
  intro a
  match a with
  | ⟨0, _⟩ =>
    show win6_2.index ⟨(i 0).val / 2000, hN⟩ (0 : Fin 2) * 2000 ≤ (i 0).val ∧ (i 0).val < win6_2.index ⟨(i 0).val / 2000, hN⟩ (0 : Fin 2) * 2000 + 2000
    rw [e4]; show (i 0).val / 2000 * 2000 ≤ (i 0).val ∧ (i 0).val < (i 0).val / 2000 * 2000 + 2000; omega
  | ⟨1, _⟩ =>
    show win6_2.index ⟨(i 0).val / 2000, hN⟩ (1 : Fin 2) * 1 ≤ (i 1).val ∧ (i 1).val < win6_2.index ⟨(i 0).val / 2000, hN⟩ (1 : Fin 2) * 1 + 1
    rw [e5]; omega

/-- THE RESULT ARRAY after the region's ten points: the product of the two argument arrays as the region finds them. -/
theorem arr6 (c : Dev nD) : (Gen.dat6 (F := Ideal) V c).arrAt 2 cfg6.N
    = (fun i : S20000x1.Idx => ∑ k : Fin 64, A6_0 V c (ix2 (i 0) k) * A6_1 V c (ix2 k (i 1)) : S20000x1.Idx → EReal) :=
  (Gen.dat6 (F := Ideal) V c).arrAt_eq_of_cover 2 (G6 (A6_0 V c) (A6_1 V c)) (fun t _ => flushed6_eq V c t) cover6

end Cert.KernelIdeal.RegMatmul

end
-- ==== Proof.RegDense.lean ====
/-
  The two fused dense layers (regions 2 and 3 of the main function): each grid point multiplies its block of 2000 rows of
  the activations by the whole weight matrix, adds the bias row and cuts below at zero. Read at the ideal values, where
  the narrowing to bf16 is the identity and a matrix product into the zero splat is the plain sum, the region's result
  array after its ten points is ONE function of its three input arrays, index by index:
  row i of the activations times column j of the weights, plus the bias at column j, maximum with zero.
  Per region: the payload at an index of the block (`payK_apply`), the block of that function every point writes back
  (`flushedK_eq`), the ten blocks cover the result array (`coverK`), and the array (`arrK`).
-/
import proofs.«154560_j68659347193894_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegDense

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-- The zero offsets of a rank-2 whole-buffer access, however they are spelt. -/
theorem hz : (![0, 0] : Fin 2 → Nat) = fun _ => 0 := funext fun a => by fin_cases a <;> rfl

/-! ## Region 2: one block's payload, read at an index -/

/-- The left operand's index of the contraction at output index `i`, contraction index `q`: the output's row … -/
theorem lhs2_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- … and the contraction's coordinate. -/
theorem lhs2_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
/-- The right operand's index: the contraction's coordinate … -/
theorem rhs2_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
/-- … and the output's column. -/
theorem rhs2_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The block's matrix product into the zero splat, at row `p` and column `q`: the sum over the 64 inner coordinates
    of the products (at the ideal values there is no rounding and no chunk order; the contraction has one axis, which
    the sum is re-indexed through). -/
theorem mm2_apply (a : FVec Ideal S2000x64 .bf16) (b : FVec Ideal S64x128 .bf16) (p : Fin 2000) (q : Fin 128) :
    matmul (F := Ideal) dot_S2000x64_S64x128_S2000x128_1_0_0_1_n_n none a b (constant (F := Ideal) S2000x128 .f32 0x00000000#32) (ix2 p q)
      = ∑ k : Fin 64, a (ix2 p k) * b (ix2 k q) := by
  refine (Ideal.matmul_constant_zero_apply dot_S2000x64_S64x128_S2000x128_1_0_0_1_n_n none a b (ix2 p q)).trans ?_
  rw [← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhs2_0 _ _
    | ⟨1, _⟩ => exact (lhs2_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-- The bias row broadcast down the block's rows, at row `p` and column `q`, is the bias at column `q`. -/
theorem bias2_apply (x2 : Vec Ideal S1x128 .f32) (p : Fin 2000) (q : Fin 128) :
    broadcastTo S2000x128 x2 broadcasts_S1x128_S2000x128 (ix2 p q) = x2 (ix2 0 q) :=
  broadcastTo_apply x2 broadcasts_S1x128_S2000x128 (ix2 p q) (ix2 0 q) (fun a => by
    match a with
    | ⟨0, _⟩ => rfl
    | ⟨1, _⟩ => rfl)

/-- THE PAYLOAD at row `p`, column `q` of the block: the activations' row times the weights' column, plus the bias at
    the column, cut below at zero. The casts to the same shape and the narrowing to bf16 are the identity at the
    ideal values, and the f32 zero word is the extended real zero. -/
theorem pay2_apply (x0 : Vec Ideal S2000x64 .f32) (x1 : Vec Ideal S64x128 .f32) (x2 : Vec Ideal S1x128 .f32) (p : Fin 2000) (q : Fin 128) :
    k2_pay1 (F := Ideal) x0 x1 x2 (ix2 p q) = max ((∑ k : Fin 64, x0 (ix2 p k) * x1 (ix2 k q)) + x2 (ix2 0 q)) 0 := by
  unfold k2_pay1
  simp only [shapeCast_self]
  refine (maximumf_apply _ _ _).trans ?_
  refine congrArg₂ max ?_ Ideal.ofBits_zero_f32
  refine (addf_apply _ _ _).trans ?_
  exact congrArg₂ (· + ·) (mm2_apply _ _ p q) (bias2_apply x2 p q)

/-! ## Region 2: the result array after the 10 points -/

/-- What the result array ends holding, as a function of the three input arrays: row `i 0` of the activations times
    column `i 1` of the weights, plus the bias at column `i 1`, cut below at zero. -/
abbrev G2 (a0 : S20000x64.Idx → EReal) (a1 : S64x128.Idx → EReal) (a2 : S1x128.Idx → EReal) : S20000x128.Idx → EReal :=
  fun i => max ((∑ k : Fin 64, a0 (ix2 (i 0) k) * a1 (ix2 k (i 1))) + a2 (ix2 0 (i 1))) 0

/-- The printed index maps over the grid: the activations' and the result's blocks are at block row `t`, block
    column 0; the weights' and the bias's blocks are at (0, 0), at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One block's payload is the block of `G2` at block row `n`, when the activations' block holds rows
    `2000 n …` of the activations' array and the weights' and bias's blocks are their whole arrays: the output's row
    `2000 n + j 0` reads the activations' same row, and its column `j 1` the weights' and the bias's same column. -/
theorem core2 (a0 : S20000x64.Idx → EReal) (a1 : S64x128.Idx → EReal) (a2 : S1x128.Idx → EReal) (n : Nat)
    (x0 : Vec Ideal S2000x64 .f32) (x1 : Vec Ideal S64x128 .f32) (x2 : Vec Ideal S1x128 .f32)
    (h0 : ∀ (p : Fin 2000) (k : Fin 64) (i : S20000x64.Idx), (i 0).val = n * 2000 + p.val → (i 1).val = k.val → x0 (ix2 p k) = a0 i)
    (h1 : x1 = a1) (h2 : x2 = a2)
    (j : S2000x128.Idx) (i : S20000x128.Idx) (hi0 : (i 0).val = n * 2000 + (j 0).val) (hi1 : (i 1).val = (j 1).val) :
    k2_pay1 (F := Ideal) x0 x1 x2 j = G2 a0 a1 a2 i := by
  subst h1 h2
  obtain ⟨p, q, rfl⟩ : ∃ (p : Fin 2000) (q : Fin 128), j = ix2 p q := ⟨j 0, j 1, eq_ix2 j⟩
  have eq : q = i 1 := Fin.ext hi1.symm
  subst eq
  refine (pay2_apply x0 x1 x2 p (i 1)).trans ?_
  have hs : ∀ k : Fin 64, x0 (ix2 p k) = a0 (ix2 (i 0) k) := fun k => h0 p k (ix2 (i 0) k) hi0 rfl
  simp only [hs]

section Arrays2
variable (V : (c : Dev nD) → (b : Ref sig .tc) → Buf (Elt Ideal) ((c : Thread nD τ).loc b))

/-- WHAT POINT `t` WRITES BACK is block `t` of `G2` of the input arrays as the region finds them. -/
theorem flushed2_eq (c : Dev nD) (t : Fin cfg2.N) :
    (dat2 (F := Ideal) V c).flushed 3 t = ((cfg2.win 3).blk t).view.read (Elt Ideal)
      (G2 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero hz]
  simp only [View.ld_unit_zero (S := S2000x64) hz, View.ld_unit_zero (S := S64x128) hz, View.ld_unit_zero (S := S1x128) hz]
  obtain ⟨e0, e1, e2, e3, e4, e5, e6, e7⟩ := idx_facts2 t
  funext j
  refine core2 _ _ _ t.val (iblk2 V c 0 t) (iblk2 V c 1 t) (iblk2 V c 2 t) ?_ ?_ ?_ _ (((cfg2.win 3).blk t).view.emb j) ?_ ?_
  · intro p k i hi0 hi1
    show V c (Pipeline.arrRef spec2 0) (((cfg2.win 0).blk t).view.emb (ix2 p k)) = V c (Pipeline.arrRef spec2 0) i
    refine congrArg (V c (Pipeline.arrRef spec2 0)) (funext fun a => Fin.ext ?_)
    match a with
    | ⟨0, _⟩ => show win2_0.index t (0 : Fin 2) * 2000 + 1 * p.val = (i 0).val; omega
    | ⟨1, _⟩ => show win2_0.index t (1 : Fin 2) * 64 + 1 * k.val = (i 1).val; omega
  · funext y
    show V c (Pipeline.arrRef spec2 1) (((cfg2.win 1).blk t).view.emb y) = V c (Pipeline.arrRef spec2 1) y
    refine congrArg (V c (Pipeline.arrRef spec2 1)) (funext fun a => Fin.ext ?_)
    match a with
    | ⟨0, _⟩ => show win2_1.index t (0 : Fin 2) * 64 + 1 * (y 0).val = (y 0).val; omega
    | ⟨1, _⟩ => show win2_1.index t (1 : Fin 2) * 128 + 1 * (y 1).val = (y 1).val; omega
  · funext y
    show V c (Pipeline.arrRef spec2 2) (((cfg2.win 2).blk t).view.emb y) = V c (Pipeline.arrRef spec2 2) y
    refine congrArg (V c (Pipeline.arrRef spec2 2)) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · show win2_3.index t (0 : Fin 2) * 2000 + 1 * (j 0).val = t.val * 2000 + (j 0).val; omega
  · show win2_3.index t (1 : Fin 2) * 128 + 1 * (j 1).val = (j 1).val; omega

/-- An index of the result array is in point `t`'s block iff each coordinate is in the block's range on its axis. -/
theorem mem_blk2 (t : Fin cfg2.N) (i : S20000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v62).slice (win2_3.rect t)).set ↔ _
  rw [View.set_slice_whole, Rect.mem_set_unit]
  exact Iff.rfl

/-- Every index of the result array is in some point's block: row `r` is in the block of point `r / 2000`. -/
theorem cover2 (i : S20000x128.Idx) : ∃ t : Fin cfg2.N, (cfg2.win 3).flush t = true ∧ i ∈ ((cfg2.win 3).blk t).view.set := by
  have hi0 : (i 0).val < 20000 := (i 0).isLt
  have hi1 : (i 1).val < 128 := (i 1).isLt
  have hN : grid2.N = 10 := N_2
  have ht : (i 0).val / 2000 < cfg2.N := by show _ < grid2.N; omega
  obtain ⟨e0, e1, e2, e3, e4, e5, e6, e7⟩ := idx_facts2 ⟨(i 0).val / 2000, ht⟩
  refine ⟨⟨(i 0).val / 2000, ht⟩, flush2_3 _, ?_⟩
  rw [mem_blk2]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win2_3.index ⟨(i 0).val / 2000, ht⟩ (1 : Fin 2) * 128 ≤ (i 1).val ∧ (i 1).val < win2_3.index ⟨(i 0).val / 2000, ht⟩ (1 : Fin 2) * 128 + 128
    rw [e7]; omega

/-- THE RESULT ARRAY after the 10 points: at row `i 0`, column `i 1`, the activations' row times the weights' column,
    plus the bias at the column, cut below at zero — every point writes its block of that function and the blocks
    cover the array. -/
theorem arr2 (c : Dev nD) :
    (dat2 (F := Ideal) V c).arrAt 3 cfg2.N
      = G2 (V c (Pipeline.arrRef spec2 0)) (V c (Pipeline.arrRef spec2 1)) (V c (Pipeline.arrRef spec2 2)) :=
  (dat2 (F := Ideal) V c).arrAt_eq_of_cover 3
    (G2 (V c (Pipeline.arrRef spec2 0)) (V c (Pipeline.arrRef spec2 1)) (V c (Pipeline.arrRef spec2 2)))
    (fun t _ => flushed2_eq V c t) cover2

end Arrays2

/-! ## Region 3: one block's payload, read at an index -/

/-- The left operand's index of the contraction at output index `i`, contraction index `q`: the output's row … -/
theorem lhs3_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … and the contraction's coordinate. -/
theorem lhs3_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's index: the contraction's coordinate … -/
theorem rhs3_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- … and the output's column. -/
theorem rhs3_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The block's matrix product into the zero splat, at row `p` and column `q`: the sum over the 128 inner coordinates
    of the products (at the ideal values there is no rounding and no chunk order; the contraction has one axis, which
    the sum is re-indexed through). -/
theorem mm3_apply (a : FVec Ideal S2000x128 .bf16) (b : FVec Ideal S128x256 .bf16) (p : Fin 2000) (q : Fin 256) :
    matmul (F := Ideal) dot_S2000x128_S128x256_S2000x256_1_0_0_1_n_n none a b (constant (F := Ideal) S2000x256 .f32 0x00000000#32) (ix2 p q)
      = ∑ k : Fin 128, a (ix2 p k) * b (ix2 k q) := by
  refine (Ideal.matmul_constant_zero_apply dot_S2000x128_S128x256_S2000x256_1_0_0_1_n_n none a b (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs3_0 _ _
    | ⟨1, _⟩ => exact (lhs3_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs3_0 _ _).trans hk
    | ⟨1, _⟩ => exact rhs3_1 _ _)
  rw [el, er]

/-- The bias row broadcast down the block's rows, at row `p` and column `q`, is the bias at column `q`. -/
theorem bias3_apply (x2 : Vec Ideal S1x256 .f32) (p : Fin 2000) (q : Fin 256) :
    broadcastTo S2000x256 x2 broadcasts_S1x256_S2000x256 (ix2 p q) = x2 (ix2 0 q) :=
  broadcastTo_apply x2 broadcasts_S1x256_S2000x256 (ix2 p q) (ix2 0 q) (fun a => by
    match a with
    | ⟨0, _⟩ => rfl
    | ⟨1, _⟩ => rfl)

/-- THE PAYLOAD at row `p`, column `q` of the block: the activations' row times the weights' column, plus the bias at
    the column, cut below at zero. The casts to the same shape and the narrowing to bf16 are the identity at the
    ideal values, and the f32 zero word is the extended real zero. -/
theorem pay3_apply (x0 : Vec Ideal S2000x128 .f32) (x1 : Vec Ideal S128x256 .f32) (x2 : Vec Ideal S1x256 .f32) (p : Fin 2000) (q : Fin 256) :
    k3_pay1 (F := Ideal) x0 x1 x2 (ix2 p q) = max ((∑ k : Fin 128, x0 (ix2 p k) * x1 (ix2 k q)) + x2 (ix2 0 q)) 0 := by
  unfold k3_pay1
  simp only [shapeCast_self]
  refine (maximumf_apply _ _ _).trans ?_
  refine congrArg₂ max ?_ Ideal.ofBits_zero_f32
  refine (addf_apply _ _ _).trans ?_
  exact congrArg₂ (· + ·) (mm3_apply _ _ p q) (bias3_apply x2 p q)

/-! ## Region 3: the result array after the 10 points -/

/-- What the result array ends holding, as a function of the three input arrays: row `i 0` of the activations times
    column `i 1` of the weights, plus the bias at column `i 1`, cut below at zero. -/
abbrev G3 (a0 : S20000x128.Idx → EReal) (a1 : S128x256.Idx → EReal) (a2 : S1x256.Idx → EReal) : S20000x256.Idx → EReal :=
  fun i => max ((∑ k : Fin 128, a0 (ix2 (i 0) k) * a1 (ix2 k (i 1))) + a2 (ix2 0 (i 1))) 0

/-- The printed index maps over the grid: the activations' and the result's blocks are at block row `t`, block
    column 0; the weights' and the bias's blocks are at (0, 0), at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One block's payload is the block of `G3` at block row `n`, when the activations' block holds rows
    `2000 n …` of the activations' array and the weights' and bias's blocks are their whole arrays: the output's row
    `2000 n + j 0` reads the activations' same row, and its column `j 1` the weights' and the bias's same column. -/
theorem core3 (a0 : S20000x128.Idx → EReal) (a1 : S128x256.Idx → EReal) (a2 : S1x256.Idx → EReal) (n : Nat)
    (x0 : Vec Ideal S2000x128 .f32) (x1 : Vec Ideal S128x256 .f32) (x2 : Vec Ideal S1x256 .f32)
    (h0 : ∀ (p : Fin 2000) (k : Fin 128) (i : S20000x128.Idx), (i 0).val = n * 2000 + p.val → (i 1).val = k.val → x0 (ix2 p k) = a0 i)
    (h1 : x1 = a1) (h2 : x2 = a2)
    (j : S2000x256.Idx) (i : S20000x256.Idx) (hi0 : (i 0).val = n * 2000 + (j 0).val) (hi1 : (i 1).val = (j 1).val) :
    k3_pay1 (F := Ideal) x0 x1 x2 j = G3 a0 a1 a2 i := by
  subst h1 h2
  obtain ⟨p, q, rfl⟩ : ∃ (p : Fin 2000) (q : Fin 256), j = ix2 p q := ⟨j 0, j 1, eq_ix2 j⟩
  have eq : q = i 1 := Fin.ext hi1.symm
  subst eq
  refine (pay3_apply x0 x1 x2 p (i 1)).trans ?_
  have hs : ∀ k : Fin 128, x0 (ix2 p k) = a0 (ix2 (i 0) k) := fun k => h0 p k (ix2 (i 0) k) hi0 rfl
  simp only [hs]

section Arrays3
variable (V : (c : Dev nD) → (b : Ref sig .tc) → Buf (Elt Ideal) ((c : Thread nD τ).loc b))

/-- WHAT POINT `t` WRITES BACK is block `t` of `G3` of the input arrays as the region finds them. -/
theorem flushed3_eq (c : Dev nD) (t : Fin cfg3.N) :
    (dat3 (F := Ideal) V c).flushed 3 t = ((cfg3.win 3).blk t).view.read (Elt Ideal)
      (G3 (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero hz]
  simp only [View.ld_unit_zero (S := S2000x128) hz, View.ld_unit_zero (S := S128x256) hz, View.ld_unit_zero (S := S1x256) hz]
  obtain ⟨e0, e1, e2, e3, e4, e5, e6, e7⟩ := idx_facts3 t
  funext j
  refine core3 _ _ _ t.val (iblk3 V c 0 t) (iblk3 V c 1 t) (iblk3 V c 2 t) ?_ ?_ ?_ _ (((cfg3.win 3).blk t).view.emb j) ?_ ?_
  · intro p k i hi0 hi1
    show V c (Pipeline.arrRef spec3 0) (((cfg3.win 0).blk t).view.emb (ix2 p k)) = V c (Pipeline.arrRef spec3 0) i
    refine congrArg (V c (Pipeline.arrRef spec3 0)) (funext fun a => Fin.ext ?_)
    match a with
    | ⟨0, _⟩ => show win3_0.index t (0 : Fin 2) * 2000 + 1 * p.val = (i 0).val; omega
    | ⟨1, _⟩ => show win3_0.index t (1 : Fin 2) * 128 + 1 * k.val = (i 1).val; omega
  · funext y
    show V c (Pipeline.arrRef spec3 1) (((cfg3.win 1).blk t).view.emb y) = V c (Pipeline.arrRef spec3 1) y
    refine congrArg (V c (Pipeline.arrRef spec3 1)) (funext fun a => Fin.ext ?_)
    match a with
    | ⟨0, _⟩ => show win3_1.index t (0 : Fin 2) * 128 + 1 * (y 0).val = (y 0).val; omega
    | ⟨1, _⟩ => show win3_1.index t (1 : Fin 2) * 256 + 1 * (y 1).val = (y 1).val; omega
  · funext y
    show V c (Pipeline.arrRef spec3 2) (((cfg3.win 2).blk t).view.emb y) = V c (Pipeline.arrRef spec3 2) y
    refine congrArg (V c (Pipeline.arrRef spec3 2)) (funext fun a => Fin.ext ?_)
    match a with
    | ⟨0, _⟩ => show win3_2.index t (0 : Fin 2) * 1 + 1 * (y 0).val = (y 0).val; omega
    | ⟨1, _⟩ => show win3_2.index t (1 : Fin 2) * 256 + 1 * (y 1).val = (y 1).val; omega
  · show win3_3.index t (0 : Fin 2) * 2000 + 1 * (j 0).val = t.val * 2000 + (j 0).val; omega
  · show win3_3.index t (1 : Fin 2) * 256 + 1 * (j 1).val = (j 1).val; omega

/-- An index of the result array is in point `t`'s block iff each coordinate is in the block's range on its axis. -/
theorem mem_blk3 (t : Fin cfg3.N) (i : S20000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v77).slice (win3_3.rect t)).set ↔ _
  rw [View.set_slice_whole, Rect.mem_set_unit]
  exact Iff.rfl

/-- Every index of the result array is in some point's block: row `r` is in the block of point `r / 2000`. -/
theorem cover3 (i : S20000x256.Idx) : ∃ t : Fin cfg3.N, (cfg3.win 3).flush t = true ∧ i ∈ ((cfg3.win 3).blk t).view.set := by
  have hi0 : (i 0).val < 20000 := (i 0).isLt
  have hi1 : (i 1).val < 256 := (i 1).isLt
  have hN : grid3.N = 10 := N_3
  have ht : (i 0).val / 2000 < cfg3.N := by show _ < grid3.N; omega
  obtain ⟨e0, e1, e2, e3, e4, e5, e6, e7⟩ := idx_facts3 ⟨(i 0).val / 2000, ht⟩
  refine ⟨⟨(i 0).val / 2000, ht⟩, flush3_3 _, ?_⟩
  rw [mem_blk3]
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win3_3.index ⟨(i 0).val / 2000, ht⟩ (1 : Fin 2) * 256 ≤ (i 1).val ∧ (i 1).val < win3_3.index ⟨(i 0).val / 2000, ht⟩ (1 : Fin 2) * 256 + 256
    rw [e7]; omega

/-- THE RESULT ARRAY after the 10 points: at row `i 0`, column `i 1`, the activations' row times the weights' column,
    plus the bias at the column, cut below at zero — every point writes its block of that function and the blocks
    cover the array. -/
theorem arr3 (c : Dev nD) :
    (dat3 (F := Ideal) V c).arrAt 3 cfg3.N
      = G3 (V c (Pipeline.arrRef spec3 0)) (V c (Pipeline.arrRef spec3 1)) (V c (Pipeline.arrRef spec3 2)) :=
  (dat3 (F := Ideal) V c).arrAt_eq_of_cover 3
    (G3 (V c (Pipeline.arrRef spec3 0)) (V c (Pipeline.arrRef spec3 1)) (V c (Pipeline.arrRef spec3 2)))
    (fun t _ => flushed3_eq V c t) cover3

end Arrays3

end Cert.KernelIdeal.RegDense

end
-- ==== Proof.RegBias.lean ====
import proofs.«154560_j68659347193894_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegBias

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-- The index of two zeros, however it is spelt. -/
theorem hz : (![0, 0] : Fin 2 → Nat) = fun _ => 0 := funext fun a => by fin_cases a <;> rfl

/-! ## Bias and cut at zero over 64 columns (regions 1 and 5) -/

/-- The result of a bias-and-cut region as one function of its two input arrays: at every index the aggregate there
    plus the bias of its column, cut below at zero. -/
abbrev biasRelu64 (a0 : S20000x64.Idx → EReal) (a1 : S1x64.Idx → EReal) : S20000x64.Idx → EReal :=
  fun i => max (a0 i + a1 (ix2 0 (i 1))) 0

/-- `biasRelu64` at an index. -/
theorem biasRelu64_apply (a0 : S20000x64.Idx → EReal) (a1 : S1x64.Idx → EReal) (i : S20000x64.Idx) :
    biasRelu64 a0 a1 i = max (a0 i + a1 (ix2 0 (i 1))) 0 := rfl

/-- The same expression with the two arrays read at two given indices: the form both sides of a block equation take. -/
abbrev rd64 (a0 : S20000x64.Idx → EReal) (a1 : S1x64.Idx → EReal) (k0 : S20000x64.Idx) (k1 : S1x64.Idx) : EReal :=
  max (a0 k0 + a1 k1) 0

/-! ### Region 1 -/

/-- Region 1's payload at one element: both shape casts are to the same shape, so the identity; the bias row is
    repeated down the rows; the scalar zero is the extended real zero. So the element is the aggregate there plus the
    bias of its column, cut below at zero. -/
theorem pay1_apply (x0 : Vec Ideal S2000x64 .f32) (x1 : Vec Ideal S1x64 .f32) (p : Fin 2000) (q : Fin 64) :
    Gen.k1_pay1 (F := Ideal) x0 x1 (ix2 p q) = max (x0 (ix2 p q) + x1 (ix2 0 q)) 0 := by
  unfold Gen.k1_pay1
  rw [shapeCast_self, shapeCast_self]
  show max (x0 (ix2 p q) + broadcastTo S2000x64 x1 broadcasts_S1x64_S2000x64 (ix2 p q)) (Ideal.ofBits .f32 0x00000000#32) = _
  rw [Ideal.ofBits_zero_f32]
  refine congrArg (fun z => max (x0 (ix2 p q) + z) 0) ?_
  refine broadcastTo_apply x1 broadcasts_S1x64_S2000x64 (ix2 p q) (ix2 0 q) ?_
  intro a
  match a with
  | ⟨0, _⟩ => rfl
  | ⟨1, _⟩ => rfl

/-- The printed index maps over the grid's ten points: the aggregate's block moves with the result's, whose row-block
    index is the point and whose column-block index is zero; the bias's block is always the first. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of `biasRelu64` of the region's input arrays: the one store leaves the
    payload, each load reads its whole block, and a block's element sits in its array at block index times block size
    plus its own coordinate. -/
theorem flushed1_eq (V : (c : Dev nD) → (b : Ref sig .tc) → Buf (Elt Ideal) ((c : Thread nD τ).loc b)) (c : Dev nD) (t : Fin cfg1.N) :
    (Gen.dat1 (F := Ideal) V c).flushed 2 t
      = ((cfg1.win 2).blk t).view.read (Elt Ideal) (biasRelu64 (V c (Pipeline.arrRef spec1 0)) (V c (Pipeline.arrRef spec1 1))) := by
  show (cfg1.win 2).cut (grid1.coords t) ((Gen.dat1 (F := Ideal) V c).after 2 t) = _
  rw [Gen.after1_2]
  unfold Gen.out1_2
  rw [View.canon_unit_zero hz]
  simp only [View.ld_unit_zero (S := S2000x64) hz, View.ld_unit_zero (S := S1x64) hz]
  obtain ⟨e0, e1, e2, e3, e4, e5⟩ := idx_facts1 t
  funext j
  refine (congrArg (Gen.k1_pay1 (F := Ideal) (Gen.iblk1 V c 0 t) (Gen.iblk1 V c 1 t)) (eq_ix2 (n0 := 2000) (n1 := 64) j)).trans ?_
  refine (pay1_apply (Gen.iblk1 V c 0 t) (Gen.iblk1 V c 1 t) (j 0) (j 1)).trans ?_
  show rd64 (V c (Pipeline.arrRef spec1 0)) (V c (Pipeline.arrRef spec1 1))
        (((cfg1.win 0).blk t).view.emb (ix2 (j 0) (j 1))) (((cfg1.win 1).blk t).view.emb (ix2 0 (j 1)))
      = rd64 (V c (Pipeline.arrRef spec1 0)) (V c (Pipeline.arrRef spec1 1))
        (((cfg1.win 2).blk t).view.emb j) (ix2 0 ((((cfg1.win 2).blk t).view.emb j) 1))
  have h0 : ((cfg1.win 0).blk t).view.emb (ix2 (j 0) (j 1)) = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 0 (j 1)) = ix2 0 ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  exact congrArg₂ (rd64 (V c (Pipeline.arrRef spec1 0)) (V c (Pipeline.arrRef spec1 1))) h0 h1

/-- An index of the result array is in point `t`'s block iff each coordinate is in the block's range on its axis. -/
theorem mem_blk1 (t : Fin cfg1.N) (i : S20000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v47).slice (win1_2.rect t)).set ↔ _
  rw [View.set_slice_whole, Rect.mem_set_unit]
  exact Iff.rfl

/-- Every index of the result array is in some point's block: row `r` is in the block of point `r / 2000`. -/
theorem cover1 (i : S20000x64.Idx) :
    ∃ t : Fin cfg1.N, (cfg1.win 2).flush t = true ∧ i ∈ ((cfg1.win 2).blk t).view.set := by
  have hi0 : (i 0).val < 20000 := (i 0).isLt
  have hi1 : (i 1).val < 64 := (i 1).isLt
  have hN : cfg1.N = 10 := Gen.N_1
  obtain ⟨t, ht⟩ : ∃ t : Fin cfg1.N, t.val = (i 0).val / 2000 := ⟨⟨(i 0).val / 2000, by omega⟩, rfl⟩
  obtain ⟨e0, e1, e2, e3, e4, e5⟩ := idx_facts1 t
  refine ⟨t, Gen.flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- Region 1's result array after its ten points: at every index the aggregate there plus the bias of its column, cut
    below at zero. Each point writes back its block of that one function, and the ten blocks cover the array. -/
theorem arr1 (V : (c : Dev nD) → (b : Ref sig .tc) → Buf (Elt Ideal) ((c : Thread nD τ).loc b)) (c : Dev nD) :
    (Gen.dat1 (F := Ideal) V c).arrAt 2 cfg1.N
      = biasRelu64 (V c (Pipeline.arrRef spec1 0)) (V c (Pipeline.arrRef spec1 1)) :=
  (Gen.dat1 (F := Ideal) V c).arrAt_eq_of_cover 2 (biasRelu64 (V c (Pipeline.arrRef spec1 0)) (V c (Pipeline.arrRef spec1 1)))
    (fun t _ => flushed1_eq V c t) cover1

/-! ### Region 5 -/

/-- Region 5's payload at one element: both shape casts are to the same shape, so the identity; the bias row is
    repeated down the rows; the scalar zero is the extended real zero. So the element is the aggregate there plus the
    bias of its column, cut below at zero. -/
theorem pay5_apply (x0 : Vec Ideal S2000x64 .f32) (x1 : Vec Ideal S1x64 .f32) (p : Fin 2000) (q : Fin 64) :
    Gen.k5_pay1 (F := Ideal) x0 x1 (ix2 p q) = max (x0 (ix2 p q) + x1 (ix2 0 q)) 0 := by
  unfold Gen.k5_pay1
  rw [shapeCast_self, shapeCast_self]
  show max (x0 (ix2 p q) + broadcastTo S2000x64 x1 broadcasts_S1x64_S2000x64 (ix2 p q)) (Ideal.ofBits .f32 0x00000000#32) = _
  rw [Ideal.ofBits_zero_f32]
  refine congrArg (fun z => max (x0 (ix2 p q) + z) 0) ?_
  refine broadcastTo_apply x1 broadcasts_S1x64_S2000x64 (ix2 p q) (ix2 0 q) ?_
  intro a
  match a with
  | ⟨0, _⟩ => rfl
  | ⟨1, _⟩ => rfl

/-- The printed index maps over the grid's ten points: the aggregate's block moves with the result's, whose row-block
    index is the point and whose column-block index is zero; the bias's block is always the first. -/
theorem idx_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point `t` writes back is block `t` of `biasRelu64` of the region's input arrays: the one store leaves the
    payload, each load reads its whole block, and a block's element sits in its array at block index times block size
    plus its own coordinate. -/
theorem flushed5_eq (V : (c : Dev nD) → (b : Ref sig .tc) → Buf (Elt Ideal) ((c : Thread nD τ).loc b)) (c : Dev nD) (t : Fin cfg5.N) :
    (Gen.dat5 (F := Ideal) V c).flushed 2 t
      = ((cfg5.win 2).blk t).view.read (Elt Ideal) (biasRelu64 (V c (Pipeline.arrRef spec5 0)) (V c (Pipeline.arrRef spec5 1))) := by
  show (cfg5.win 2).cut (grid5.coords t) ((Gen.dat5 (F := Ideal) V c).after 2 t) = _
  rw [Gen.after5_2]
  unfold Gen.out5_2
  rw [View.canon_unit_zero hz]
  simp only [View.ld_unit_zero (S := S2000x64) hz, View.ld_unit_zero (S := S1x64) hz]
  obtain ⟨e0, e1, e2, e3, e4, e5⟩ := idx_facts5 t
  funext j
  refine (congrArg (Gen.k5_pay1 (F := Ideal) (Gen.iblk5 V c 0 t) (Gen.iblk5 V c 1 t)) (eq_ix2 (n0 := 2000) (n1 := 64) j)).trans ?_
  refine (pay5_apply (Gen.iblk5 V c 0 t) (Gen.iblk5 V c 1 t) (j 0) (j 1)).trans ?_
  show rd64 (V c (Pipeline.arrRef spec5 0)) (V c (Pipeline.arrRef spec5 1))
        (((cfg5.win 0).blk t).view.emb (ix2 (j 0) (j 1))) (((cfg5.win 1).blk t).view.emb (ix2 0 (j 1)))
      = rd64 (V c (Pipeline.arrRef spec5 0)) (V c (Pipeline.arrRef spec5 1))
        (((cfg5.win 2).blk t).view.emb j) (ix2 0 ((((cfg5.win 2).blk t).view.emb j) 1))
  have h0 : ((cfg5.win 0).blk t).view.emb (ix2 (j 0) (j 1)) = ((cfg5.win 2).blk t).view.emb j := by
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix2 0 (j 1)) = ix2 0 ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  exact congrArg₂ (rd64 (V c (Pipeline.arrRef spec5 0)) (V c (Pipeline.arrRef spec5 1))) h0 h1

/-- An index of the result array is in point `t`'s block iff each coordinate is in the block's range on its axis. -/
theorem mem_blk5 (t : Fin cfg5.N) (i : S20000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v93).slice (win5_2.rect t)).set ↔ _
  rw [View.set_slice_whole, Rect.mem_set_unit]
  exact Iff.rfl

/-- Every index of the result array is in some point's block: row `r` is in the block of point `r / 2000`. -/
theorem cover5 (i : S20000x64.Idx) :
    ∃ t : Fin cfg5.N, (cfg5.win 2).flush t = true ∧ i ∈ ((cfg5.win 2).blk t).view.set := by
  have hi0 : (i 0).val < 20000 := (i 0).isLt
  have hi1 : (i 1).val < 64 := (i 1).isLt
  have hN : cfg5.N = 10 := Gen.N_5
  obtain ⟨t, ht⟩ : ∃ t : Fin cfg5.N, t.val = (i 0).val / 2000 := ⟨⟨(i 0).val / 2000, by omega⟩, rfl⟩
  obtain ⟨e0, e1, e2, e3, e4, e5⟩ := idx_facts5 t
  refine ⟨t, Gen.flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 64 ≤ (i 1).val ∧ (i 1).val < win5_2.index t (1 : Fin 2) * 64 + 64; omega

/-- Region 5's result array after its ten points: at every index the aggregate there plus the bias of its column, cut
    below at zero. Each point writes back its block of that one function, and the ten blocks cover the array. -/
theorem arr5 (V : (c : Dev nD) → (b : Ref sig .tc) → Buf (Elt Ideal) ((c : Thread nD τ).loc b)) (c : Dev nD) :
    (Gen.dat5 (F := Ideal) V c).arrAt 2 cfg5.N
      = biasRelu64 (V c (Pipeline.arrRef spec5 0)) (V c (Pipeline.arrRef spec5 1)) :=
  (Gen.dat5 (F := Ideal) V c).arrAt_eq_of_cover 2 (biasRelu64 (V c (Pipeline.arrRef spec5 0)) (V c (Pipeline.arrRef spec5 1)))
    (fun t _ => flushed5_eq V c t) cover5

/-! ## Bias and hyperbolic tangent over one column (region 7) -/

/-- The vector hyperbolic tangent of the kernel and the host's are one function of the element at the ideal values:
    `-1` at `⊥`, `1` at `⊤`, the real hyperbolic tangent in between. The host's, at an index: -/
theorem host_tanh_apply (v : FVec Ideal S20000x1 .f32) (i : S20000x1.Idx) :
    Host.tanh (F := Ideal) v i = Ideal.tanh (v i) := rfl

/-- Region 7's result as one function of its two input arrays: at every index the hyperbolic tangent of the aggregate
    there plus the bias. -/
abbrev biasTanh1 (a0 : S20000x1.Idx → EReal) (a1 : S1x1.Idx → EReal) : S20000x1.Idx → EReal :=
  fun i => Ideal.tanh (a0 i + a1 (ix2 0 (i 1)))

/-- `biasTanh1` at an index. -/
theorem biasTanh1_apply (a0 : S20000x1.Idx → EReal) (a1 : S1x1.Idx → EReal) (i : S20000x1.Idx) :
    biasTanh1 a0 a1 i = Ideal.tanh (a0 i + a1 (ix2 0 (i 1))) := rfl

/-- The same expression with the two arrays read at two given indices. -/
abbrev rd1 (a0 : S20000x1.Idx → EReal) (a1 : S1x1.Idx → EReal) (k0 : S20000x1.Idx) (k1 : S1x1.Idx) : EReal :=
  Ideal.tanh (a0 k0 + a1 k1)

/-- Region 7's payload at one element: both shape casts are the identity and the one bias is repeated down the rows,
    so the element is the hyperbolic tangent of the aggregate there plus the bias. -/
theorem pay7_apply (x0 : Vec Ideal S2000x1 .f32) (x1 : Vec Ideal S1x1 .f32) (p : Fin 2000) (q : Fin 1) :
    Gen.k7_pay1 (F := Ideal) x0 x1 (ix2 p q) = Ideal.tanh (x0 (ix2 p q) + x1 (ix2 0 q)) := by
  unfold Gen.k7_pay1
  rw [shapeCast_self, shapeCast_self]
  show Ideal.tanh (x0 (ix2 p q) + broadcastTo S2000x1 x1 broadcasts_S1x1_S2000x1 (ix2 p q)) = _
  refine congrArg (fun z => Ideal.tanh (x0 (ix2 p q) + z)) ?_
  refine broadcastTo_apply x1 broadcasts_S1x1_S2000x1 (ix2 p q) (ix2 0 q) ?_
  intro a
  match a with
  | ⟨0, _⟩ => rfl
  | ⟨1, _⟩ => show q.val = 0; omega

/-- The printed index maps over the grid's ten points: the aggregate's block moves with the result's, whose row-block
    index is the point and whose column-block index is zero; the bias's block is always the first. -/
theorem idx_facts7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

/-- What point `t` writes back is block `t` of `biasTanh1` of the region's input arrays. -/
theorem flushed7_eq (V : (c : Dev nD) → (b : Ref sig .tc) → Buf (Elt Ideal) ((c : Thread nD τ).loc b)) (c : Dev nD) (t : Fin cfg7.N) :
    (Gen.dat7 (F := Ideal) V c).flushed 2 t
      = ((cfg7.win 2).blk t).view.read (Elt Ideal) (biasTanh1 (V c (Pipeline.arrRef spec7 0)) (V c (Pipeline.arrRef spec7 1))) := by
  show (cfg7.win 2).cut (grid7.coords t) ((Gen.dat7 (F := Ideal) V c).after 2 t) = _
  rw [Gen.after7_2]
  unfold Gen.out7_2
  rw [View.canon_unit_zero hz]
  simp only [View.ld_unit_zero (S := S2000x1) hz, View.ld_unit_zero (S := S1x1) hz]
  obtain ⟨e0, e1, e2, e3, e4, e5⟩ := idx_facts7 t
  funext j
  refine (congrArg (Gen.k7_pay1 (F := Ideal) (Gen.iblk7 V c 0 t) (Gen.iblk7 V c 1 t)) (eq_ix2 (n0 := 2000) (n1 := 1) j)).trans ?_
  refine (pay7_apply (Gen.iblk7 V c 0 t) (Gen.iblk7 V c 1 t) (j 0) (j 1)).trans ?_
  show rd1 (V c (Pipeline.arrRef spec7 0)) (V c (Pipeline.arrRef spec7 1))
        (((cfg7.win 0).blk t).view.emb (ix2 (j 0) (j 1))) (((cfg7.win 1).blk t).view.emb (ix2 0 (j 1)))
      = rd1 (V c (Pipeline.arrRef spec7 0)) (V c (Pipeline.arrRef spec7 1))
        (((cfg7.win 2).blk t).view.emb j) (ix2 0 ((((cfg7.win 2).blk t).view.emb j) 1))
  have h0 : ((cfg7.win 0).blk t).view.emb (ix2 (j 0) (j 1)) = ((cfg7.win 2).blk t).view.emb j := by
    funext a; apply Fin.ext
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 1 + 1 * (j 1).val = win7_2.index t (1 : Fin 2) * 1 + 1 * (j 1).val; omega
  have h1 : ((cfg7.win 1).blk t).view.emb (ix2 0 (j 1)) = ix2 0 ((((cfg7.win 2).blk t).view.emb j) 1) := by
    funext a; apply Fin.ext
    match a with
    | ⟨0, _⟩ => show win7_1.index t (0 : Fin 2) * 1 + 1 * 0 = 0; omega
    | ⟨1, _⟩ => show win7_1.index t (1 : Fin 2) * 1 + 1 * (j 1).val = win7_2.index t (1 : Fin 2) * 1 + 1 * (j 1).val; omega
  exact congrArg₂ (rd1 (V c (Pipeline.arrRef spec7 0)) (V c (Pipeline.arrRef spec7 1))) h0 h1

/-- An index of the result array is in point `t`'s block iff each coordinate is in the block's range on its axis. -/
theorem mem_blk7 (t : Fin cfg7.N) (i : S20000x1.Idx) :
    i ∈ ((cfg7.win 2).blk t).view.set ↔ ∀ a : Fin 2, win7_2.index t a * S2000x1.size a ≤ (i a).val ∧ (i a).val < win7_2.index t a * S2000x1.size a + S2000x1.size a := by
  show i ∈ ((View.whole main_v108).slice (win7_2.rect t)).set ↔ _
  rw [View.set_slice_whole, Rect.mem_set_unit]
  exact Iff.rfl

/-- Every index of the result array is in some point's block: row `r` is in the block of point `r / 2000`. -/
theorem cover7 (i : S20000x1.Idx) :
    ∃ t : Fin cfg7.N, (cfg7.win 2).flush t = true ∧ i ∈ ((cfg7.win 2).blk t).view.set := by
  have hi0 : (i 0).val < 20000 := (i 0).isLt
  have hi1 : (i 1).val < 1 := (i 1).isLt
  have hN : cfg7.N = 10 := Gen.N_7
  obtain ⟨t, ht⟩ : ∃ t : Fin cfg7.N, t.val = (i 0).val / 2000 := ⟨⟨(i 0).val / 2000, by omega⟩, rfl⟩
  obtain ⟨e0, e1, e2, e3, e4, e5⟩ := idx_facts7 t
  refine ⟨t, Gen.flush7_2 t, ?_⟩
  rw [mem_blk7]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 1 ≤ (i 1).val ∧ (i 1).val < win7_2.index t (1 : Fin 2) * 1 + 1; omega

/-- Region 7's result array after its ten points: at every index the hyperbolic tangent of the aggregate there plus the
    bias. Each point writes back its block of that one function, and the ten blocks cover the array. -/
theorem arr7 (V : (c : Dev nD) → (b : Ref sig .tc) → Buf (Elt Ideal) ((c : Thread nD τ).loc b)) (c : Dev nD) :
    (Gen.dat7 (F := Ideal) V c).arrAt 2 cfg7.N
      = biasTanh1 (V c (Pipeline.arrRef spec7 0)) (V c (Pipeline.arrRef spec7 1)) :=
  (Gen.dat7 (F := Ideal) V c).arrAt_eq_of_cover 2 (biasTanh1 (V c (Pipeline.arrRef spec7 0)) (V c (Pipeline.arrRef spec7 1)))
    (fun t _ => flushed7_eq V c t) cover7

end Cert.KernelIdeal.RegBias

end
-- ==== Proof.FoldAll.lean ====
/-
  The idealized kernel's value, layer by layer. Each region's output array is the region's function of its input
  arrays (a matrix product; a product plus bias under relu; a bias under relu or tanh), each host stretch between
  regions is one aggregation over the edges, and the index lists and the normalisation every aggregation reads are
  the ones written before the first region. Composing these along the sixteen boundaries gives the result buffer
  as one term of the launch memory.
-/
import proofs.«154560_j68659347193894_2_alg».proof.Proof.Gen.KernelIdeal.Frame
import Idealize.ShloMosaic.Lib.StableHlo.Run
import Idealize.ShloMosaic.PureOps.Ideal
import proofs.«154560_j68659347193894_2_alg».proof.Proof.FoldKeep
import proofs.«154560_j68659347193894_2_alg».proof.Proof.FoldHost
import proofs.«154560_j68659347193894_2_alg».proof.Proof.RegMatmul
import proofs.«154560_j68659347193894_2_alg».proof.Proof.RegDense
import proofs.«154560_j68659347193894_2_alg».proof.Proof.RegBias

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

open Cert.KernelIdeal.RegMatmul Cert.KernelIdeal.RegDense Cert.KernelIdeal.RegBias

/-! ## The layers' outputs as terms of the launch memory -/

/-- Layer 1's product: features times the first weight matrix. -/
def K0 (c : Dev nD) : S20000x64.Idx → EReal := G0 (m ((c : Thread nD τ).loc main_arg0)) (m ((c : Thread nD τ).loc main_arg3))
/-- Layer 1's output: the aggregate of the product, plus bias, under relu. -/
def K1 (c : Dev nD) : S20000x64.Idx → EReal :=
  biasRelu64 (aggK64 (W3 m ρ c (Proc.devRef .tc main_v3)) (W3 m ρ c (Proc.devRef .tc main_v6)) (W3 m ρ c (Proc.devRef .tc main_v31)) (K0 m c)) (shapeCast S1x64 (m ((c : Thread nD τ).loc main_arg4)) shapeCasts_S64_S1x64)
/-- Layer 2's output: the aggregate of layer 1's output, times the weights, plus bias, under relu. -/
def K2 (c : Dev nD) : S20000x128.Idx → EReal :=
  G2 (aggK64 (W3 m ρ c (Proc.devRef .tc main_v3)) (W3 m ρ c (Proc.devRef .tc main_v6)) (W3 m ρ c (Proc.devRef .tc main_v31)) (K1 m ρ c)) (m ((c : Thread nD τ).loc main_arg5)) (shapeCast S1x128 (m ((c : Thread nD τ).loc main_arg6)) shapeCasts_S128_S1x128)
/-- Layer 3's output: the aggregate of layer 2's output, times the weights, plus bias, under relu. -/
def K3 (c : Dev nD) : S20000x256.Idx → EReal :=
  G3 (aggK128 (W3 m ρ c (Proc.devRef .tc main_v3)) (W3 m ρ c (Proc.devRef .tc main_v6)) (W3 m ρ c (Proc.devRef .tc main_v31)) (K2 m ρ c)) (m ((c : Thread nD τ).loc main_arg7)) (shapeCast S1x256 (m ((c : Thread nD τ).loc main_arg8)) shapeCasts_S256_S1x256)
/-- Layer 4's product. -/
def K4 (c : Dev nD) : S20000x64.Idx → EReal := G4 (K3 m ρ c) (m ((c : Thread nD τ).loc main_arg9))
/-- Layer 4's output. -/
def K5 (c : Dev nD) : S20000x64.Idx → EReal :=
  biasRelu64 (aggK64 (W3 m ρ c (Proc.devRef .tc main_v3)) (W3 m ρ c (Proc.devRef .tc main_v6)) (W3 m ρ c (Proc.devRef .tc main_v31)) (K4 m ρ c)) (shapeCast S1x64 (m ((c : Thread nD τ).loc main_arg10)) shapeCasts_S64_S1x64)
/-- Layer 5's product, one column. -/
def K6 (c : Dev nD) : S20000x1.Idx → EReal := G6 (K5 m ρ c) (m ((c : Thread nD τ).loc main_arg11))
/-- The result: the aggregate of layer 5's product, plus bias, under tanh. -/
def K7 (c : Dev nD) : S20000x1.Idx → EReal :=
  biasTanh1 (aggK1 (W3 m ρ c (Proc.devRef .tc main_v3)) (W3 m ρ c (Proc.devRef .tc main_v6)) (W3 m ρ c (Proc.devRef .tc main_v31)) (K6 m ρ c)) (shapeCast S1x1 (m ((c : Thread nD τ).loc main_arg12)) shapeCasts_S1_S1x1)

/-! ## One theorem per region: what its output buffer holds at the region's exit -/

theorem v32_W4 (c : Dev nD) : W4 m ρ c (Proc.devRef .tc main_v32) = K0 m c := by
  refine ((W4_arr m ρ c 2).trans (RegMatmul.arr0 (V3 m ρ) c)).trans ?_
  show G0 (W3 m ρ c (Proc.devRef .tc main_arg0)) (W3 m ρ c (Proc.devRef .tc main_arg3)) = _
  rw [arg0_W3, arg3_W3]; rfl

theorem v47_W6 (c : Dev nD) : W6 m ρ c (Proc.devRef .tc main_v47) = K1 m ρ c := by
  refine ((W6_arr m ρ c 2).trans (RegBias.arr1 (V5 m ρ) c)).trans ?_
  show biasRelu64 (W5 m ρ c (Proc.devRef .tc main_v45)) (W5 m ρ c (Proc.devRef .tc main_v46)) = _
  rw [v45_W5, v46_W5, keep_v3_W4, keep_v6_W4, keep_v31_W4, v32_W4, arg4_W4]; rfl

theorem v62_W8 (c : Dev nD) : W8 m ρ c (Proc.devRef .tc main_v62) = K2 m ρ c := by
  refine ((W8_arr m ρ c 3).trans (RegDense.arr2 (V7 m ρ) c)).trans ?_
  show G2 (W7 m ρ c (Proc.devRef .tc main_v60)) (W7 m ρ c (Proc.devRef .tc main_arg5)) (W7 m ρ c (Proc.devRef .tc main_v61)) = _
  rw [v60_W7, v61_W7, arg5_W7, keep_v3_W6, keep_v6_W6, keep_v31_W6, keep_v3_W4, keep_v6_W4, keep_v31_W4, v47_W6, arg6_W6]; rfl

theorem v77_W10 (c : Dev nD) : W10 m ρ c (Proc.devRef .tc main_v77) = K3 m ρ c := by
  refine ((W10_arr m ρ c 3).trans (RegDense.arr3 (V9 m ρ) c)).trans ?_
  show G3 (W9 m ρ c (Proc.devRef .tc main_v75)) (W9 m ρ c (Proc.devRef .tc main_arg7)) (W9 m ρ c (Proc.devRef .tc main_v76)) = _
  rw [v75_W9, v76_W9, arg7_W9, keep_v3_W8, keep_v6_W8, keep_v31_W8, keep_v3_W6, keep_v6_W6, keep_v31_W6, keep_v3_W4, keep_v6_W4, keep_v31_W4, v62_W8, arg8_W8]; rfl

theorem v78_W11 (c : Dev nD) : W11 m ρ c (Proc.devRef .tc main_v78) = K4 m ρ c := by
  refine ((W11_arr m ρ c 2).trans (RegMatmul.arr4 (V10 m ρ) c)).trans ?_
  show G4 (W10 m ρ c (Proc.devRef .tc main_v77)) (W10 m ρ c (Proc.devRef .tc main_arg9)) = _
  rw [v77_W10, arg9_W10]; rfl

theorem v93_W13 (c : Dev nD) : W13 m ρ c (Proc.devRef .tc main_v93) = K5 m ρ c := by
  refine ((W13_arr m ρ c 2).trans (RegBias.arr5 (V12 m ρ) c)).trans ?_
  show biasRelu64 (W12 m ρ c (Proc.devRef .tc main_v91)) (W12 m ρ c (Proc.devRef .tc main_v92)) = _
  rw [v91_W12, v92_W12, keep_v3_W11, keep_v6_W11, keep_v31_W11, keep_v3_W8, keep_v6_W8, keep_v31_W8, keep_v3_W6, keep_v6_W6, keep_v31_W6, keep_v3_W4, keep_v6_W4, keep_v31_W4, v78_W11, arg10_W11]; rfl

theorem v94_W14 (c : Dev nD) : W14 m ρ c (Proc.devRef .tc main_v94) = K6 m ρ c := by
  refine ((W14_arr m ρ c 2).trans (RegMatmul.arr6 (V13 m ρ) c)).trans ?_
  show G6 (W13 m ρ c (Proc.devRef .tc main_v93)) (W13 m ρ c (Proc.devRef .tc main_arg11)) = _
  rw [v93_W13, arg11_W13]; rfl

/-- The result buffer at the last boundary is the composed term. -/
theorem v108_W16 (c : Dev nD) : W16 m ρ c (Proc.devRef .tc main_v108) = K7 m ρ c := by
  refine ((W16_arr m ρ c 2).trans (RegBias.arr7 (V15 m ρ) c)).trans ?_
  show biasTanh1 (W15 m ρ c (Proc.devRef .tc main_v106)) (W15 m ρ c (Proc.devRef .tc main_v107)) = _
  rw [v106_W15, v107_W15, keep_v3_W14, keep_v6_W14, keep_v31_W14, keep_v3_W11, keep_v6_W11, keep_v31_W11, keep_v3_W8, keep_v6_W8, keep_v31_W8, keep_v3_W6, keep_v6_W6, keep_v31_W6, keep_v3_W4, keep_v6_W4, keep_v31_W4, v94_W14, arg12_W14]; rfl

end Cert.KernelIdeal.Fold

end
-- ==== Proof.FoldPre.lean ====
/-
  The preamble of the idealized kernel against the reference's. Before its first region the kernel runs the same
  operations as the reference does: it splits the edge list into source and target rows, appends one self loop per
  node, sums the edge weights into each target's degree, takes the inverse square root where the degree is
  positive, and multiplies source factor, weight and target factor into one normalisation per edge. So at the
  boundary before the first region the three buffers every later aggregation reads hold the reference's stages of
  the same arguments.
-/
import proofs.«154560_j68659347193894_2_alg».proof.Proof.Gen.KernelIdeal.Frame
import Idealize.ShloMosaic.Lib.StableHlo.Run
import Idealize.ShloMosaic.PureOps.Ideal
import proofs.«154560_j68659347193894_2_alg».proof.Proof.Gen.ReferenceIdeal.Read

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-! ## After the first stretch: edge lists, weights with the self loops, the degree's sign test and inverse root -/

set_option maxHeartbeats 4000000 in
theorem v3_W1 (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  rfl

set_option maxHeartbeats 4000000 in
theorem v6_W1 (c : Dev nD) : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6) = _
  after_results_simp
  rfl

set_option maxHeartbeats 4000000 in
theorem v8_W1 (c : Dev nD) : W1 m ρ c (Proc.devRef .tc main_v8)
    = Cert.ReferenceIdeal.Read.val_main_v8 (F := Ideal) (m ((c : Thread nD τ).loc main_arg2)) := by
  show StableHlo.after hostOps0 (W0 m ρ c) (Proc.devRef .tc main_v8) = _
  after_results_simp
  rfl

set_option maxHeartbeats 4000000 in
theorem v13_W1 (c : Dev nD) : W1 m ρ c (Proc.devRef .tc main_v13)
    = Cert.ReferenceIdeal.Read.val_main_v13 (F := Ideal) (m ((c : Thread nD τ).loc main_arg1)) (m ((c : Thread nD τ).loc main_arg2)) := by
  show StableHlo.after hostOps0 (W0 m ρ c) (Proc.devRef .tc main_v13) = _
  after_results_simp
  rfl

set_option maxHeartbeats 4000000 in
theorem v14_W1 (c : Dev nD) : W1 m ρ c (Proc.devRef .tc main_v14)
    = Cert.ReferenceIdeal.Read.val_main_v14 (F := Ideal) (m ((c : Thread nD τ).loc main_arg1)) (m ((c : Thread nD τ).loc main_arg2)) := by
  show StableHlo.after hostOps0 (W0 m ρ c) (Proc.devRef .tc main_v14) = _
  after_results_simp
  rfl

set_option maxHeartbeats 4000000 in
theorem cst2_W1 (c : Dev nD) : W1 m ρ c (Proc.devRef .tc main_cst_2)
    = Cert.ReferenceIdeal.Read.val_main_cst_2 (F := Ideal) := by
  show StableHlo.after hostOps0 (W0 m ρ c) (Proc.devRef .tc main_cst_2) = _
  after_results_simp
  rfl

/-! ## After the selection: the inverse root where the degree is positive, zero elsewhere -/

/-- The selection stretch, from any contents it finds: the inverse root where the sign test says so, the broadcast
    zero elsewhere. -/
theorem v15_of (V : Valuation τ sig (Elt Ideal)) :
    StableHlo.after hostOps0_1 V (Proc.devRef .tc main_v15)
      = select (V (Proc.devRef .tc main_v13)) (V (Proc.devRef .tc main_v14))
          (broadcastInDim S20000 ![] bcast_S_S20000 (V (Proc.devRef .tc main_cst_2))) := by
  after_results_simp
  rfl

theorem v15_W2 (c : Dev nD) : W2 m ρ c (Proc.devRef .tc main_v15)
    = Cert.ReferenceIdeal.Read.val_main_v15 (F := Ideal) (m ((c : Thread nD τ).loc main_arg1)) (m ((c : Thread nD τ).loc main_arg2)) := by
  refine (v15_of (W1 m ρ c)).trans ?_
  rw [v13_W1, v14_W1, cst2_W1]
  rfl

theorem keep_v3_W2 (c : Dev nD) : W2 m ρ c (Proc.devRef .tc main_v3) = W1 m ρ c (Proc.devRef .tc main_v3) :=
  StableHlo.after_of_forall_not_mem (b := Proc.devRef .tc main_v3) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v6_W2 (c : Dev nD) : W2 m ρ c (Proc.devRef .tc main_v6) = W1 m ρ c (Proc.devRef .tc main_v6) :=
  StableHlo.after_of_forall_not_mem (b := Proc.devRef .tc main_v6) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v8_W2 (c : Dev nD) : W2 m ρ c (Proc.devRef .tc main_v8) = W1 m ρ c (Proc.devRef .tc main_v8) :=
  StableHlo.after_of_forall_not_mem (b := Proc.devRef .tc main_v8) _ _ (List.forall_iff_forall_mem.mp (by
          simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## Before the first region: the two index lists and the normalisation -/

theorem v3_W3 (c : Dev nD) : W3 m ρ c (Proc.devRef .tc main_v3) = Cert.ReferenceIdeal.Read.val_main_v3 (F := Ideal) (m ((c : Thread nD τ).loc main_arg1)) :=
  (StableHlo.after_of_forall_not_mem (b := Proc.devRef .tc main_v3) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((keep_v3_W2 m ρ c).trans (v3_W1 m ρ c))

theorem v6_W3 (c : Dev nD) : W3 m ρ c (Proc.devRef .tc main_v6) = Cert.ReferenceIdeal.Read.val_main_v6 (F := Ideal) (m ((c : Thread nD τ).loc main_arg1)) :=
  (StableHlo.after_of_forall_not_mem (b := Proc.devRef .tc main_v6) _ _ (List.forall_iff_forall_mem.mp (by
          simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((keep_v6_W2 m ρ c).trans (v6_W1 m ρ c))

set_option maxHeartbeats 4000000 in
/-- The last preamble stretch, from any contents it finds: the factor gathered at the source, times the weight,
    times the factor gathered at the target. -/
theorem v31_of (V : Valuation τ sig (Elt Ideal)) :
    StableHlo.after hostOps0_2 V (Proc.devRef .tc main_v31)
      = mulf (F := Ideal) (φ := .f32) (s := S340000) (mulf (F := Ideal) (φ := .f32) (s := S340000) (Host.gather gather_S20000_S340000x1_S340000_n_0_n_n_0_1_1 (V (Proc.devRef .tc main_v15))
          (broadcastInDim S340000x1 ![0] bcast_S340000_S340000x1_0
            (select (cmpi .slt (V (Proc.devRef .tc main_v3)) (broadcastInDim S340000 ![] bcast_S_S340000 (constantI S_ 32 0#32)))
              (addi (V (Proc.devRef .tc main_v3)) (broadcastInDim S340000 ![] bcast_S_S340000 (constantI S_ 32 20000#32))) (V (Proc.devRef .tc main_v3))))) (V (Proc.devRef .tc main_v8)))
          (Host.gather gather_S20000_S340000x1_S340000_n_0_n_n_0_1_1 (V (Proc.devRef .tc main_v15))
          (broadcastInDim S340000x1 ![0] bcast_S340000_S340000x1_0
            (select (cmpi .slt (V (Proc.devRef .tc main_v6)) (broadcastInDim S340000 ![] bcast_S_S340000 (constantI S_ 32 0#32)))
              (addi (V (Proc.devRef .tc main_v6)) (broadcastInDim S340000 ![] bcast_S_S340000 (constantI S_ 32 20000#32))) (V (Proc.devRef .tc main_v6))))) := by
  after_results_simp <;> rfl

theorem v31_W3 (c : Dev nD) : W3 m ρ c (Proc.devRef .tc main_v31)
    = Cert.ReferenceIdeal.Read.val_main_v31 (F := Ideal) (m ((c : Thread nD τ).loc main_arg1)) (m ((c : Thread nD τ).loc main_arg2)) := by
  refine (v31_of (W2 m ρ c)).trans ?_
  rw [v15_W2, keep_v3_W2, keep_v6_W2, keep_v8_W2, v3_W1, v6_W1, v8_W1]
  rfl

end Cert.KernelIdeal.Fold

end
-- ==== Proof.KernelNet.lean ====
/-
  The idealized kernel's value in the vocabulary of layers. With a matrix read as a function of row and column,
  each region is a matrix product, a bias addition and an activation, each host stretch an aggregation over the
  edges, and the graph data are the reference's own stages of the edge list and the edge weights. Layers 1, 4 and 5
  multiply by the weights first and then aggregate; layers 2 and 3 aggregate first.
-/
import proofs.«154560_j68659347193894_2_alg».proof.Proof.NetDefs
import proofs.«154560_j68659347193894_2_alg».proof.Proof.LibAggHost
import proofs.«154560_j68659347193894_2_alg».proof.Proof.FoldAll
import proofs.«154560_j68659347193894_2_alg».proof.Proof.FoldPre
import Idealize.ShloMosaic.Lib.Pipeline.Value
import Idealize.ShloMosaic.Lib.ValueIdx

set_option maxRecDepth 16384

noncomputable section

namespace Cert.KernelNet

open Cert.KernelIdeal Cert.KernelIdeal.Gen Cert.KernelIdeal.Fold
open Cert.KernelIdeal.RegMatmul Cert.KernelIdeal.RegDense Cert.KernelIdeal.RegBias
open Idealize.ShloMosaic Idealize.ShloMosaic.TcCoe Idealize.ShloMosaic.ValueIdx Idealize.SL.Sem
open AggLaw RowOps Cert.Net

variable (m : (ℓ : Loc nD τ sig) → Buf (Elt Ideal) ℓ) (ρ : Dev nD → PrngReg)

/-- A matrix read as a function of row and column, at a row and a column. -/
theorem toFn2_apply {N C : Nat} (h : (⟨2, ![N, C]⟩ : Shape).Idx → EReal) (r : Fin N) (k : Fin C) : toFn2 h r k = h (ix2 r k) := rfl

/-! ## Biases and aggregations read at an index -/

/-- A length-64 bias recast as a one-row matrix, read at column `j`: entry `j` of the bias. -/
theorem bias_row64 (b : S64.Idx → EReal) (j : Fin 64) : shapeCast S1x64 b shapeCasts_S64_S1x64 (ix2 0 j) = b (ix1 j) :=
  shapeCast_apply b shapeCasts_S64_S1x64 (ix2 0 j) (ix1 j) (by
    rw [Shape.rowMajor_val_one, Shape.rowMajor_val_two]; show j.val = 0 * 64 + j.val; omega)

/-- A length-128 bias recast as a one-row matrix, read at column `j`: entry `j` of the bias. -/
theorem bias_row128 (b : S128.Idx → EReal) (j : Fin 128) : shapeCast S1x128 b shapeCasts_S128_S1x128 (ix2 0 j) = b (ix1 j) :=
  shapeCast_apply b shapeCasts_S128_S1x128 (ix2 0 j) (ix1 j) (by
    rw [Shape.rowMajor_val_one, Shape.rowMajor_val_two]; show j.val = 0 * 128 + j.val; omega)

/-- A length-256 bias recast as a one-row matrix, read at column `j`: entry `j` of the bias. -/
theorem bias_row256 (b : S256.Idx → EReal) (j : Fin 256) : shapeCast S1x256 b shapeCasts_S256_S1x256 (ix2 0 j) = b (ix1 j) :=
  shapeCast_apply b shapeCasts_S256_S1x256 (ix2 0 j) (ix1 j) (by
    rw [Shape.rowMajor_val_one, Shape.rowMajor_val_two]; show j.val = 0 * 256 + j.val; omega)

/-- A length-1 bias recast as a one-row matrix, read at column `j`: entry `j` of the bias. -/
theorem bias_row1 (b : S1.Idx → EReal) (j : Fin 1) : shapeCast S1x1 b shapeCasts_S1_S1x1 (ix2 0 j) = b (ix1 j) :=
  shapeCast_apply b shapeCasts_S1_S1x1 (ix2 0 j) (ix1 j) (by
    rw [Shape.rowMajor_val_one, Shape.rowMajor_val_two]; show j.val = 0 * 1 + j.val; omega)

/-- The aggregation at row `r`, column `k`: the sum, over the edges landing on `r`, of the source row's entry times
    the edge's normalisation. -/
theorem aggK64_apply (a3 a6 : IVec S340000 32) (a31 : FVec Ideal S340000 .f32) (h : FVec Ideal S20000x64 .f32)
    (r : Fin 20000) (k : Fin 64) :
    aggK64 a3 a6 a31 h (ix2 r k)
      = agg (landRow (N := 20000) (E := 340000) (w := 32) (dstCol a6)) (clampRow (N := 20000) (E := 340000) (w := 32) (by decide) (srcCol a3))
          (fun e => a31 (ix1 e)) (toFn2 (N := 20000) (C := 64) h) r k := by
  unfold aggK64 agg toFn2
  exact aggHost_apply (N := 20000) (E := 340000) (C := 64) (by decide) _ _ _ _ _ h (srcCol a3) (dstCol a6) a31 r k

/-- The aggregation at row `r`, column `k`: the sum, over the edges landing on `r`, of the source row's entry times
    the edge's normalisation. -/
theorem aggK128_apply (a3 a6 : IVec S340000 32) (a31 : FVec Ideal S340000 .f32) (h : FVec Ideal S20000x128 .f32)
    (r : Fin 20000) (k : Fin 128) :
    aggK128 a3 a6 a31 h (ix2 r k)
      = agg (landRow (N := 20000) (E := 340000) (w := 32) (dstCol a6)) (clampRow (N := 20000) (E := 340000) (w := 32) (by decide) (srcCol a3))
          (fun e => a31 (ix1 e)) (toFn2 (N := 20000) (C := 128) h) r k := by
  unfold aggK128 agg toFn2
  exact aggHost_apply (N := 20000) (E := 340000) (C := 128) (by decide) _ _ _ _ _ h (srcCol a3) (dstCol a6) a31 r k

/-- The aggregation at row `r`, column `k`: the sum, over the edges landing on `r`, of the source row's entry times
    the edge's normalisation. -/
theorem aggK1_apply (a3 a6 : IVec S340000 32) (a31 : FVec Ideal S340000 .f32) (h : FVec Ideal S20000x1 .f32)
    (r : Fin 20000) (k : Fin 1) :
    aggK1 a3 a6 a31 h (ix2 r k)
      = agg (landRow (N := 20000) (E := 340000) (w := 32) (dstCol a6)) (clampRow (N := 20000) (E := 340000) (w := 32) (by decide) (srcCol a3))
          (fun e => a31 (ix1 e)) (toFn2 (N := 20000) (C := 1) h) r k := by
  unfold aggK1 agg toFn2
  exact aggHost1_apply (N := 20000) (E := 340000) (by decide) _ _ _ _ h (srcCol a3) (dstCol a6) a31 r k

/-! ## The graph data the kernel's aggregations read are the reference's -/

theorem land_eq (c : Dev nD) : landRow (N := 20000) (E := 340000) (w := 32) (dstCol (W3 m ρ c (Proc.devRef .tc main_v6))) = land (m ((c : Thread nD τ).loc main_arg1)) := by
  rw [v6_W3]; rfl
theorem src_eq (c : Dev nD) : clampRow (N := 20000) (E := 340000) (w := 32) (by decide) (srcCol (W3 m ρ c (Proc.devRef .tc main_v3))) = src (m ((c : Thread nD τ).loc main_arg1)) := by
  rw [v3_W3]; rfl
theorem nrm_eq (c : Dev nD) : (fun e : Fin 340000 => (W3 m ρ c (Proc.devRef .tc main_v31) : S340000.Idx → EReal) (ix1 e)) = nrm (m ((c : Thread nD τ).loc main_arg1)) (m ((c : Thread nD τ).loc main_arg2)) := by
  rw [v31_W3]; rfl

/-! ## The layers -/

theorem K0_fn (c : Dev nD) : toFn2 (N := 20000) (C := 64) (K0 m c) = mm (toFn2 (N := 20000) (C := 128) (m ((c : Thread nD τ).loc main_arg0))) (toFn2 (N := 128) (C := 64) (m ((c : Thread nD τ).loc main_arg3))) := rfl

/-- Layer 1: multiply, aggregate, add the bias, relu. -/
theorem K1_fn (c : Dev nD) : toFn2 (N := 20000) (C := 64) (K1 m ρ c)
    = layerR relu (land (m ((c : Thread nD τ).loc main_arg1))) (src (m ((c : Thread nD τ).loc main_arg1))) (nrm (m ((c : Thread nD τ).loc main_arg1)) (m ((c : Thread nD τ).loc main_arg2))) (toFn2 (N := 20000) (C := 128) (m ((c : Thread nD τ).loc main_arg0))) (toFn2 (N := 128) (C := 64) (m ((c : Thread nD τ).loc main_arg3))) (toFn1 (C := 64) (m ((c : Thread nD τ).loc main_arg4))) := by
  funext r j
  show max (aggK64 _ _ _ (K0 m c) (ix2 r j) + shapeCast S1x64 (m ((c : Thread nD τ).loc main_arg4)) shapeCasts_S64_S1x64 (ix2 0 j)) 0 = _
  rw [aggK64_apply, bias_row64, land_eq, src_eq, nrm_eq, K0_fn]; rfl

/-- Layer 2 at one entry: the row of aggregates times the weight column, plus the bias entry, under relu. -/
theorem K2_at (c : Dev nD) (r : Fin 20000) (j : Fin 128) : K2 m ρ c (ix2 r j)
    = max ((∑ k : Fin 64, agg (land (m ((c : Thread nD τ).loc main_arg1))) (src (m ((c : Thread nD τ).loc main_arg1))) (nrm (m ((c : Thread nD τ).loc main_arg1)) (m ((c : Thread nD τ).loc main_arg2))) (toFn2 (N := 20000) (C := 64) (K1 m ρ c)) r k * toFn2 (N := 64) (C := 128) (m ((c : Thread nD τ).loc main_arg5)) k j) + toFn1 (C := 128) (m ((c : Thread nD τ).loc main_arg6)) j) 0 := by
  have hagg : ∀ k : Fin 64, aggK64 (W3 m ρ c (Proc.devRef .tc main_v3)) (W3 m ρ c (Proc.devRef .tc main_v6)) (W3 m ρ c (Proc.devRef .tc main_v31)) (K1 m ρ c) (ix2 r k)
      = agg (land (m ((c : Thread nD τ).loc main_arg1))) (src (m ((c : Thread nD τ).loc main_arg1))) (nrm (m ((c : Thread nD τ).loc main_arg1)) (m ((c : Thread nD τ).loc main_arg2))) (toFn2 (N := 20000) (C := 64) (K1 m ρ c)) r k := fun k => by
    rw [aggK64_apply, land_eq, src_eq, nrm_eq]
  show max ((∑ k : Fin 64, aggK64 (W3 m ρ c (Proc.devRef .tc main_v3)) (W3 m ρ c (Proc.devRef .tc main_v6)) (W3 m ρ c (Proc.devRef .tc main_v31)) (K1 m ρ c) (ix2 r k) * (m ((c : Thread nD τ).loc main_arg5)) (ix2 k j)) + shapeCast S1x128 (m ((c : Thread nD τ).loc main_arg6)) shapeCasts_S128_S1x128 (ix2 0 j)) 0 = _
  rw [bias_row128, Finset.sum_congr rfl (fun k _ => congrArg (· * (m ((c : Thread nD τ).loc main_arg5)) (ix2 k j)) (hagg k))]
  rfl

/-- Layer 2: aggregate, multiply, add the bias, relu. -/
theorem K2_fn (c : Dev nD) : toFn2 (N := 20000) (C := 128) (K2 m ρ c)
    = layerK relu (land (m ((c : Thread nD τ).loc main_arg1))) (src (m ((c : Thread nD τ).loc main_arg1))) (nrm (m ((c : Thread nD τ).loc main_arg1)) (m ((c : Thread nD τ).loc main_arg2))) (toFn2 (N := 20000) (C := 64) (K1 m ρ c)) (toFn2 (N := 64) (C := 128) (m ((c : Thread nD τ).loc main_arg5))) (toFn1 (C := 128) (m ((c : Thread nD τ).loc main_arg6))) := by
  funext r j
  exact K2_at m ρ c r j

/-- Layer 3 at one entry: the row of aggregates times the weight column, plus the bias entry, under relu. -/
theorem K3_at (c : Dev nD) (r : Fin 20000) (j : Fin 256) : K3 m ρ c (ix2 r j)
    = max ((∑ k : Fin 128, agg (land (m ((c : Thread nD τ).loc main_arg1))) (src (m ((c : Thread nD τ).loc main_arg1))) (nrm (m ((c : Thread nD τ).loc main_arg1)) (m ((c : Thread nD τ).loc main_arg2))) (toFn2 (N := 20000) (C := 128) (K2 m ρ c)) r k * toFn2 (N := 128) (C := 256) (m ((c : Thread nD τ).loc main_arg7)) k j) + toFn1 (C := 256) (m ((c : Thread nD τ).loc main_arg8)) j) 0 := by
  have hagg : ∀ k : Fin 128, aggK128 (W3 m ρ c (Proc.devRef .tc main_v3)) (W3 m ρ c (Proc.devRef .tc main_v6)) (W3 m ρ c (Proc.devRef .tc main_v31)) (K2 m ρ c) (ix2 r k)
      = agg (land (m ((c : Thread nD τ).loc main_arg1))) (src (m ((c : Thread nD τ).loc main_arg1))) (nrm (m ((c : Thread nD τ).loc main_arg1)) (m ((c : Thread nD τ).loc main_arg2))) (toFn2 (N := 20000) (C := 128) (K2 m ρ c)) r k := fun k => by
    rw [aggK128_apply, land_eq, src_eq, nrm_eq]
  show max ((∑ k : Fin 128, aggK128 (W3 m ρ c (Proc.devRef .tc main_v3)) (W3 m ρ c (Proc.devRef .tc main_v6)) (W3 m ρ c (Proc.devRef .tc main_v31)) (K2 m ρ c) (ix2 r k) * (m ((c : Thread nD τ).loc main_arg7)) (ix2 k j)) + shapeCast S1x256 (m ((c : Thread nD τ).loc main_arg8)) shapeCasts_S256_S1x256 (ix2 0 j)) 0 = _
  rw [bias_row256, Finset.sum_congr rfl (fun k _ => congrArg (· * (m ((c : Thread nD τ).loc main_arg7)) (ix2 k j)) (hagg k))]
  rfl

/-- Layer 3: aggregate, multiply, add the bias, relu. -/
theorem K3_fn (c : Dev nD) : toFn2 (N := 20000) (C := 256) (K3 m ρ c)
    = layerK relu (land (m ((c : Thread nD τ).loc main_arg1))) (src (m ((c : Thread nD τ).loc main_arg1))) (nrm (m ((c : Thread nD τ).loc main_arg1)) (m ((c : Thread nD τ).loc main_arg2))) (toFn2 (N := 20000) (C := 128) (K2 m ρ c)) (toFn2 (N := 128) (C := 256) (m ((c : Thread nD τ).loc main_arg7))) (toFn1 (C := 256) (m ((c : Thread nD τ).loc main_arg8))) := by
  funext r j
  exact K3_at m ρ c r j

theorem K4_fn (c : Dev nD) : toFn2 (N := 20000) (C := 64) (K4 m ρ c) = mm (toFn2 (N := 20000) (C := 256) (K3 m ρ c)) (toFn2 (N := 256) (C := 64) (m ((c : Thread nD τ).loc main_arg9))) := rfl

/-- Layer 4: multiply, aggregate, add the bias, relu. -/
theorem K5_fn (c : Dev nD) : toFn2 (N := 20000) (C := 64) (K5 m ρ c)
    = layerR relu (land (m ((c : Thread nD τ).loc main_arg1))) (src (m ((c : Thread nD τ).loc main_arg1))) (nrm (m ((c : Thread nD τ).loc main_arg1)) (m ((c : Thread nD τ).loc main_arg2))) (toFn2 (N := 20000) (C := 256) (K3 m ρ c)) (toFn2 (N := 256) (C := 64) (m ((c : Thread nD τ).loc main_arg9))) (toFn1 (C := 64) (m ((c : Thread nD τ).loc main_arg10))) := by
  funext r j
  show max (aggK64 _ _ _ (K4 m ρ c) (ix2 r j) + shapeCast S1x64 (m ((c : Thread nD τ).loc main_arg10)) shapeCasts_S64_S1x64 (ix2 0 j)) 0 = _
  rw [aggK64_apply, bias_row64, land_eq, src_eq, nrm_eq, K4_fn]; rfl

theorem K6_fn (c : Dev nD) : toFn2 (N := 20000) (C := 1) (K6 m ρ c) = mm (toFn2 (N := 20000) (C := 64) (K5 m ρ c)) (toFn2 (N := 64) (C := 1) (m ((c : Thread nD τ).loc main_arg11))) := rfl

/-- Layer 5 at one entry. -/
theorem K7_at (c : Dev nD) (r : Fin 20000) (j : Fin 1) : K7 m ρ c (ix2 r j)
    = Ideal.tanh (agg (land (m ((c : Thread nD τ).loc main_arg1))) (src (m ((c : Thread nD τ).loc main_arg1))) (nrm (m ((c : Thread nD τ).loc main_arg1)) (m ((c : Thread nD τ).loc main_arg2))) (mm (toFn2 (N := 20000) (C := 64) (K5 m ρ c)) (toFn2 (N := 64) (C := 1) (m ((c : Thread nD τ).loc main_arg11)))) r j + toFn1 (C := 1) (m ((c : Thread nD τ).loc main_arg12)) j) := by
  unfold K7
  rw [biasTanh1_apply, aggK1_apply, land_eq, src_eq, nrm_eq, K6_fn]
  refine congrArg Ideal.tanh ?_
  refine congrArg₂ (· + ·) rfl ?_
  exact bias_row1 _ j

/-- Layer 5: multiply, aggregate, add the bias, tanh. -/
theorem K7_fn (c : Dev nD) : toFn2 (N := 20000) (C := 1) (K7 m ρ c)
    = layerR Ideal.tanh (land (m ((c : Thread nD τ).loc main_arg1))) (src (m ((c : Thread nD τ).loc main_arg1))) (nrm (m ((c : Thread nD τ).loc main_arg1)) (m ((c : Thread nD τ).loc main_arg2))) (toFn2 (N := 20000) (C := 64) (K5 m ρ c)) (toFn2 (N := 64) (C := 1) (m ((c : Thread nD τ).loc main_arg11))) (toFn1 (C := 1) (m ((c : Thread nD τ).loc main_arg12))) := by
  funext r j
  rw [toFn2_apply]
  unfold layerR
  exact K7_at m ρ c r j

/-- THE KERNEL'S NETWORK: layers 1, 4, 5 multiply first, layers 2, 3 aggregate first. -/
theorem kernel_net (c : Dev nD) : toFn2 (N := 20000) (C := 1) (K7 m ρ c)
    = layerR Ideal.tanh (land (m ((c : Thread nD τ).loc main_arg1))) (src (m ((c : Thread nD τ).loc main_arg1))) (nrm (m ((c : Thread nD τ).loc main_arg1)) (m ((c : Thread nD τ).loc main_arg2)))
        (layerR relu (land (m ((c : Thread nD τ).loc main_arg1))) (src (m ((c : Thread nD τ).loc main_arg1))) (nrm (m ((c : Thread nD τ).loc main_arg1)) (m ((c : Thread nD τ).loc main_arg2)))
          (layerK relu (land (m ((c : Thread nD τ).loc main_arg1))) (src (m ((c : Thread nD τ).loc main_arg1))) (nrm (m ((c : Thread nD τ).loc main_arg1)) (m ((c : Thread nD τ).loc main_arg2)))
            (layerK relu (land (m ((c : Thread nD τ).loc main_arg1))) (src (m ((c : Thread nD τ).loc main_arg1))) (nrm (m ((c : Thread nD τ).loc main_arg1)) (m ((c : Thread nD τ).loc main_arg2)))
              (layerR relu (land (m ((c : Thread nD τ).loc main_arg1))) (src (m ((c : Thread nD τ).loc main_arg1))) (nrm (m ((c : Thread nD τ).loc main_arg1)) (m ((c : Thread nD τ).loc main_arg2))) (toFn2 (N := 20000) (C := 128) (m ((c : Thread nD τ).loc main_arg0))) (toFn2 (N := 128) (C := 64) (m ((c : Thread nD τ).loc main_arg3))) (toFn1 (C := 64) (m ((c : Thread nD τ).loc main_arg4))))
              (toFn2 (N := 64) (C := 128) (m ((c : Thread nD τ).loc main_arg5))) (toFn1 (C := 128) (m ((c : Thread nD τ).loc main_arg6))))
            (toFn2 (N := 128) (C := 256) (m ((c : Thread nD τ).loc main_arg7))) (toFn1 (C := 256) (m ((c : Thread nD τ).loc main_arg8))))
          (toFn2 (N := 256) (C := 64) (m ((c : Thread nD τ).loc main_arg9))) (toFn1 (C := 64) (m ((c : Thread nD τ).loc main_arg10))))
        (toFn2 (N := 64) (C := 1) (m ((c : Thread nD τ).loc main_arg11))) (toFn1 (C := 1) (m ((c : Thread nD τ).loc main_arg12))) := by
  rw [K7_fn, K5_fn, K3_fn, K2_fn, K1_fn]

end Cert.KernelNet

end
-- ==== Proof.RefLayers12.lean ====
import proofs.«154560_j68659347193894_2_alg».proof.Proof.NetDefs
import proofs.«154560_j68659347193894_2_alg».proof.Proof.LibAggHost
import Idealize.ShloMosaic.Lib.ValueIdx
import Idealize.ShloMosaic.PureOps.Ideal.Laws

/-!
# The reference's first two layers as functions of row and column

Each layer of the reference multiplies its input by a weight matrix, sums over the edges landing on a node the
source node's row scaled by the edge's normalisation, adds the bias to every row and rectifies. Read at a row and
a column, the layer's result is `layerR relu` of the graph data, the input, the weight matrix and the bias. The
input of the second layer is kept as the first layer's result, so the two statements are independent.
-/

noncomputable section

open scoped BigOperators

namespace Cert.RefLayers12

open AggLaw RowOps Cert.Net Cert.ReferenceIdeal Cert.ReferenceIdeal.Gen Cert.ReferenceIdeal.Read Idealize.ShloMosaic
  Idealize.ShloMosaic.ValueIdx

/-- The second layer gathers at the same source column as the first: both are the same term of the edge list. -/
theorem v56_eq (x1 : (⟨S2x320000, .i32⟩ : BufTy).Contents (Elt Ideal)) :
    val_main_v56 (F := Ideal) x1 = val_main_v38 (F := Ideal) x1 := rfl

/-- The second layer scatters at the same target column as the first. -/
theorem v62_eq (x1 : (⟨S2x320000, .i32⟩ : BufTy).Contents (Elt Ideal)) :
    val_main_v62 (F := Ideal) x1 = val_main_v44 (F := Ideal) x1 := rfl

/-- The first layer's aggregate at `(r, j)`: the sum, over the edges landing on row `r`, of the product
    `x0 * W1` at the edge's source row and column `j`, times the edge's normalisation. The scatter-add into the
    zero table of the gathered, scaled rows is read by the aggregation lemma; the product's entry is the sum over
    the contracted axis. -/
theorem v45_apply (x0 : (⟨S20000x128, .f32⟩ : BufTy).Contents (Elt Ideal))
    (x1 : (⟨S2x320000, .i32⟩ : BufTy).Contents (Elt Ideal)) (x2 : (⟨S320000, .f32⟩ : BufTy).Contents (Elt Ideal))
    (x3 : (⟨S128x64, .f32⟩ : BufTy).Contents (Elt Ideal)) (r : Fin 20000) (j : Fin 64) :
    val_main_v45 (F := Ideal) x0 x1 x2 x3 (ix2 r j)
      = agg (land x1) (src x1) (nrm x1 x2) (mm (toFn2 x0) (toFn2 x3)) r j := by
  unfold val_main_v45 val_main_v43 val_main_cst_8 val_main_v42 val_main_v39 val_main_v41 val_main_v40
  refine (aggHost_apply (N := 20000) (E := 340000) (C := 64) (by decide)
    gather_S20000x64_S340000x1_S340000x64_1_0_n_n_0_1_164_wf scatter_S20000x64_S340000x1_S340000x64_1_0_0_1_wf
    bcast_S_S20000x64 bcast_S340000_S340000x1_0 bcast_S340000x1_S340000x64_0_1
    (val_main_v32 (F := Ideal) x0 x3) (val_main_v38 (F := Ideal) x1) (val_main_v44 (F := Ideal) x1)
    (val_main_v31 (F := Ideal) x1 x2) r j).trans ?_
  unfold agg land src nrm
  refine Finset.sum_congr rfl fun e _ => ?_
  refine congrArg (· * val_main_v31 (F := Ideal) x1 x2 (ix1 e)) ?_
  refine (val_main_v32_apply x0 x3 _).trans ?_
  unfold mm toFn2
  refine Finset.sum_congr rfl fun k _ => ?_
  have el : lidx_main_v32 (ix2 (clampRow (N := 20000) (by decide) (val_main_v38 (F := Ideal) x1) e) j) k
      = ix2 (clampRow (N := 20000) (by decide) (val_main_v38 (F := Ideal) x1) e) k :=
    funext fun a => Fin.ext (by match a with | ⟨0, _⟩ => rfl | ⟨1, _⟩ => rfl)
  have er : ridx_main_v32 (ix2 (clampRow (N := 20000) (by decide) (val_main_v38 (F := Ideal) x1) e) j) k
      = ix2 k j :=
    funext fun a => Fin.ext (by match a with | ⟨0, _⟩ => rfl | ⟨1, _⟩ => rfl)
  rw [el, er]

/-- The first layer's bias, broadcast to every row, reads at `(r, j)` the bias's `j`-th entry. -/
theorem v47_apply (x4 : (⟨S64, .f32⟩ : BufTy).Contents (Elt Ideal)) (r : Fin 20000) (j : Fin 64) :
    val_main_v47 (F := Ideal) x4 (ix2 r j) = toFn1 x4 j := by
  refine (val_main_v47_apply x4 _).trans ?_
  refine (val_main_v46_apply x4 _).trans ?_
  unfold toFn1
  exact congrArg x4 (funext fun a => Fin.ext (by match a with | ⟨0, _⟩ => rfl))

/-- The rectifier's table of zeros reads zero everywhere. -/
theorem call1_v0_apply (i : S20000x64.Idx) : val_main_call1_v0 (F := Ideal) i = 0 := by
  refine (val_main_call1_v0_apply _).trans ?_
  exact Ideal.ofBits_zero_f32

/-- THE FIRST LAYER: the rectified sum of the aggregate of `x0 * W1` and the bias. -/
theorem layer1 (x0 : (⟨S20000x128, .f32⟩ : BufTy).Contents (Elt Ideal))
    (x1 : (⟨S2x320000, .i32⟩ : BufTy).Contents (Elt Ideal)) (x2 : (⟨S320000, .f32⟩ : BufTy).Contents (Elt Ideal))
    (x3 : (⟨S128x64, .f32⟩ : BufTy).Contents (Elt Ideal)) (x4 : (⟨S64, .f32⟩ : BufTy).Contents (Elt Ideal)) :
    toFn2 (val_main_v49 (F := Ideal) x0 x1 x2 x3 x4)
      = layerR relu (land x1) (src x1) (nrm x1 x2) (toFn2 x0) (toFn2 x3) (toFn1 x4) := by
  funext r j
  unfold toFn2 layerR relu
  refine (maximumf_apply _ _ _).trans ?_
  rw [call1_v0_apply]
  refine congrArg (max · 0) ?_
  refine (addf_apply _ _ _).trans ?_
  rw [v45_apply, v47_apply]
  rfl

/-- The second layer's aggregate at `(r, j)`: the sum, over the edges landing on row `r`, of the product of the
    first layer's result and `W2` at the edge's source row and column `j`, times the edge's normalisation. Its
    source and target columns are the first layer's. -/
theorem v63_apply (x0 : (⟨S20000x128, .f32⟩ : BufTy).Contents (Elt Ideal))
    (x1 : (⟨S2x320000, .i32⟩ : BufTy).Contents (Elt Ideal)) (x2 : (⟨S320000, .f32⟩ : BufTy).Contents (Elt Ideal))
    (x3 : (⟨S128x64, .f32⟩ : BufTy).Contents (Elt Ideal)) (x4 : (⟨S64, .f32⟩ : BufTy).Contents (Elt Ideal))
    (x5 : (⟨S64x128, .f32⟩ : BufTy).Contents (Elt Ideal)) (r : Fin 20000) (j : Fin 128) :
    val_main_v63 (F := Ideal) x0 x1 x2 x3 x4 x5 (ix2 r j)
      = agg (land x1) (src x1) (nrm x1 x2)
          (mm (toFn2 (val_main_v49 (F := Ideal) x0 x1 x2 x3 x4)) (toFn2 x5)) r j := by
  unfold val_main_v63 val_main_v61 val_main_cst_11 val_main_v60 val_main_v57 val_main_v59 val_main_v58
  refine (aggHost_apply (N := 20000) (E := 340000) (C := 128) (by decide)
    gather_S20000x128_S340000x1_S340000x128_1_0_n_n_0_1_1128_wf scatter_S20000x128_S340000x1_S340000x128_1_0_0_1_wf
    bcast_S_S20000x128 bcast_S340000_S340000x1_0 bcast_S340000x1_S340000x128_0_1
    (val_main_v50 (F := Ideal) x0 x1 x2 x3 x4 x5) (val_main_v38 (F := Ideal) x1) (val_main_v44 (F := Ideal) x1)
    (val_main_v31 (F := Ideal) x1 x2) r j).trans ?_
  unfold agg land src nrm
  refine Finset.sum_congr rfl fun e _ => ?_
  refine congrArg (· * val_main_v31 (F := Ideal) x1 x2 (ix1 e)) ?_
  refine (val_main_v50_apply x0 x1 x2 x3 x4 x5 _).trans ?_
  unfold mm toFn2
  refine Finset.sum_congr rfl fun k _ => ?_
  have el : lidx_main_v50 (ix2 (clampRow (N := 20000) (by decide) (val_main_v38 (F := Ideal) x1) e) j) k
      = ix2 (clampRow (N := 20000) (by decide) (val_main_v38 (F := Ideal) x1) e) k :=
    funext fun a => Fin.ext (by match a with | ⟨0, _⟩ => rfl | ⟨1, _⟩ => rfl)
  have er : ridx_main_v50 (ix2 (clampRow (N := 20000) (by decide) (val_main_v38 (F := Ideal) x1) e) j) k
      = ix2 k j :=
    funext fun a => Fin.ext (by match a with | ⟨0, _⟩ => rfl | ⟨1, _⟩ => rfl)
  rw [el, er]

/-- The second layer's bias, broadcast to every row, reads at `(r, j)` the bias's `j`-th entry. -/
theorem v65_apply (x6 : (⟨S128, .f32⟩ : BufTy).Contents (Elt Ideal)) (r : Fin 20000) (j : Fin 128) :
    val_main_v65 (F := Ideal) x6 (ix2 r j) = toFn1 x6 j := by
  refine (val_main_v65_apply x6 _).trans ?_
  refine (val_main_v64_apply x6 _).trans ?_
  unfold toFn1
  exact congrArg x6 (funext fun a => Fin.ext (by match a with | ⟨0, _⟩ => rfl))

/-- The second rectifier's table of zeros reads zero everywhere. -/
theorem call2_v0_apply (i : S20000x128.Idx) : val_main_call2_v0 (F := Ideal) i = 0 := by
  refine (val_main_call2_v0_apply _).trans ?_
  exact Ideal.ofBits_zero_f32

/-- THE SECOND LAYER: the rectified sum of the aggregate of (the first layer's result) `* W2` and the bias. -/
theorem layer2 (x0 : (⟨S20000x128, .f32⟩ : BufTy).Contents (Elt Ideal))
    (x1 : (⟨S2x320000, .i32⟩ : BufTy).Contents (Elt Ideal)) (x2 : (⟨S320000, .f32⟩ : BufTy).Contents (Elt Ideal))
    (x3 : (⟨S128x64, .f32⟩ : BufTy).Contents (Elt Ideal)) (x4 : (⟨S64, .f32⟩ : BufTy).Contents (Elt Ideal))
    (x5 : (⟨S64x128, .f32⟩ : BufTy).Contents (Elt Ideal)) (x6 : (⟨S128, .f32⟩ : BufTy).Contents (Elt Ideal)) :
    toFn2 (val_main_v67 (F := Ideal) x0 x1 x2 x3 x4 x5 x6)
      = layerR relu (land x1) (src x1) (nrm x1 x2) (toFn2 (val_main_v49 (F := Ideal) x0 x1 x2 x3 x4))
          (toFn2 x5) (toFn1 x6) := by
  funext r j
  unfold layerR relu
  show val_main_v67 (F := Ideal) x0 x1 x2 x3 x4 x5 x6 (ix2 r j) = _
  refine (maximumf_apply _ _ _).trans ?_
  rw [call2_v0_apply]
  refine congrArg (max · 0) ?_
  refine (addf_apply _ _ _).trans ?_
  rw [v63_apply, v65_apply]

end Cert.RefLayers12

end
-- ==== Proof.RefLayers34.lean ====
import proofs.«154560_j68659347193894_2_alg».proof.Proof.NetDefs
import proofs.«154560_j68659347193894_2_alg».proof.Proof.LibAggHost
import Idealize.ShloMosaic.Lib.ValueIdx
import Idealize.ShloMosaic.PureOps.Ideal.Laws

/-!
# Layers three and four of the reference network, read as functions of row and column

Each of these layers multiplies its input by a weight matrix, sums over every node's incoming edges the
source rows of the product scaled by the edge's normalisation, adds the bias to every row and applies
the rectifier. The input of a layer is left as the previous layer's output, unopened.
-/

noncomputable section

open scoped BigOperators

namespace Cert.RefLayers34

open AggLaw RowOps Cert.Net Cert.ReferenceIdeal Cert.ReferenceIdeal.Read Idealize.ShloMosaic Idealize.ShloMosaic.ValueIdx

variable (x0 : (⟨S20000x128, .f32⟩ : BufTy).Contents (Elt Ideal)) (x1 : (⟨S2x320000, .i32⟩ : BufTy).Contents (Elt Ideal))
  (x2 : (⟨S320000, .f32⟩ : BufTy).Contents (Elt Ideal)) (x3 : (⟨S128x64, .f32⟩ : BufTy).Contents (Elt Ideal))
  (x4 : (⟨S64, .f32⟩ : BufTy).Contents (Elt Ideal)) (x5 : (⟨S64x128, .f32⟩ : BufTy).Contents (Elt Ideal))
  (x6 : (⟨S128, .f32⟩ : BufTy).Contents (Elt Ideal)) (x7 : (⟨S128x256, .f32⟩ : BufTy).Contents (Elt Ideal))
  (x8 : (⟨S256, .f32⟩ : BufTy).Contents (Elt Ideal)) (x9 : (⟨S256x64, .f32⟩ : BufTy).Contents (Elt Ideal))
  (x10 : (⟨S64, .f32⟩ : BufTy).Contents (Elt Ideal))

/-! ## Layer three -/

/-- The third layer reads its source rows at the same column of the edge list as the first. -/
theorem srcCol3 : val_main_v74 (F := Ideal) x1 = val_main_v38 (F := Ideal) x1 := rfl
/-- The third layer lands its updates at the same column of the edge list as the first. -/
theorem dstCol3 : val_main_v80 (F := Ideal) x1 = val_main_v44 (F := Ideal) x1 := rfl

/-- The product stage of layer three is the matrix product of the previous output with the weights:
    its entry is the sum over the contracted axis, read at row `r`, position `k` on the left and
    position `k`, column `j` on the right. -/
theorem dot3 :
    toFn2 (N := 20000) (C := 256) (val_main_v68 (F := Ideal) x0 x1 x2 x3 x4 x5 x6 x7)
      = mm (toFn2 (N := 20000) (C := 128) (val_main_v67 (F := Ideal) x0 x1 x2 x3 x4 x5 x6)) (toFn2 (N := 128) (C := 256) x7) := by
  funext r j
  unfold toFn2 mm
  refine (val_main_v68_apply x0 x1 x2 x3 x4 x5 x6 x7 (ix2 r j)).trans ?_
  refine Finset.sum_congr rfl fun k _ => ?_
  have el : lidx_main_v68 (ix2 r j) k = ix2 r k :=
    funext fun a => Fin.ext (by match a with | ⟨0, _⟩ => rfl | ⟨1, _⟩ => rfl)
  have er : ridx_main_v68 (ix2 r j) k = ix2 k j :=
    funext fun a => Fin.ext (by match a with | ⟨0, _⟩ => rfl | ⟨1, _⟩ => rfl)
  rw [el, er]

/-- The scatter stage of layer three at `(r, j)` is the sum, over the edges landing on row `r`, of the
    product's source row at column `j` times the edge's normalisation: the stage is a scatter-add, into
    a zero table, of the gathered rows each multiplied by the broadcast normalisation. -/
theorem agg3 (r : Fin 20000) (j : Fin 256) :
    val_main_v81 (F := Ideal) x0 x1 x2 x3 x4 x5 x6 x7 (ix2 r j)
      = agg (land x1) (src x1) (nrm x1 x2) (toFn2 (N := 20000) (C := 256) (val_main_v68 (F := Ideal) x0 x1 x2 x3 x4 x5 x6 x7)) r j := by
  unfold val_main_v81 val_main_v78 val_main_v75 val_main_v77 val_main_v76 val_main_v79 val_main_cst_14
  refine (aggHost_apply (N := 20000) (E := 340000) (C := 256) (by decide) _ _ _ _ _
    (val_main_v68 (F := Ideal) x0 x1 x2 x3 x4 x5 x6 x7) (val_main_v74 (F := Ideal) x1) (val_main_v80 (F := Ideal) x1)
    (val_main_v31 (F := Ideal) x1 x2) r j).trans ?_
  rfl

/-- LAYER THREE: the rectifier of the aggregated product plus the bias. The rectifier stage is the
    maximum with a broadcast zero; the bias stage reads the bias vector at the column. -/
theorem layer3 :
    toFn2 (N := 20000) (C := 256) (val_main_v85 (F := Ideal) x0 x1 x2 x3 x4 x5 x6 x7 x8)
      = layerR relu (land x1) (src x1) (nrm x1 x2) (toFn2 (N := 20000) (C := 128) (val_main_v67 (F := Ideal) x0 x1 x2 x3 x4 x5 x6))
          (toFn2 (N := 128) (C := 256) x7) (toFn1 (C := 256) x8) := by
  funext r j
  unfold layerR
  rw [← dot3 x0 x1 x2 x3 x4 x5 x6 x7, ← agg3 x0 x1 x2 x3 x4 x5 x6 x7 r j]
  unfold toFn2 toFn1 relu
  refine (val_main_v85_apply x0 x1 x2 x3 x4 x5 x6 x7 x8 (ix2 r j)).trans ?_
  rw [val_main_v84_apply, val_main_call3_v0_apply, val_main_call3_cst_apply, val_main_v83_apply, val_main_v82_apply]
  have eb : idx_main_v82 (idx_main_v83 (ix2 r j)) = ix1 j :=
    funext fun a => Fin.ext (by match a with | ⟨0, _⟩ => rfl)
  rw [eb]
  show max (_ + _) (Ideal.ofBits .f32 0x00000000#32) = _
  rw [Ideal.ofBits_zero_f32]

/-! ## Layer four -/

/-- The fourth layer reads its source rows at the same column of the edge list as the first. -/
theorem srcCol4 : val_main_v92 (F := Ideal) x1 = val_main_v38 (F := Ideal) x1 := rfl
/-- The fourth layer lands its updates at the same column of the edge list as the first. -/
theorem dstCol4 : val_main_v98 (F := Ideal) x1 = val_main_v44 (F := Ideal) x1 := rfl

/-- The product stage of layer four is the matrix product of the previous output with the weights:
    its entry is the sum over the contracted axis, read at row `r`, position `k` on the left and
    position `k`, column `j` on the right. -/
theorem dot4 :
    toFn2 (N := 20000) (C := 64) (val_main_v86 (F := Ideal) x0 x1 x2 x3 x4 x5 x6 x7 x8 x9)
      = mm (toFn2 (N := 20000) (C := 256) (val_main_v85 (F := Ideal) x0 x1 x2 x3 x4 x5 x6 x7 x8)) (toFn2 (N := 256) (C := 64) x9) := by
  funext r j
  unfold toFn2 mm
  refine (val_main_v86_apply x0 x1 x2 x3 x4 x5 x6 x7 x8 x9 (ix2 r j)).trans ?_
  refine Finset.sum_congr rfl fun k _ => ?_
  have el : lidx_main_v86 (ix2 r j) k = ix2 r k :=
    funext fun a => Fin.ext (by match a with | ⟨0, _⟩ => rfl | ⟨1, _⟩ => rfl)
  have er : ridx_main_v86 (ix2 r j) k = ix2 k j :=
    funext fun a => Fin.ext (by match a with | ⟨0, _⟩ => rfl | ⟨1, _⟩ => rfl)
  rw [el, er]

/-- The scatter stage of layer four at `(r, j)` is the sum, over the edges landing on row `r`, of the
    product's source row at column `j` times the edge's normalisation: the stage is a scatter-add, into
    a zero table, of the gathered rows each multiplied by the broadcast normalisation. -/
theorem agg4 (r : Fin 20000) (j : Fin 64) :
    val_main_v99 (F := Ideal) x0 x1 x2 x3 x4 x5 x6 x7 x8 x9 (ix2 r j)
      = agg (land x1) (src x1) (nrm x1 x2) (toFn2 (N := 20000) (C := 64) (val_main_v86 (F := Ideal) x0 x1 x2 x3 x4 x5 x6 x7 x8 x9)) r j := by
  unfold val_main_v99 val_main_v96 val_main_v93 val_main_v95 val_main_v94 val_main_v97 val_main_cst_17
  refine (aggHost_apply (N := 20000) (E := 340000) (C := 64) (by decide) _ _ _ _ _
    (val_main_v86 (F := Ideal) x0 x1 x2 x3 x4 x5 x6 x7 x8 x9) (val_main_v92 (F := Ideal) x1) (val_main_v98 (F := Ideal) x1)
    (val_main_v31 (F := Ideal) x1 x2) r j).trans ?_
  rfl

/-- LAYER FOUR: the rectifier of the aggregated product plus the bias. The rectifier stage is the
    maximum with a broadcast zero; the bias stage reads the bias vector at the column. -/
theorem layer4 :
    toFn2 (N := 20000) (C := 64) (val_main_v103 (F := Ideal) x0 x1 x2 x3 x4 x5 x6 x7 x8 x9 x10)
      = layerR relu (land x1) (src x1) (nrm x1 x2) (toFn2 (N := 20000) (C := 256) (val_main_v85 (F := Ideal) x0 x1 x2 x3 x4 x5 x6 x7 x8))
          (toFn2 (N := 256) (C := 64) x9) (toFn1 (C := 64) x10) := by
  funext r j
  unfold layerR
  rw [← dot4 x0 x1 x2 x3 x4 x5 x6 x7 x8 x9, ← agg4 x0 x1 x2 x3 x4 x5 x6 x7 x8 x9 r j]
  unfold toFn2 toFn1 relu
  refine (val_main_v103_apply x0 x1 x2 x3 x4 x5 x6 x7 x8 x9 x10 (ix2 r j)).trans ?_
  rw [val_main_v102_apply, val_main_call4_v0_apply, val_main_call4_cst_apply, val_main_v101_apply, val_main_v100_apply]
  have eb : idx_main_v100 (idx_main_v101 (ix2 r j)) = ix1 j :=
    funext fun a => Fin.ext (by match a with | ⟨0, _⟩ => rfl)
  rw [eb]
  show max (_ + _) (Ideal.ofBits .f32 0x00000000#32) = _
  rw [Ideal.ofBits_zero_f32]

end Cert.RefLayers34

end
-- ==== Proof.RefLayer5.lean ====
/-
  The fifth layer of the reference network, read as a function of row and column.

  The layer multiplies the previous layer's output [20000, 64] by the weight column [64, 1], gathers for every
  edge the source row of the product, multiplies it by the edge's normalisation, adds it into the edge's target
  row of a zero column, adds the bias and applies the hyperbolic tangent. Entry (r, j) is therefore
  tanh (∑ over the edges landing on r of (∑ k, h (source row, k) * W (k, j)) * normalisation + b j).
-/
import proofs.«154560_j68659347193894_2_alg».proof.Proof.NetDefs
import proofs.«154560_j68659347193894_2_alg».proof.Proof.LibAggHost
import Idealize.ShloMosaic.Lib.ValueIdx
import Idealize.ShloMosaic.PureOps.Ideal.Laws

noncomputable section

open scoped BigOperators

namespace Cert.RefLayer5

open AggLaw RowOps Cert.Net Cert.ReferenceIdeal Cert.ReferenceIdeal.Gen Cert.ReferenceIdeal.Read Idealize.ShloMosaic Idealize.ShloMosaic.ValueIdx

/-- This layer's column of source rows is the first layer's: both are the same select of the same edge list. -/
theorem srcCol_eq (x1 : (⟨S2x320000, .i32⟩ : BufTy).Contents (Elt Ideal)) :
    val_main_v110 (F := Ideal) x1 = val_main_v38 (F := Ideal) x1 := rfl

/-- This layer's column of target rows is the first layer's: both broadcast the same stage of the edge list. -/
theorem dstCol_eq (x1 : (⟨S2x320000, .i32⟩ : BufTy).Contents (Elt Ideal)) :
    val_main_v115 (F := Ideal) x1 = val_main_v44 (F := Ideal) x1 := rfl

/-- The program's one-column gather is the gather of whole rows of a [20000, 1] table at 340000 row numbers. -/
theorem gatherRec_eq : gather_S20000x1_S340000x1_S340000x1_1_0_n_n_0_1_11
    = rowGather 20000 340000 1 gather_S20000x1_S340000x1_S340000x1_1_0_n_n_0_1_11_wf := rfl

/-- The program's one-column scatter is the scatter of whole rows into a [20000, 1] table from 340000 updates. -/
theorem scatterRec_eq : scatter_S20000x1_S340000x1_S340000x1_1_0_0_1
    = rowScatter 20000 340000 1 scatter_S20000x1_S340000x1_S340000x1_1_0_0_1_wf := rfl

/-- The aggregation stage at (r, k): the sum, over the edges landing on row r, of the product stage at the edge's
    source row times the edge's normalisation. It is the one-column host aggregation read at an index, with the
    graph data spelled through the first layer's columns. -/
theorem agg_stage_apply (x0 : (⟨S20000x128, .f32⟩ : BufTy).Contents (Elt Ideal)) (x1 : (⟨S2x320000, .i32⟩ : BufTy).Contents (Elt Ideal)) (x2 : (⟨S320000, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (x9 : (⟨S256x64, .f32⟩ : BufTy).Contents (Elt Ideal)) (x10 : (⟨S64, .f32⟩ : BufTy).Contents (Elt Ideal)) (x11 : (⟨S64x1, .f32⟩ : BufTy).Contents (Elt Ideal)) (r : Fin 20000) (k : Fin 1) :
    val_main_v116 (F := Ideal) x0 x1 x2 x3 x4 x5 x6 x7 x8 x9 x10 x11 (ix2 r k)
      = ∑ e ∈ Finset.univ.filter (fun e : Fin 340000 => land x1 e = some r),
          val_main_v104 (F := Ideal) x0 x1 x2 x3 x4 x5 x6 x7 x8 x9 x10 x11 (ix2 (src x1 e) k) * nrm x1 x2 e := by
  unfold val_main_v116 val_main_v113 val_main_v111 val_main_v112 val_main_v114 val_main_cst_20
  generalize val_main_v104 (F := Ideal) x0 x1 x2 x3 x4 x5 x6 x7 x8 x9 x10 x11 = h
  exact aggHost1_apply (N := 20000) (E := 340000) (by decide)
    gather_S20000x1_S340000x1_S340000x1_1_0_n_n_0_1_11_wf scatter_S20000x1_S340000x1_S340000x1_1_0_0_1_wf
    bcast_S_S20000x1 bcast_S340000_S340000x1_0 h (val_main_v110 (F := Ideal) x1) (val_main_v115 (F := Ideal) x1)
    (val_main_v31 (F := Ideal) x1 x2) r k

/-- The product stage at (r, j): row r of the previous layer's output times column j of the weights. -/
theorem dot_stage_apply (x0 : (⟨S20000x128, .f32⟩ : BufTy).Contents (Elt Ideal)) (x1 : (⟨S2x320000, .i32⟩ : BufTy).Contents (Elt Ideal)) (x2 : (⟨S320000, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (x9 : (⟨S256x64, .f32⟩ : BufTy).Contents (Elt Ideal)) (x10 : (⟨S64, .f32⟩ : BufTy).Contents (Elt Ideal)) (x11 : (⟨S64x1, .f32⟩ : BufTy).Contents (Elt Ideal)) (r : Fin 20000) (j : Fin 1) :
    val_main_v104 (F := Ideal) x0 x1 x2 x3 x4 x5 x6 x7 x8 x9 x10 x11 (ix2 r j)
      = mm (toFn2 (val_main_v103 (F := Ideal) x0 x1 x2 x3 x4 x5 x6 x7 x8 x9 x10)) (toFn2 x11) r j := by
  refine (val_main_v104_apply x0 x1 x2 x3 x4 x5 x6 x7 x8 x9 x10 x11 (ix2 r j)).trans ?_
  unfold mm toFn2
  refine Finset.sum_congr rfl fun k _ => ?_
  have el : lidx_main_v104 (ix2 r j) k = ix2 r k :=
    funext fun a => Fin.ext (by match a with | ⟨0, _⟩ => rfl | ⟨1, _⟩ => rfl)
  have er : ridx_main_v104 (ix2 r j) k = ix2 k j :=
    funext fun a => Fin.ext (by match a with | ⟨0, _⟩ => rfl | ⟨1, _⟩ => rfl)
  rw [el, er]

/-- The bias stage at (r, j): the bias vector's only entry. -/
theorem bias_stage_apply (x12 : (⟨S1, .f32⟩ : BufTy).Contents (Elt Ideal)) (r : Fin 20000) (j : Fin 1) :
    val_main_v118 (F := Ideal) x12 (ix2 r j) = toFn1 x12 j := by
  refine (val_main_v118_apply x12 (ix2 r j)).trans ?_
  refine (val_main_v117_apply x12 _).trans ?_
  unfold toFn1
  refine congrArg x12 (funext fun a => Fin.ext ?_)
  match a with
  | ⟨0, _⟩ =>
    show (0 : Nat) = j.val
    have := j.isLt
    omega

/-- THE FIFTH LAYER: the result, as a function of row and column, is the layer "multiply by the weights, aggregate
    over the edges, add the bias, apply tanh" of the fourth layer's output. -/
theorem layer5 (x0 : (⟨S20000x128, .f32⟩ : BufTy).Contents (Elt Ideal)) (x1 : (⟨S2x320000, .i32⟩ : BufTy).Contents (Elt Ideal)) (x2 : (⟨S320000, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (x9 : (⟨S256x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal)) :
    toFn2 (val_main_v120 (F := Ideal) x0 x1 x2 x3 x4 x5 x6 x7 x8 x9 x10 x11 x12)
      = layerR Ideal.tanh (land x1) (src x1) (nrm x1 x2) (toFn2 (val_main_v103 (F := Ideal) x0 x1 x2 x3 x4 x5 x6 x7 x8 x9 x10))
          (toFn2 x11) (toFn1 x12) := by
  funext r j
  unfold layerR
  refine (val_main_v120_apply x0 x1 x2 x3 x4 x5 x6 x7 x8 x9 x10 x11 x12 (ix2 r j)).trans ?_
  refine (Ideal.hostUnary_tanh_def _).trans ?_
  refine congrArg Ideal.tanh ?_
  refine (val_main_v119_apply x0 x1 x2 x3 x4 x5 x6 x7 x8 x9 x10 x11 x12 (ix2 r j)).trans ?_
  refine (Ideal.addf_def _ _).trans ?_
  rw [agg_stage_apply, bias_stage_apply]
  unfold agg
  refine congrArg (fun t => t + toFn1 x12 j) ?_
  refine Finset.sum_congr rfl fun e _ => ?_
  rw [dot_stage_apply]

end Cert.RefLayer5

end
-- ==== Proof.FiniteInputs.lean ====
import proofs.«154560_j68659347193894_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- Every entry of an array of extended reals is a real number. -/
def IsReal {ι : Type*} (f : ι → EReal) : Prop := ∀ i, ∃ r : ℝ, f i = (r : EReal)

/-- The f32 word `0x7F800000` denotes `+∞`. -/
theorem inf_word : Ideal.ofBits .f32 0x7F800000#32 = (⊤ : EReal) := by
  simp [Ideal.ofBits, Ideal.ieee]

/-- An extended real whose absolute value `max x (-x)` is below `+∞` is a real number:
    at `⊤` the maximum is `⊤`, at `⊥` it is `-⊥ = ⊤`. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

instance : Subsingleton S_.Idx := ⟨fun a b => funext fun d => d.elim0⟩

/-- If the all-reduce by `and` of the bits `|x i| < +∞` over an array of any shape is 1,
    every bit is 1, so every entry of `x` is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf x) (broadcastInDim s ![] hb (constant (F := Ideal) S_ .f32 0x7F800000#32)))
          init hr hu ValueIdx.ix0 = 1#1) : IsReal x := by
  intro i
  have hi := Host.reduce_andi_all _ init hr hu ValueIdx.ix0 e i
  exact real_of_abs_lt_inf (x i) hi

/-- The printed predicate is the conjunction, over the twelve float inputs, of "all `|x i| < +∞`";
    when it is the bit 1, each conjunct is 1, and each input is an array of real numbers. -/
theorem real_inputs (a0 : FVec Ideal S20000x128 .f32) (a1 : IVec S2x320000 32) (a2 : FVec Ideal S320000 .f32)
    (a3 : FVec Ideal S128x64 .f32) (a4 : FVec Ideal S64 .f32) (a5 : FVec Ideal S64x128 .f32)
    (a6 : FVec Ideal S128 .f32) (a7 : FVec Ideal S128x256 .f32) (a8 : FVec Ideal S256 .f32)
    (a9 : FVec Ideal S256x64 .f32) (a10 : FVec Ideal S64 .f32) (a11 : FVec Ideal S64x1 .f32)
    (a12 : FVec Ideal S1 .f32)
    (h : Cert.Pre_finite_inputs.fn (F := Ideal) a0 a1 a2 a3 a4 a5 a6 a7 a8 a9 a10 a11 a12 = (fun _ => 1#1)) :
    IsReal a0 ∧ IsReal a2 ∧ IsReal a3 ∧ IsReal a4 ∧ IsReal a5 ∧ IsReal a6 ∧ IsReal a7 ∧ IsReal a8 ∧
      IsReal a9 ∧ IsReal a10 ∧ IsReal a11 ∧ IsReal a12 := by
  have h0 := congrFun h ValueIdx.ix0
  dsimp only [Cert.Pre_finite_inputs.fn, fn_part1, fn_part2, fn_part3, andi] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isReal_of_all a0 _ _ _ _ e0, isReal_of_all a2 _ _ _ _ e2, isReal_of_all a3 _ _ _ _ e3,
    isReal_of_all a4 _ _ _ _ e4, isReal_of_all a5 _ _ _ _ e5, isReal_of_all a6 _ _ _ _ e6,
    isReal_of_all a7 _ _ _ _ e7, isReal_of_all a8 _ _ _ _ e8, isReal_of_all a9 _ _ _ _ e9,
    isReal_of_all a10 _ _ _ _ e10, isReal_of_all a11 _ _ _ _ e11, isReal_of_all a12 _ _ _ _ e12⟩

end Cert.FiniteInputs

end
-- ==== Proof.NormReal.lean ====
import proofs.«154560_j68659347193894_2_alg».proof.Proof.Gen.ReferenceIdeal.Read
import Idealize.ShloMosaic.Lib.ValueIdx
import Idealize.ShloMosaic.PureOps.Ideal

/-!
# The symmetric edge normalisation is a real number on every edge

For a graph with edge weights `w` (one `1` appended per self loop), degrees `deg` and
`dinv i = (deg i)^(-1/2)` where `deg i > 0` and `0` elsewhere, the normalisation of an edge
`e = (s, t)` is `dinv s * w e * dinv t`. When every given weight is a real number, so is every
normalisation, whatever the degrees are: `dinv` is real at every node (the inverse square root of
a positive extended real is a real, `0` at `+∞`, and the other branch is `0`), a read of a
real array at any index is real, and a product of reals is real.
-/

noncomputable section

namespace Cert.NormReal

open Cert.ReferenceIdeal Cert.ReferenceIdeal.Gen Cert.ReferenceIdeal.Read Idealize.ShloMosaic Idealize.ShloMosaic.TcCoe Idealize.SL.Sem Idealize.ShloMosaic.StableHlo

/-- Every entry of the array is (the embedding of) a real number: neither infinity. -/
def IsReal {ι : Type*} (f : ι → EReal) : Prop := ∀ i, ∃ r : ℝ, f i = (r : EReal)

/-- The inverse square root of a positive extended real is a real number: for a positive real
`r` it is `(√r)⁻¹`, and at `+∞` it is `0`. -/
theorem rsqrt_real_of_pos (x : EReal) (hx : 0 < x) : ∃ r : ℝ, Ideal.rsqrt x = (r : EReal) := by
  induction x using EReal.rec with
  | bot => exact absurd hx (by simp)
  | top => exact ⟨0, by simp⟩
  | coe r =>
    have hr : 0 < r := by exact_mod_cast hx
    refine ⟨(Real.sqrt r)⁻¹, ?_⟩
    rw [Ideal.rsqrt_coe, if_neg (not_lt.mpr hr.le), if_neg hr.ne']

/-- A product of two real numbers is a real number. -/
theorem mul_real {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- The pattern `0x3F800000` denotes the real number one. -/
theorem ofBits_one : Ideal.ofBits .f32 0x3F800000#32 = ((1 : ℝ) : EReal) := by
  simp [Ideal.ofBits, Ideal.ieee, -EReal.coe_mul]; norm_num

/-- A gather reads its operand at some index, so a gather of an everywhere-real array is
everywhere real, whatever the start indices are. -/
theorem gather_real {s si t : Shape} {w : Nat} (d : GatherDims s si t) (x : s.Idx → EReal)
    (idx : IVec si w) (hx : IsReal x) : IsReal (Host.gather d x idx) :=
  fun j => hx (d.operandIdx j idx)

/-- The comparand of the degree test is zero at every node. -/
theorem v12_zero (i : S20000.Idx) : val_main_v12 (F := Ideal) i = 0 := by
  rw [val_main_v12_apply, val_main_cst_1_apply]
  exact Ideal.ofBits_zero_f32

/-- The value taken where the degree test fails is zero at every node. -/
theorem else_zero (i : S20000.Idx) : val_main_call0_v1 (F := Ideal) i = 0 := by
  rw [val_main_call0_v1_apply, val_main_call0_v0_apply, val_main_cst_2_apply]
  exact Ideal.ofBits_zero_f32

/-- The guarded inverse square root `dinv` is a real number at every node, whatever the degrees
are: where the degree is positive it is the inverse square root of a positive extended real,
and elsewhere it is zero. -/
theorem dinv_real (x1 : (⟨S2x320000, .i32⟩ : BufTy).Contents (Elt Ideal))
    (x2 : (⟨S320000, .f32⟩ : BufTy).Contents (Elt Ideal)) :
    IsReal (val_main_v15 (F := Ideal) x1 x2) := by
  intro i
  rw [val_main_v15_apply, val_main_v13_apply, val_main_v14_apply, v12_zero, else_zero]
  generalize val_main_v11 (F := Ideal) x1 x2 i = d
  show ∃ r : ℝ, Scalar.select (Ideal.cmp .ogt d 0) (Ideal.rsqrt d) (0 : EReal) = (r : EReal)
  by_cases h : (0 : EReal) < d
  · have hb : Ideal.cmp .ogt d 0 = 1#1 := by simp [Ideal.cmp, h]
    rw [hb, ValueIdx.select_one]
    exact rsqrt_real_of_pos d h
  · have hb : Ideal.cmp .ogt d 0 = 0#1 := by simp [Ideal.cmp, h]
    rw [hb, ValueIdx.select_zero]
    exact ⟨0, rfl⟩

/-- The weights with a one per self loop are real at every edge: an entry is a given weight or
the number one. -/
theorem v8_real (x2 : (⟨S320000, .f32⟩ : BufTy).Contents (Elt Ideal)) (h2 : IsReal x2) :
    IsReal (val_main_v8 (F := Ideal) x2) := by
  intro j
  unfold val_main_v8
  have h0 : (j 0).val < 340000 := (j 0).isLt
  by_cases hj : (j 0).val < 320000
  · rw [concatenate_pair_apply_left (t := S340000) (s₁ := S320000) (s₂ := S20000) 0 x2
      (val_main_v7 (F := Ideal)) concatenates_S320000_S20000_S340000_d0 j rfl
      (fun a => match a with | ⟨0, _⟩ => ⟨(j 0).val, hj⟩) (fun b => match b with | ⟨0, _⟩ => rfl)]
    exact h2 _
  · rw [concatenate_pair_apply_right (t := S340000) (s₁ := S320000) (s₂ := S20000) 0 x2
      (val_main_v7 (F := Ideal)) concatenates_S320000_S20000_S340000_d0 j rfl rfl
      (fun a => match a with | ⟨0, _⟩ => ⟨(j 0).val - 320000, by show (j 0).val - 320000 < 20000; omega⟩)
      (fun b hb => match b, hb with | ⟨0, _⟩, hb => absurd rfl hb)
      (by show (j 0).val - 320000 + 320000 = (j 0).val; omega)]
    rw [val_main_v7_apply, val_main_cst_apply]
    exact ⟨1, ofBits_one⟩

/-- The symmetric normalisation `dinv s * w e * dinv t` is a real number at every edge
`e = (s, t)` as soon as every given weight is. -/
theorem norm_real (x1 : (⟨S2x320000, .i32⟩ : BufTy).Contents (Elt Ideal))
    (x2 : (⟨S320000, .f32⟩ : BufTy).Contents (Elt Ideal)) (h2 : IsReal x2) :
    IsReal (val_main_v31 (F := Ideal) x1 x2) := by
  have h22 : IsReal (val_main_v22 (F := Ideal) x1 x2) := by
    unfold val_main_v22
    exact gather_real _ _ _ (dinv_real x1 x2)
  have h30 : IsReal (val_main_v30 (F := Ideal) x1 x2) := by
    unfold val_main_v30
    exact gather_real _ _ _ (dinv_real x1 x2)
  intro i
  rw [val_main_v31_apply, val_main_v23_apply]
  exact mul_real (mul_real (h22 i) (v8_real x2 h2 i)) (h30 i)

end Cert.NormReal
-- ==== Proof.Final.lean ====
/-
  The two programs compute one function. In the vocabulary of layers (a matrix as a function of row and column, the
  graph as landing row, source row and normalisation per edge) the reference is five layers that each multiply by the
  weights, aggregate over the edges, add the bias and activate; the idealized kernel does the same except that its
  second and third layers aggregate first and multiply afterwards. Aggregation is linear in the feature axis, so it
  commutes with the multiplication by the weights — on real numbers. The precondition makes every float input a
  real number, the normalisation is then real on every edge (the inverse square root is only taken of positive
  degrees), and relu keeps reals real, so the inputs of layers 2 and 3 are real and the two orders agree.
-/
import proofs.«154560_j68659347193894_2_alg».proof.Defs
import proofs.«154560_j68659347193894_2_alg».proof.Proof.KernelNet
import proofs.«154560_j68659347193894_2_alg».proof.Proof.RefLayers12
import proofs.«154560_j68659347193894_2_alg».proof.Proof.RefLayers34
import proofs.«154560_j68659347193894_2_alg».proof.Proof.RefLayer5
import proofs.«154560_j68659347193894_2_alg».proof.Proof.FiniteInputs
import proofs.«154560_j68659347193894_2_alg».proof.Proof.NormReal
import proofs.«154560_j68659347193894_2_alg».proof.Proof.Gen.Pre_finite_inputs

set_option maxRecDepth 16384

noncomputable section

namespace Cert.Final

open Idealize.ShloMosaic Idealize.ShloMosaic.TcCoe Idealize.ShloMosaic.ValueIdx Idealize.SL.Sem
open AggLaw Cert.Net

/-- Two matrices that agree as functions of row and column are equal. -/
theorem toFn2_inj {N C : Nat} {f g : (⟨2, ![N, C]⟩ : Shape).Idx → EReal} (h : toFn2 f = toFn2 g) : f = g := by
  funext i
  rw [eq_ix2 i]
  exact congrFun (congrFun h (i 0)) (i 1)

section Reference
open Cert.ReferenceIdeal Cert.ReferenceIdeal.Read

/-- THE REFERENCE'S NETWORK: every layer multiplies first. -/
theorem ref_net (x0 : (⟨S20000x128, .f32⟩ : BufTy).Contents (Elt Ideal)) (x1 : (⟨S2x320000, .i32⟩ : BufTy).Contents (Elt Ideal)) (x2 : (⟨S320000, .f32⟩ : BufTy).Contents (Elt Ideal)) (x3 : (⟨S128x64, .f32⟩ : BufTy).Contents (Elt Ideal)) (x4 : (⟨S64, .f32⟩ : BufTy).Contents (Elt Ideal)) (x5 : (⟨S64x128, .f32⟩ : BufTy).Contents (Elt Ideal)) (x6 : (⟨S128, .f32⟩ : BufTy).Contents (Elt Ideal)) (x7 : (⟨S128x256, .f32⟩ : BufTy).Contents (Elt Ideal)) (x8 : (⟨S256, .f32⟩ : BufTy).Contents (Elt Ideal)) (x9 : (⟨S256x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal)) :
    toFn2 (N := 20000) (C := 1) (val_main_v120 (F := Ideal) x0 x1 x2 x3 x4 x5 x6 x7 x8 x9 x10 x11 x12)
    = layerR Ideal.tanh (land x1) (src x1) (nrm x1 x2)
        (layerR relu (land x1) (src x1) (nrm x1 x2)
          (layerR relu (land x1) (src x1) (nrm x1 x2)
            (layerR relu (land x1) (src x1) (nrm x1 x2)
              (layerR relu (land x1) (src x1) (nrm x1 x2) (toFn2 (N := 20000) (C := 128) x0) (toFn2 (N := 128) (C := 64) x3) (toFn1 (C := 64) x4))
              (toFn2 (N := 64) (C := 128) x5) (toFn1 (C := 128) x6))
            (toFn2 (N := 128) (C := 256) x7) (toFn1 (C := 256) x8))
          (toFn2 (N := 256) (C := 64) x9) (toFn1 (C := 64) x10))
        (toFn2 (N := 64) (C := 1) x11) (toFn1 (C := 1) x12) := by
  rw [Cert.RefLayer5.layer5, Cert.RefLayers34.layer4, Cert.RefLayers34.layer3, Cert.RefLayers12.layer2, Cert.RefLayers12.layer1]

end Reference

/-- From memories that agree on the arguments, under the precondition, the reference's result term is the kernel's. -/
theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))) :
    Cert.ReferenceIdeal.Value.res_main_v120 (F := Ideal) m' c = Cert.KernelIdeal.Fold.K7 m ρ c := by
  rw [Cert.ReferenceIdeal.Read.val_main_v120_eq]
  obtain ⟨e0, e1, e2, e3, e4, e5, e6, e7, e8, e9, e10, e11, e12⟩ := hagree
  rw [e0, e1, e2, e3, e4, e5, e6, e7, e8, e9, e10, e11, e12]
  obtain ⟨h0, h2, h3, h4, h5, h6, h7, h8, h9, h10, h11, h12⟩ :=
    Cert.FiniteInputs.real_inputs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (hpre c)
  have hn : AggLaw.IsReal (nrm (m ((c.tc : Thread Cert.KernelIdeal.nD Cert.KernelIdeal.τ).loc Cert.KernelIdeal.main_arg1)) (m ((c.tc : Thread Cert.KernelIdeal.nD Cert.KernelIdeal.τ).loc Cert.KernelIdeal.main_arg2))) := fun e => Cert.NormReal.norm_real _ _ h2 (ix1 e)
  refine toFn2_inj (N := 20000) (C := 1) ?_
  rw [ref_net, Cert.KernelNet.kernel_net]
  exact (AggLaw.net_eq Ideal.tanh (toFn1 (C := 1) (m ((c.tc : Thread Cert.KernelIdeal.nD Cert.KernelIdeal.τ).loc Cert.KernelIdeal.main_arg12))) hn
    (fun a b => h0 (ix2 a b)) (fun a b => h3 (ix2 a b)) (fun a b => h5 (ix2 a b)) (fun a b => h7 (ix2 a b)) (fun a b => h9 (ix2 a b)) (fun a b => h11 (ix2 a b))
    (fun k => h4 (ix1 k)) (fun k => h6 (ix1 k)) (fun k => h8 (ix1 k)) (fun k => h10 (ix1 k))).symm

end Cert.Final

end
-- ==== Proof.lean ====
/-
  The certificate's five claims for a five-layer graph network whose kernel aggregates before it multiplies in two
  of its layers. The three frames: the two kernel programs' are the generated ones (eight regions among host
  stretches), the reference's is its generated run with the result dropped. The idealization rewrote nothing, so
  `preserves` is trivial. The algebraic claim: the idealized kernel's run ends with its result buffer at the composed
  term of the launch memory, the reference's at its composed term, and the two terms are one function of arguments
  that agree (the aggregation commutes with the multiplication by the weights on real data, which the precondition
  gives).
-/
import proofs.«154560_j68659347193894_2_alg».proof.Defs
import proofs.«154560_j68659347193894_2_alg».proof.Proof.Gen.Kernel
import proofs.«154560_j68659347193894_2_alg».proof.Proof.Gen.Kernel.Skeleton
import proofs.«154560_j68659347193894_2_alg».proof.Proof.Gen.Kernel.Launch
import proofs.«154560_j68659347193894_2_alg».proof.Proof.Gen.Kernel.Points
import proofs.«154560_j68659347193894_2_alg».proof.Proof.Gen.Kernel.Frame
import proofs.«154560_j68659347193894_2_alg».proof.Proof.Gen.KernelIdeal
import proofs.«154560_j68659347193894_2_alg».proof.Proof.Gen.KernelIdeal.Skeleton
import proofs.«154560_j68659347193894_2_alg».proof.Proof.Gen.KernelIdeal.Launch
import proofs.«154560_j68659347193894_2_alg».proof.Proof.Gen.KernelIdeal.Points
import proofs.«154560_j68659347193894_2_alg».proof.Proof.Gen.KernelIdeal.Frame
import proofs.«154560_j68659347193894_2_alg».proof.Proof.Gen.ReferenceIdeal
import proofs.«154560_j68659347193894_2_alg».proof.Proof.Gen.Pre_finite_inputs
import proofs.«154560_j68659347193894_2_alg».proof.Proof.Gen.ReferenceIdeal.Run
import proofs.«154560_j68659347193894_2_alg».proof.Proof.Gen.ReferenceIdeal.Read
import proofs.«154560_j68659347193894_2_alg».proof.Proof.KernelRun
import proofs.«154560_j68659347193894_2_alg».proof.Proof.Final
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs run to the end, with the arguments unchanged and with equal results: the kernel's
    result buffer at its composed term (the run with the result named, then the boundary chain), the reference's at
    its generated term, which is the same function of agreeing arguments. -/
theorem algebraic : Cert.algebraic_KernelIdeal_ReferenceIdeal := by
  intro m ρ m' ρ' hpre hagree
  refine ⟨fun c => Cert.KernelIdeal.Fold.K7 m ρ c, ?_, ?_⟩
  · exact (θ_run Cert.KernelIdeal.defs _ _).mono
      (fun r h c => ⟨(h c).1.trans (Cert.KernelIdeal.Fold.v108_W16 m ρ c), (h c).2⟩) (Cert.KernelIdeal.Run.run_result m ρ)
  · exact (θ_run Cert.ReferenceIdeal.defs _ _).mono
      (fun _ h c => ⟨(h c).1.trans (Cert.Final.result_eq m ρ m' hpre c (hagree c)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
